-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x768 : Shape := ⟨2, ![10000, 768]⟩
abbrev S10000x10000 : Shape := ⟨2, ![10000, 10000]⟩
abbrev S768x128 : Shape := ⟨2, ![768, 128]⟩
abbrev S128 : Shape := ⟨1, ![128]⟩
abbrev S384x3 : Shape := ⟨2, ![384, 3]⟩
abbrev S128x2 : Shape := ⟨2, ![128, 2]⟩
abbrev S2 : Shape := ⟨1, ![2]⟩
abbrev S_ : Shape := ⟨0, ![]⟩

class Facts : Prop where
  bcast_S_S10000x768 : S_.BroadcastsInDim S10000x768 (![] : Fin 0 → Fin S10000x768.rank)
  reducesTo_S10000x768_S_d0_1 : S10000x768.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S384x3 : S_.BroadcastsInDim S384x3 (![] : Fin 0 → Fin S384x3.rank)
  reducesTo_S384x3_S_d0_1 : S384x3.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S128x2 .f32) (main_arg15 : FVec F S2 .f32) (main_v63 : IVec S_ 1) (main_v67 : IVec S_ 1) : IVec S_ 1 :=
  let main_v68 : IVec S_ 1 := andi main_v63 main_v67
  let main_v69 : FVec F S128x2 .f32 := Host.absf main_arg14
  let main_cst_26 : FVec F S_ .f32 := constant S_ .f32 0x7F800000#32
  let main_v70 : FVec F S128x2 .f32 := broadcastInDim S128x2 ![] bcast_S_S128x2 main_cst_26
  let main_v71 : IVec S128x2 1 := cmpf .olt main_v69 main_v70
  let main_c_27 : IVec S_ 1 := constantI S_ 1 1#1
  let main_v72 : IVec S_ 1 := (fun x v => Host.reduce IntOp.andi x v reducesTo_S128x2_S_d0_1 h_S_) main_v71 main_c_27
  let main_v73 : IVec S_ 1 := andi main_v68 main_v72
  let main_v74 : FVec F S2 .f32 := Host.absf main_arg15
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg11 : FVec F S2 .f32) (main_arg12 : FVec F S128x2 .f32) (main_arg13 : FVec F S2 .f32) (main_arg14 : FVec F S128x2 .f32) (main_arg15 : FVec F S2 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S128x2 .f32 := Host.absf main_arg12
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg13
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg14 main_arg15 main_v63 main_v67

def fn_part2 {F : FTy → Type} [FloatOps F] (main_arg7 : FVec F S768x128 .f32) (main_arg8 : FVec F S128 .f32) (main_arg9 : FVec F S384x3 .f32) (main_arg10 : FVec F S128x2 .f32) (main_arg11 : FVec F S2 .f32) (main_arg12 : FVec F S128x2 .f32) (main_arg13 : FVec F S2 .f32) (main_arg14 : FVec F S128x2 .f32) (main_arg15 : FVec F S2 .f32) (main_v33 : IVec S_ 1) : IVec S_ 1 :=
  let main_v34 : FVec F S768x128 .f32 := Host.absf main_arg7
  let main_cst_12 : FVec F S_ .f32 := constant S_ .f32 0x7F800000#32
  let main_v35 : FVec F S768x128 .f32 := broadcastInDim S768x128 ![] bcast_S_S768x128 main_cst_12
  let main_v36 : IVec S768x128 1 := cmpf .olt main_v34 main_v35
  let main_c_13 : IVec S_ 1 := constantI S_ 1 1#1
  let main_v37 : IVec S_ 1 := (fun x v => Host.reduce IntOp.andi x v reducesTo_S768x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x3 .f32 := Host.absf main_arg9
  let main_cst_16 : FVec F S_ .f32 := constant S_ .f32 0x7F800000#32
  let main_v45 : FVec F S384x3 .f32 := broadcastInDim S384x3 ![] bcast_S_S384x3 main_cst_16
  let main_v46 : IVec S384x3 1 := cmpf .olt main_v44 main_v45
  let main_c_17 : IVec S_ 1 := constantI S_ 1 1#1
  let main_v47 : IVec S_ 1 := (fun x v => Host.reduce IntOp.andi x v reducesTo_S384x3_S_d0_1 h_S_) main_v46 main_c_17
  let main_v48 : IVec S_ 1 := andi main_v43 main_v47
  let main_v49 : FVec F S128x2 .f32 := Host.absf main_arg10
  let main_cst_18 : FVec F S_ .f32 := constant S_ .f32 0x7F800000#32
  let main_v50 : FVec F S128x2 .f32 := broadcastInDim S128x2 ![] bcast_S_S128x2 main_cst_18
  fn_part3 (F := F) main_arg11 main_arg12 main_arg13 main_arg14 main_arg15 main_v48 main_v49 main_v50

def fn_part1 {F : FTy → Type} [FloatOps F] (main_arg4 : FVec F S128 .f32) (main_arg5 : FVec F S768x128 .f32) (main_arg6 : FVec F S128 .f32) (main_arg7 : FVec F S768x128 .f32) (main_arg8 : FVec F S128 .f32) (main_arg9 : FVec F S384x3 .f32) (main_arg10 : FVec F S128x2 .f32) (main_arg11 : FVec F S2 .f32) (main_arg12 : FVec F S128x2 .f32) (main_arg13 : FVec F S2 .f32) (main_arg14 : FVec F S128x2 .f32) (main_arg15 : FVec F S2 .f32) (main_v13 : IVec S_ 1) (main_v16 : IVec S768x128 1) : IVec S_ 1 :=
  let main_c_5 : IVec S_ 1 := constantI S_ 1 1#1
  let main_v17 : IVec S_ 1 := (fun x v => Host.reduce IntOp.andi x v reducesTo_S768x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S768x128 .f32 := Host.absf main_arg5
  let main_cst_8 : FVec F S_ .f32 := constant S_ .f32 0x7F800000#32
  let main_v25 : FVec F S768x128 .f32 := broadcastInDim S768x128 ![] bcast_S_S768x128 main_cst_8
  let main_v26 : IVec S768x128 1 := cmpf .olt main_v24 main_v25
  let main_c_9 : IVec S_ 1 := constantI S_ 1 1#1
  let main_v27 : IVec S_ 1 := (fun x v => Host.reduce IntOp.andi x v reducesTo_S768x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S10000x768 .f32) (main_arg1 : FVec F S10000x10000 .f32) (main_arg2 : FVec F S10000x10000 .f32) (main_arg3 : FVec F S768x128 .f32) (main_arg4 : FVec F S128 .f32) (main_arg5 : FVec F S768x128 .f32) (main_arg6 : FVec F S128 .f32) (main_arg7 : FVec F S768x128 .f32) (main_arg8 : FVec F S128 .f32) (main_arg9 : FVec F S384x3 .f32) (main_arg10 : FVec F S128x2 .f32) (main_arg11 : FVec F S2 .f32) (main_arg12 : FVec F S128x2 .f32) (main_arg13 : FVec F S2 .f32) (main_arg14 : FVec F S128x2 .f32) (main_arg15 : FVec F S2 .f32) : IVec S_ 1 :=
  let main_v0 : FVec F S10000x768 .f32 := Host.absf main_arg0
  let main_cst : FVec F S_ .f32 := constant S_ .f32 0x7F800000#32
  let main_v1 : FVec F S10000x768 .f32 := broadcastInDim S10000x768 ![] bcast_S_S10000x768 main_cst
  let main_v2 : IVec S10000x768 1 := cmpf .olt main_v0 main_v1
  let main_c : IVec S_ 1 := constantI S_ 1 1#1
  let main_v3 : IVec S_ 1 := (fun x v => Host.reduce IntOp.andi x v reducesTo_S10000x768_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S768x128 .f32 := Host.absf main_arg3
  let main_cst_4 : FVec F S_ .f32 := constant S_ .f32 0x7F800000#32
  let main_v15 : FVec F S768x128 .f32 := broadcastInDim S768x128 ![] bcast_S_S768x128 main_cst_4
  let main_v16 : IVec S768x128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S10000x768 : Shape := ⟨2, ![10000, 768]⟩
abbrev S10000x10000 : Shape := ⟨2, ![10000, 10000]⟩
abbrev S768x128 : Shape := ⟨2, ![768, 128]⟩
abbrev S128 : Shape := ⟨1, ![128]⟩
abbrev S384x3 : Shape := ⟨2, ![384, 3]⟩
abbrev S128x2 : Shape := ⟨2, ![128, 2]⟩
abbrev S2 : Shape := ⟨1, ![2]⟩
abbrev S768x384 : Shape := ⟨2, ![768, 384]⟩
abbrev S256 : Shape := ⟨1, ![256]⟩
abbrev S1x256 : Shape := ⟨2, ![1, 256]⟩
abbrev S_ : Shape := ⟨0, ![]⟩
abbrev S128x8 : Shape := ⟨2, ![128, 8]⟩
abbrev S1x8 : Shape := ⟨2, ![1, 8]⟩
abbrev S1 : Shape := ⟨1, ![1]⟩
abbrev S1x128 : Shape := ⟨2, ![1, 128]⟩
abbrev S10000x256 : Shape := ⟨2, ![10000, 256]⟩
abbrev S10000x128 : Shape := ⟨2, ![10000, 128]⟩
abbrev S1000x768 : Shape := ⟨2, ![1000, 768]⟩
abbrev S1000x256 : Shape := ⟨2, ![1000, 256]⟩
abbrev S1000x128 : Shape := ⟨2, ![1000, 128]⟩
abbrev S1000x384 : Shape := ⟨2, ![1000, 384]⟩
abbrev S10000x8 : Shape := ⟨2, ![10000, 8]⟩
abbrev S200x10000 : Shape := ⟨2, ![200, 10000]⟩
abbrev S200x128 : Shape := ⟨2, ![200, 128]⟩
abbrev S200x8 : Shape := ⟨2, ![200, 8]⟩
abbrev S128x3 : Shape := ⟨2, ![128, 3]⟩
abbrev S200x3 : Shape := ⟨2, ![200, 3]⟩
abbrev S200 : Shape := ⟨1, ![200]⟩
abbrev S200x1 : Shape := ⟨2, ![200, 1]⟩
abbrev S10000x2 : Shape := ⟨2, ![10000, 2]⟩
abbrev S200x2 : Shape := ⟨2, ![200, 2]⟩

abbrev nBuf : Space → Nat
  | .hbm => 44
  | .vmem => 29
  | .smem => 0
  | _ => 0

abbrev bufTy : (tb : Table) → Fin (tcTables nBuf tb) → BufTy
  | .hbm, ⟨0, _⟩ => ⟨S10000x768, .f32⟩
  | .hbm, ⟨1, _⟩ => ⟨S10000x10000, .f32⟩
  | .hbm, ⟨2, _⟩ => ⟨S10000x10000, .f32⟩
  | .hbm, ⟨3, _⟩ => ⟨S768x128, .f32⟩
  | .hbm, ⟨4, _⟩ => ⟨S128, .f32⟩
  | .hbm, ⟨5, _⟩ => ⟨S768x128, .f32⟩
  | .hbm, ⟨6, _⟩ => ⟨S128, .f32⟩
  | .hbm, ⟨7, _⟩ => ⟨S768x128, .f32⟩
  | .hbm, ⟨8, _⟩ => ⟨S128, .f32⟩
  | .hbm, ⟨9, _⟩ => ⟨S384x3, .f32⟩
  | .hbm, ⟨10, _⟩ => ⟨S128x2, .f32⟩
  | .hbm, ⟨11, _⟩ => ⟨S2, .f32⟩
  | .hbm, ⟨12, _⟩ => ⟨S128x2, .f32⟩
  | .hbm, ⟨13, _⟩ => ⟨S2, .f32⟩
  | .hbm, ⟨14, _⟩ => ⟨S128x2, .f32⟩
  | .hbm, ⟨15, _⟩ => ⟨S2, .f32⟩
  | .hbm, ⟨16, _⟩ => ⟨S768x384, .f32⟩
  | .hbm, ⟨17, _⟩ => ⟨S256, .f32⟩
  | .hbm, ⟨18, _⟩ => ⟨S1x256, .f32⟩
  | .hbm, ⟨19, _⟩ => ⟨S_, .f32⟩
  | .hbm, ⟨20, _⟩ => ⟨S128x2, .f32⟩
  | .hbm, ⟨21, _⟩ => ⟨S128x8, .f32⟩
  | .hbm, ⟨22, _⟩ => ⟨S_, .f32⟩
  | .hbm, ⟨23, _⟩ => ⟨S1x8, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S2, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x8, .f32⟩
  | .hbm, ⟨39, _⟩ => ⟨S1x128, .f32⟩
  | .hbm, ⟨40, _⟩ => ⟨S10000x256, .f32⟩
  | .hbm, ⟨41, _⟩ => ⟨S10000x128, .f32⟩
  | .hbm, ⟨42, _⟩ => ⟨S10000x8, .f32⟩
  | .hbm, ⟨43, _⟩ => ⟨S10000x2, .f32⟩
  | .local _ .vmem, ⟨0, _⟩ => ⟨S1000x768, .f32⟩
  | .local _ .vmem, ⟨1, _⟩ => ⟨S1000x768, .f32⟩
  | .local _ .vmem, ⟨2, _⟩ => ⟨S768x384, .f32⟩
  | .local _ .vmem, ⟨3, _⟩ => ⟨S1x128, .f32⟩
  | .local _ .vmem, ⟨4, _⟩ => ⟨S1000x256, .f32⟩
  | .local _ .vmem, ⟨5, _⟩ => ⟨S1000x256, .f32⟩
  | .local _ .vmem, ⟨6, _⟩ => ⟨S1000x128, .f32⟩
  | .local _ .vmem, ⟨7, _⟩ => ⟨S1000x128, .f32⟩
  | .local _ .vmem, ⟨8, _⟩ => ⟨S200x10000, .f32⟩
  | .local _ .vmem, ⟨9, _⟩ => ⟨S200x10000, .f32⟩
  | .local _ .vmem, ⟨10, _⟩ => ⟨S200x10000, .f32⟩
  | .local _ .vmem, ⟨11, _⟩ => ⟨S200x10000, .f32⟩
  | .local _ .vmem, ⟨12, _⟩ => ⟨S10000x256, .f32⟩
  | .local _ .vmem, ⟨13, _⟩ => ⟨S200x128, .f32⟩
  | .local _ .vmem, ⟨14, _⟩ => ⟨S200x128, .f32⟩
  | .local _ .vmem, ⟨15, _⟩ => ⟨S1x256, .f32⟩
  | .local _ .vmem, ⟨16, _⟩ => ⟨S384x3, .f32⟩
  | .local _ .vmem, ⟨17, _⟩ => ⟨S128x8, .f32⟩
  | .local _ .vmem, ⟨18, _⟩ => ⟨S1x8, .f32⟩
  | .local _ .vmem, ⟨19, _⟩ => ⟨S1x8, .f32⟩
  | .local _ .vmem, ⟨20, _⟩ => ⟨S200x8, .f32⟩
  | .local _ .vmem, ⟨21, _⟩ => ⟨S200x8, .f32⟩
  | .local _ .vmem, ⟨22, _⟩ => ⟨S200x10000, .f32⟩
  | .local _ .vmem, ⟨23, _⟩ => ⟨S200x10000, .f32⟩
  | .local _ .vmem, ⟨24, _⟩ => ⟨S200x10000, .f32⟩
  | .local _ .vmem, ⟨25, _⟩ => ⟨S200x10000, .f32⟩
  | .local _ .vmem, ⟨26, _⟩ => ⟨S10000x8, .f32⟩
  | .local _ .vmem, ⟨27, _⟩ => ⟨S200x2, .f32⟩
  | .local _ .vmem, ⟨28, _⟩ => ⟨S200x2, .f32⟩
  | _, _ => ⟨S10000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_c_4 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17_0 : Ref sig .tc := ⟨.hbm, 40, rfl⟩
abbrev main_v17_1 : Ref sig .tc := ⟨.hbm, 41, rfl⟩
abbrev main_v18 : Ref sig .tc := ⟨.hbm, 42, rfl⟩
abbrev main_v19 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S200x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def k2_off1 (i : grid2.Coords) : Fin 2 → Nat :=
  let arg0 : BitVec 32 := BitVec.ofNat 32 (i 0).val
  let c200_i32 : BitVec 32 := 200#32
  let v9 : BitVec 32 := Scalar.muli arg0 c200_i32
  let v10 : Index := Scalar.indexCast v9
  let c4 : Index := 4#32
  ![v10.toNat, 4]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S768x128_S768x128_S768x128_S768x384_d1 : Shape.Concatenates [S768x128, S768x128, S768x128] S768x384 1
  concatenates_S128_S128_S256_d0 : Shape.Concatenates [S128, S128] S256 0
  bcast_S256_S1x256_1 : S256.BroadcastsInDim S1x256 (![1] : Fin 1 → Fin S1x256.rank)
  bcast_S_S128x2 : S_.BroadcastsInDim S128x2 (![] : Fin 0 → Fin S128x2.rank)
  concatenates_S128x2_S128x2_S128x2_S128x2_S128x8_d1 : Shape.Concatenates [S128x2, S128x2, S128x2, S128x2] S128x8 1
  bcast_S_S1x8 : S_.BroadcastsInDim S1x8 (![] : Fin 0 → Fin S1x8.rank)
  bcast_S_S1 : S_.BroadcastsInDim S1 (![] : Fin 0 → Fin S1.rank)
  concatenates_S1_S1_S2_d0 : Shape.Concatenates [S1, S1] S2 0
  bcast_S128_S1x128_1 : S128.BroadcastsInDim S1x128 (![1] : Fin 1 → Fin S1x128.rank)
  inb_S1000x768_S1000x768_0_0 : ∀ a, (![0, 0] : Fin 2 → Nat) a + S1000x768.size a ≤ S1000x768.size a
  h_S1000x768 : 0 < S1000x768.numel
  inb_S768x384_S768x384_0_0 : ∀ a, (![0, 0] : Fin 2 → Nat) a + S768x384.size a ≤ S768x384.size a
  h_S768x384 : 0 < S768x384.numel
  shapeCasts_S768x384_S768x384 : S768x384.ShapeCasts S768x384
  slices_S1000x384_o0_0_S1000x256 : S1000x384.Slices ![0, 0] S1000x256
  inb_S1000x256_S1000x256_0_0 : ∀ a, (![0, 0] : Fin 2 → Nat) a + S1000x256.size a ≤ S1000x256.size a
  h_S1000x256 : 0 < S1000x256.numel
  slices_S1000x384_o0_256_S1000x128 : S1000x384.Slices ![0, 256] S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S200x10000_S200x10000_0_0 : ∀ a, (![0, 0] : Fin 2 → Nat) a + S200x10000.size a ≤ S200x10000.size a
  h_S200x10000 : 0 < S200x10000.numel
  slices_S10000x256_o0_0_S10000x128 : S10000x256.Slices ![0, 0] S10000x128
  inb_S1x256_S1x128_0_0 : ∀ a, (![0, 0] : Fin 2 → Nat) a + S1x128.size a ≤ S1x256.size a
  broadcasts_S1x128_S200x128 : S1x128.Broadcasts S200x128
  slices_S10000x256_o0_128_S10000x128 : S10000x256.Slices ![0, 128] S10000x128
  inb_S1x256_S1x128_0_128 : ∀ a, (![0, 128] : Fin 2 → Nat) a + S1x128.size a ≤ S1x256.size a
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S384x3_S384x3_0_0 : ∀ a, (![0, 0] : Fin 2 → Nat) a + S384x3.size a ≤ S384x3.size a
  h_S384x3 : 0 < S384x3.numel
  slices_S384x3_o0_0_S128x3 : S384x3.Slices ![0, 0] S128x3
  slices_S384x3_o128_0_S128x3 : S384x3.Slices ![128, 0] S128x3
  slices_S384x3_o256_0_S128x3 : S384x3.Slices ![256, 0] S128x3
  reduces_S200x3_S200 : S200x3.Reduces [1] S200
  shapeCasts_S200_S200x1 : S200.ShapeCasts S200x1
  broadcasts_S200x1_S200x3 : S200x1.Broadcasts S200x3
  slices_S200x3_o0_0_S200x1 : S200x3.Slices ![0, 0] S200x1
  broadcasts_S200x1_S200x128 : S200x1.Broadcasts S200x128
  slices_S200x3_o0_1_S200x1 : S200x3.Slices ![0, 1] S200x1
  slices_S200x3_o0_2_S200x1 : S200x3.Slices ![0, 2] S200x1
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S200x8 : S1x8.Broadcasts S200x8
  iota_S200x8_d1_w32 : S200x8.Iotas .tc 32 [1]
  inb_S200x8_S200x8_0_0 : ∀ a, (![0, 0] : Fin 2 → Nat) a + S200x8.size a ≤ S200x8.size a
  h_S200x8 : 0 < S200x8.numel
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  slices_S10000x8_o0_0_S10000x2 : S10000x8.Slices ![0, 0] S10000x2
  slices_S10000x8_o0_2_S10000x2 : S10000x8.Slices ![0, 2] S10000x2
  h_S200x2 : 0 < S200x2.numel
  shapeCasts_S200x2_S200x2 : S200x2.ShapeCasts S200x2
  inb_S200x2_S200x2_0_0 : ∀ a, (![0, 0] : Fin 2 → Nat) a + S200x2.size a ≤ S200x2.size a
  scatter_S1x8_S2_S2_0_0_01_0_wf : ScatterDims.WF S1x8 S2 S2 [0] [0] [0, 1] 0
  dot_S1000x768_S768x384_S1000x384_1_0_0_1_n_n_wf : DotDims.WF S1000x768 S768x384 S1000x384 [1] [0] [0] [1] [] []
  dot_S200x10000_S10000x128_S200x128_1_0_0_1_n_n_wf : DotDims.WF S200x10000 S10000x128 S200x128 [1] [0] [0] [1] [] []
  dot_S200x128_S128x3_S200x3_1_0_0_1_n_n_wf : DotDims.WF S200x128 S128x3 S200x3 [1] [0] [0] [1] [] []
  dot_S200x128_S128x8_S200x8_1_0_0_1_n_n_wf : DotDims.WF S200x128 S128x8 S200x8 [1] [0] [0] [1] [] []
  dot_S200x10000_S10000x2_S200x2_1_0_0_1_n_n_wf : DotDims.WF S200x10000 S10000x2 S200x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S10000x768.size a
  hwx0_0 : ∀ i : grid0.Coords, EltTy.bits .f32 = 32 ∨ (Rect.block (s := S10000x768) S1000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S10000x128.size a
  hwx0_4 : ∀ i : grid0.Coords, EltTy.bits .f32 = 32 ∨ (Rect.block (s := S10000x128) S1000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S10000x256.size a
  hwx1_2 : ∀ i : grid1.Coords, EltTy.bits .f32 = 32 ∨ (Rect.block (s := S10000x256) S10000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x128.size a ≤ S10000x128.size a
  hwx1_3 : ∀ i : grid1.Coords, EltTy.bits .f32 = 32 ∨ (Rect.block (s := S10000x128) S200x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384x3.size a ≤ S384x3.size a
  hwx1_5 : ∀ i : grid1.Coords, EltTy.bits .f32 = 32 ∨ (Rect.block (s := S384x3) S384x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x8.size a ≤ S128x8.size a
  hwx1_6 : ∀ i : grid1.Coords, EltTy.bits .f32 = 32 ∨ (Rect.block (s := S128x8) S128x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8.size a ≤ S1x8.size a
  hwx1_7 : ∀ i : grid1.Coords, EltTy.bits .f32 = 32 ∨ (Rect.block (s := S1x8) S1x8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x8.size a ≤ S1x8.size a
  hwx1_8 : ∀ i : grid1.Coords, EltTy.bits .f32 = 32 ∨ (Rect.block (s := S1x8) S1x8.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S200x8.size a ≤ S10000x8.size a
  hwx1_9 : ∀ i : grid1.Coords, EltTy.bits .f32 = 32 ∨ (Rect.block (s := S10000x8) S200x8.size (cc1_transform_9 i) (hinb1_9 i)).WholeWords (EltTy.packing .f32)
  hrank2 : 0 < grid2.rank
  k2_off1_inb : ∀ i : grid2.Coords, ∀ a, (k2_off1 i) a + S200x2.size a ≤ S10000x8.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x8.size a ≤ S10000x8.size a
  hwx2_2 : ∀ i : grid2.Coords, EltTy.bits .f32 = 32 ∨ (Rect.block (s := S10000x8) S10000x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x2.size a ≤ S10000x2.size a
  hwx2_3 : ∀ i : grid2.Coords, EltTy.bits .f32 = 32 ∨ (Rect.block (s := S10000x2) S200x2.size (cc2_transform_3 i) (hinb2_3 i)).WholeWords (EltTy.packing .f32)

variable [Facts₀]

def scatter_S1x8_S2_S2_0_0_01_0 : ScatterDims S1x8 S2 S2 where
  updateWindowDims := [0]
  insertedWindowDims := [0]
  scatterDimsToOperandDims := [0, 1]
  indexVectorDim := 0
  wf := scatter_S1x8_S2_S2_0_0_01_0_wf
def dot_S1000x768_S768x384_S1000x384_1_0_0_1_n_n : DotDims S1000x768 S768x384 S1000x384 where
  lhsContracting := [1]
  rhsContracting := [0]
  lhsNonContracting := [0]
  rhsNonContracting := [1]
  lhsBatch := []
  rhsBatch := []
  wf := dot_S1000x768_S768x384_S1000x384_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x3_S200x3_1_0_0_1_n_n : DotDims S200x128 S128x3 S200x3 where
  lhsContracting := [1]
  rhsContracting := [0]
  lhsNonContracting := [0]
  rhsNonContracting := [1]
  lhsBatch := []
  rhsBatch := []
  wf := dot_S200x128_S128x3_S200x3_1_0_0_1_n_n_wf
def dot_S200x128_S128x8_S200x8_1_0_0_1_n_n : DotDims S200x128 S128x8 S200x8 where
  lhsContracting := [1]
  rhsContracting := [0]
  lhsNonContracting := [0]
  rhsNonContracting := [1]
  lhsBatch := []
  rhsBatch := []
  wf := dot_S200x128_S128x8_S200x8_1_0_0_1_n_n_wf
def dot_S200x10000_S10000x2_S200x2_1_0_0_1_n_n : DotDims S200x10000 S10000x2 S200x2 where
  lhsContracting := [1]
  rhsContracting := [0]
  lhsNonContracting := [0]
  rhsNonContracting := [1]
  lhsBatch := []
  rhsBatch := []
  wf := dot_S200x10000_S10000x2_S200x2_1_0_0_1_n_n_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S1000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_0) S10000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17_1) S200x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S384x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S128x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1x8.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S200x8.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S10000x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S200x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x768 : Shape := ⟨2, ![10000, 768]⟩
abbrev S10000x10000 : Shape := ⟨2, ![10000, 10000]⟩
abbrev S768x128 : Shape := ⟨2, ![768, 128]⟩
abbrev S128 : Shape := ⟨1, ![128]⟩
abbrev S384x3 : Shape := ⟨2, ![384, 3]⟩
abbrev S128x2 : Shape := ⟨2, ![128, 2]⟩
abbrev S2 : Shape := ⟨1, ![2]⟩
abbrev S10000x128 : Shape := ⟨2, ![10000, 128]⟩
abbrev S1x128 : Shape := ⟨2, ![1, 128]⟩
abbrev S10000x384 : Shape := ⟨2, ![10000, 384]⟩
abbrev S10000x3 : Shape := ⟨2, ![10000, 3]⟩
abbrev S_ : Shape := ⟨0, ![]⟩
abbrev S10000 : Shape := ⟨1, ![10000]⟩
abbrev S10000x1 : Shape := ⟨2, ![10000, 1]⟩
abbrev S10000x1x3 : Shape := ⟨3, ![10000, 1, 3]⟩
abbrev S10000x128x1 : Shape := ⟨3, ![10000, 128, 1]⟩
abbrev S10000x128x3 : Shape := ⟨3, ![10000, 128, 3]⟩
abbrev S10000x2 : Shape := ⟨2, ![10000, 2]⟩
abbrev S1x2 : Shape := ⟨2, ![1, 2]⟩

abbrev nBuf : Space → Nat
  | .hbm => 74
  | .vmem => 0
  | .smem => 0
  | _ => 0

abbrev bufTy : (tb : Table) → Fin (tcTables nBuf tb) → BufTy
  | .hbm, ⟨0, _⟩ => ⟨S10000x768, .f32⟩
  | .hbm, ⟨1, _⟩ => ⟨S10000x10000, .f32⟩
  | .hbm, ⟨2, _⟩ => ⟨S10000x10000, .f32⟩
  | .hbm, ⟨3, _⟩ => ⟨S768x128, .f32⟩
  | .hbm, ⟨4, _⟩ => ⟨S128, .f32⟩
  | .hbm, ⟨5, _⟩ => ⟨S768x128, .f32⟩
  | .hbm, ⟨6, _⟩ => ⟨S128, .f32⟩
  | .hbm, ⟨7, _⟩ => ⟨S768x128, .f32⟩
  | .hbm, ⟨8, _⟩ => ⟨S128, .f32⟩
  | .hbm, ⟨9, _⟩ => ⟨S384x3, .f32⟩
  | .hbm, ⟨10, _⟩ => ⟨S128x2, .f32⟩
  | .hbm, ⟨11, _⟩ => ⟨S2, .f32⟩
  | .hbm, ⟨12, _⟩ => ⟨S128x2, .f32⟩
  | .hbm, ⟨13, _⟩ => ⟨S2, .f32⟩
  | .hbm, ⟨14, _⟩ => ⟨S128x2, .f32⟩
  | .hbm, ⟨15, _⟩ => ⟨S2, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x384, .f32⟩
  | .hbm, ⟨32, _⟩ => ⟨S10000x3, .f32⟩
  | .hbm, ⟨33, _⟩ => ⟨S10000x3, .f32⟩
  | .hbm, ⟨34, _⟩ => ⟨S_, .f32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x3, .f32⟩
  | .hbm, ⟨41, _⟩ => ⟨S10000x3, .f32⟩
  | .hbm, ⟨42, _⟩ => ⟨S10000x3, .f32⟩
  | .hbm, ⟨43, _⟩ => ⟨S_, .f32⟩
  | .hbm, ⟨44, _⟩ => ⟨S10000, .f32⟩
  | .hbm, ⟨45, _⟩ => ⟨S10000x1, .f32⟩
  | .hbm, ⟨46, _⟩ => ⟨S10000x3, .f32⟩
  | .hbm, ⟨47, _⟩ => ⟨S10000x3, .f32⟩
  | .hbm, ⟨48, _⟩ => ⟨S10000x1x3, .f32⟩
  | .hbm, ⟨49, _⟩ => ⟨S10000x128x1, .f32⟩
  | .hbm, ⟨50, _⟩ => ⟨S10000x128x1, .f32⟩
  | .hbm, ⟨51, _⟩ => ⟨S10000x128x1, .f32⟩
  | .hbm, ⟨52, _⟩ => ⟨S10000x128x3, .f32⟩
  | .hbm, ⟨53, _⟩ => ⟨S10000x128x3, .f32⟩
  | .hbm, ⟨54, _⟩ => ⟨S10000x128x3, .f32⟩
  | .hbm, ⟨55, _⟩ => ⟨S_, .f32⟩
  | .hbm, ⟨56, _⟩ => ⟨S10000x128, .f32⟩
  | .hbm, ⟨57, _⟩ => ⟨S10000x2, .f32⟩
  | .hbm, ⟨58, _⟩ => ⟨S10000x2, .f32⟩
  | .hbm, ⟨59, _⟩ => ⟨S1x2, .f32⟩
  | .hbm, ⟨60, _⟩ => ⟨S10000x2, .f32⟩
  | .hbm, ⟨61, _⟩ => ⟨S10000x2, .f32⟩
  | .hbm, ⟨62, _⟩ => ⟨S10000x2, .f32⟩
  | .hbm, ⟨63, _⟩ => ⟨S10000x2, .f32⟩
  | .hbm, ⟨64, _⟩ => ⟨S1x2, .f32⟩
  | .hbm, ⟨65, _⟩ => ⟨S10000x2, .f32⟩
  | .hbm, ⟨66, _⟩ => ⟨S10000x2, .f32⟩
  | .hbm, ⟨67, _⟩ => ⟨S10000x2, .f32⟩
  | .hbm, ⟨68, _⟩ => ⟨S1x2, .f32⟩
  | .hbm, ⟨69, _⟩ => ⟨S10000x2, .f32⟩
  | .hbm, ⟨70, _⟩ => ⟨S10000x2, .f32⟩
  | .hbm, ⟨71, _⟩ => ⟨S10000x2, .f32⟩
  | .hbm, ⟨72, _⟩ => ⟨S10000x2, .f32⟩
  | .hbm, ⟨73, _⟩ => ⟨S10000x2, .f32⟩
  | _, _ => ⟨S10000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_2 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S10000x128_S10000x128_S10000x128_S10000x384_d1 : Shape.Concatenates [S10000x128, S10000x128, S10000x128] S10000x384 1
  reducesTo_S10000x3_S10000_d1 : S10000x3.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x3_0_1 : S10000x1.BroadcastsInDim S10000x3 (![0, 1] : Fin 2 → Fin S10000x3.rank)
  bcast_S10000x3_S10000x1x3_0_2 : S10000x3.BroadcastsInDim S10000x1x3 (![0, 2] : Fin 2 → Fin S10000x1x3.rank)
  bcast_S10000x128_S10000x128x1_0_1 : S10000x128.BroadcastsInDim S10000x128x1 (![0, 1] : Fin 2 → Fin S10000x128x1.rank)
  concatenates_S10000x128x1_S10000x128x1_S10000x128x1_S10000x128x3_d2 : Shape.Concatenates [S10000x128x1, S10000x128x1, S10000x128x1] S10000x128x3 2
  bcast_S10000x1x3_S10000x128x3_0_1_2 : S10000x1x3.BroadcastsInDim S10000x128x3 (![0, 1, 2] : Fin 3 → Fin S10000x128x3.rank)
  reducesTo_S10000x128x3_S10000x128_d2 : S10000x128x3.ReducesTo [2] S10000x128
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  dot_S10000x768_S768x128_S10000x128_1_0_0_1_n_n_wf : DotDims.WF S10000x768 S768x128 S10000x128 [1] [0] [0] [1] [] []
  dot_S10000x10000_S10000x128_S10000x128_1_0_0_1_n_n_wf : DotDims.WF S10000x10000 S10000x128 S10000x128 [1] [0] [0] [1] [] []
  dot_S10000x384_S384x3_S10000x3_1_0_0_1_n_n_wf : DotDims.WF S10000x384 S384x3 S10000x3 [1] [0] [0] [1] [] []
  dot_S10000x128_S128x2_S10000x2_1_0_0_1_n_n_wf : DotDims.WF S10000x128 S128x2 S10000x2 [1] [0] [0] [1] [] []
  dot_S10000x10000_S10000x2_S10000x2_1_0_0_1_n_n_wf : DotDims.WF S10000x10000 S10000x2 S10000x2 [1] [0] [0] [1] [] []

variable [Facts₀]

def dot_S10000x768_S768x128_S10000x128_1_0_0_1_n_n : DotDims S10000x768 S768x128 S10000x128 where
  lhsContracting := [1]
  rhsContracting := [0]
  lhsNonContracting := [0]
  rhsNonContracting := [1]
  lhsBatch := []
  rhsBatch := []
  wf := dot_S10000x768_S768x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x384_S384x3_S10000x3_1_0_0_1_n_n : DotDims S10000x384 S384x3 S10000x3 where
  lhsContracting := [1]
  rhsContracting := [0]
  lhsNonContracting := [0]
  rhsNonContracting := [1]
  lhsBatch := []
  rhsBatch := []
  wf := dot_S10000x384_S384x3_S10000x3_1_0_0_1_n_n_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf
def dot_S10000x10000_S10000x2_S10000x2_1_0_0_1_n_n : DotDims S10000x10000 S10000x2 S10000x2 where
  lhsContracting := [1]
  rhsContracting := [0]
  lhsNonContracting := [0]
  rhsNonContracting := [1]
  lhsBatch := []
  rhsBatch := []
  wf := dot_S10000x10000_S10000x2_S10000x2_1_0_0_1_n_n_wf

class Facts : Prop extends Facts₀ where

variable [Facts]
-- ==== Proof.KData.lean ====
/- The data of the three pipelined regions, at a parameter `V`: the contents of the core's arrays when a
   region is entered. For each region: the block of every window at every grid point, read off `V`; the
   rectangles through which the body reads and writes its staging buffers; the contents the body leaves in
   each output buffer, as a function of the input blocks; and the proof data of the pipeline built from them. -/
import proofs.«110970_g76141180223726_cont_sun_m_824_6_alg».proof.Proof.Gen.Kernel.Launch
import proofs.«110970_g76141180223726_cont_sun_m_824_6_alg».proof.Proof.Gen.Kernel.Skeleton
import proofs.«110970_g76141180223726_cont_sun_m_824_6_alg».proof.Proof.Gen.Kernel.Points
import Idealize.ShloMosaic.Lib.Pipeline.FrameBody

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the contents of the core's arrays at the moment a region starts
variable (V : (c : Dev nD) → (b : Ref sig .tc) → Buf (Elt F) ((c : Thread nD τ).loc b))

/-! # Region 0: the projection (grid of 10 points) -/

/-- The block of window `w` at grid point `t`: the sub-array of `V`'s array of that window which the window's
    index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles of the five staging buffers (every access of this body is a whole block). -/
abbrev r0_0 : Rect S1000x768 := Rect.unit (s := S1000x768) ![0, 0] S1000x768.size inb_S1000x768_S1000x768_0_0
abbrev r0_1 : Rect S768x384 := Rect.unit (s := S768x384) ![0, 0] S768x384.size inb_S768x384_S768x384_0_0
abbrev r0_2 : Rect S1x128 := Rect.unit (s := S1x128) ![0, 0] S1x128.size inb_S1x128_S1x128_0_0
abbrev r0_3 : Rect S1000x256 := Rect.unit (s := S1000x256) ![0, 0] S1000x256.size inb_S1000x256_S1000x256_0_0
abbrev r0_4 : Rect S1000x128 := Rect.unit (s := S1000x128) ![0, 0] S1000x128.size inb_S1000x128_S1000x128_0_0

/-- Output window 3 after the body: one store over the whole 1000x256 block, of columns 0..255 of the
    product of the row block `x0` with the weights `x1`. -/
def out0_3 (x0 : Vec F S1000x768 .f32) (x1 : Vec F S768x384 .f32) : Vec F S1000x256 .f32 :=
  View.canon [⟨r0_3, k0_pay2 (View.ld x0 r0_0) (View.ld x1 r0_1)⟩]

/-- Output window 4 after the body: one store over the whole 1000x128 block, of tanh of columns 256..383 of
    the same product plus the bias row `x2`. -/
def out0_4 (x0 : Vec F S1000x768 .f32) (x1 : Vec F S768x384 .f32) (x2 : Vec F S1x128 .f32) : Vec F S1000x128 .f32 :=
  View.canon [⟨r0_4, k0_pay3 (View.ld x0 r0_0) (View.ld x1 r0_1) (View.ld x2 r0_2)⟩]

/-- The proof data of region 0 on core `c`: each array as `V` has it; after the body at point `t` every input
    buffer still holds its block and every output buffer holds `out0_W` of the input blocks; the invariant is
    the untouched remainder of the core's state; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 1 t) (iblk0 V c 2 t) := by dsimp only [dat0]

/-! # Region 1: the first layer (grid of 50 points) -/

/-- The block of window `w` at grid point `t`, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles of the body's accesses. All are whole buffers except window 4's: its 1x256 buffer is read
    through two 1x128 rectangles, columns 0..127 (`r1_4a`) and columns 128..255 (`r1_4b`). -/
abbrev r1_0 : Rect S200x10000 := Rect.unit (s := S200x10000) ![0, 0] S200x10000.size inb_S200x10000_S200x10000_0_0
abbrev r1_1 : Rect S200x10000 := Rect.unit (s := S200x10000) ![0, 0] S200x10000.size inb_S200x10000_S200x10000_0_0
abbrev r1_2 : Rect S10000x256 := Rect.unit (s := S10000x256) ![0, 0] S10000x256.size inb_S10000x256_S10000x256_0_0
abbrev r1_3 : Rect S200x128 := Rect.unit (s := S200x128) ![0, 0] S200x128.size inb_S200x128_S200x128_0_0
abbrev r1_4a : Rect S1x256 := Rect.unit (s := S1x256) ![0, 0] S1x128.size inb_S1x256_S1x128_0_0
abbrev r1_4b : Rect S1x256 := Rect.unit (s := S1x256) ![0, 128] S1x128.size inb_S1x256_S1x128_0_128
abbrev r1_5 : Rect S384x3 := Rect.unit (s := S384x3) ![0, 0] S384x3.size inb_S384x3_S384x3_0_0
abbrev r1_6 : Rect S128x8 := Rect.unit (s := S128x8) ![0, 0] S128x8.size inb_S128x8_S128x8_0_0
abbrev r1_7 : Rect S1x8 := Rect.unit (s := S1x8) ![0, 0] S1x8.size inb_S1x8_S1x8_0_0
abbrev r1_8 : Rect S1x8 := Rect.unit (s := S1x8) ![0, 0] S1x8.size inb_S1x8_S1x8_0_0
abbrev r1_9 : Rect S200x8 := Rect.unit (s := S200x8) ![0, 0] S200x8.size inb_S200x8_S200x8_0_0

/-- Output window 9 after the body: one store over the whole 200x8 block. Its value combines three 200x128
    branch activations (two aggregations of the 10000x256 features by the adjacency row blocks `x0`, `x1`,
    each with its half of the bias row `x4`, and the self block `x3`), weights them by a row-wise softmax of
    their scores against `x5`, and applies the head `x6`, `x7`, `x8`. -/
def out1_9 (x0 : Vec F S200x10000 .f32) (x1 : Vec F S200x10000 .f32) (x2 : Vec F S10000x256 .f32)
    (x3 : Vec F S200x128 .f32) (x4 : Vec F S1x256 .f32) (x5 : Vec F S384x3 .f32) (x6 : Vec F S128x8 .f32)
    (x7 : Vec F S1x8 .f32) (x8 : Vec F S1x8 .f32) : Vec F S200x8 .f32 :=
  View.canon [⟨r1_9, k1_pay1
    (k1_pay3 (View.ld x2 r1_2) (View.ld x0 r1_0) (View.ld x4 r1_4a))
    (k1_pay4 (View.ld x2 r1_2) (View.ld x1 r1_1) (View.ld x4 r1_4b))
    (k1_pay5 (View.ld x3 r1_3))
    (k1_pay6 (View.ld x2 r1_2) (View.ld x0 r1_0) (View.ld x4 r1_4a) (View.ld x1 r1_1) (View.ld x4 r1_4b) (View.ld x3 r1_3) (View.ld x5 r1_5))
    (k1_pay7 (View.ld x2 r1_2) (View.ld x0 r1_0) (View.ld x4 r1_4a) (View.ld x1 r1_1) (View.ld x4 r1_4b) (View.ld x3 r1_3) (View.ld x5 r1_5))
    (View.ld x6 r1_6) (View.ld x7 r1_7) (View.ld x8 r1_8)⟩]

/-- The proof data of region 1 on core `c`, as for region 0: nine input windows kept, one output window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t)
        (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t)
        (iblk1 V c 5 t) (iblk1 V c 6 t) (iblk1 V c 7 t) (iblk1 V c 8 t) := by dsimp only [dat1]

/-! # Region 2: the second layer (grid of 50 points) -/

/-- The block of window `w` at grid point `t`, read off `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangles of the body's accesses: whole buffers, and one 200x2 rectangle of window 2's 10000x8
    buffer whose row offset is 200 times the grid coordinate and whose column offset is 4 (`r2_2o i`). -/
abbrev r2_0 : Rect S200x10000 := Rect.unit (s := S200x10000) ![0, 0] S200x10000.size inb_S200x10000_S200x10000_0_0
abbrev r2_1 : Rect S200x10000 := Rect.unit (s := S200x10000) ![0, 0] S200x10000.size inb_S200x10000_S200x10000_0_0
abbrev r2_2 : Rect S10000x8 := Rect.unit (s := S10000x8) ![0, 0] S10000x8.size inb_S10000x8_S10000x8_0_0
abbrev r2_2o (i : grid2.Coords) : Rect S10000x8 := Rect.unit (s := S10000x8) (k2_off1 i) S200x2.size (k2_off1_inb i)
abbrev r2_3 : Rect S200x2 := Rect.unit (s := S200x2) ![0, 0] S200x2.size inb_S200x2_S200x2_0_0

/-- Output window 3 after the body at grid coordinate `i`: one store over the whole 200x2 block, of the two
    aggregations of column pairs 0..1 and 2..3 of the 10000x8 array `x2` by the adjacency row blocks `x0`,
    `x1`, plus rows 200 i .. 200 i + 199, columns 4..5, of `x2` itself. -/
def out2_3 (i : grid2.Coords) (x0 : Vec F S200x10000 .f32) (x1 : Vec F S200x10000 .f32)
    (x2 : Vec F S10000x8 .f32) : Vec F S200x2 .f32 :=
  View.canon [⟨r2_3, k2_pay1 (View.ld x2 r2_2) (View.ld x0 r2_0) (View.ld x1 r2_1) (View.ld x2 (r2_2o i))⟩]

/-- The proof data of region 2 on core `c`: three input windows kept, one output window, whose contents
    depend on the grid coordinate of the point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (grid2.coords t) (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (grid2.coords t) (iblk2 V c 0 t) (iblk2 V c 1 t) (iblk2 V c 2 t) := by
  dsimp only [dat2]

end Regions

end Cert.Kernel.Hand

end
-- ==== Proof.KFold.lean ====
/- The contents of the core's buffers at each boundary of the program: at launch, after the host operations,
   and after each of the three regions. A region leaves each of its arrays at what its write-backs produce
   (an input array is never written back, so it keeps its contents) and every other buffer as it found it.
   From this, every buffer that is no region's output reads, at the end, what the host operations left in it,
   and every argument reads its launch contents. -/
import proofs.«110970_g76141180223726_cont_sun_m_824_6_alg».proof.Proof.KData
import proofs.«110970_g76141180223726_cont_sun_m_824_6_alg».proof.Proof.Gen.Kernel.Regions
import Idealize.ShloMosaic.Lib.Pipeline.FrameSuffix

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The fold of the buffer contents through the program -/

/-- Core `c`'s buffers at launch. -/
abbrev W0 (c : Dev nD) : Valuation τ sig (Elt F) := fun b => m (c, b)
/-- After the host operations: the contents region 0 starts from. -/
abbrev W1 (c : Dev nD) : Valuation τ sig (Elt F) := StableHlo.after hostOps0 (W0 m c)
/-- The same, indexed by the core's own references. -/
abbrev V1 : (c : Dev nD) → (b : Ref sig .tc) → Buf (Elt F) ((c : Thread nD τ).loc b) := fun c b => W1 m c b

/-- After region 0: its arrays at what its pipeline leaves, every other buffer unchanged. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1 (entered from region 0's exit contents: no host operation in between). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After region 2: the contents the program ends with. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## A region changes only its output arrays -/

/-- The output windows' arrays of each region. -/
theorem outs0 : ∀ w : Fin cfg0.W, (cfg0.win w).isOut = true →
    Pipeline.arrRef spec0 w ∈ ([main_v17_0, main_v17_1] : List (Ref sig .tc)) := by decide
theorem outs1 : ∀ w : Fin cfg1.W, (cfg1.win w).isOut = true →
    Pipeline.arrRef spec1 w ∈ ([main_v18] : List (Ref sig .tc)) := by decide
theorem outs2 : ∀ w : Fin cfg2.W, (cfg2.win w).isOut = true →
    Pipeline.arrRef spec2 w ∈ ([main_v19] : List (Ref sig .tc)) := by decide

/-- Region 0 leaves every buffer other than its two outputs as it found it: an input window's array is never
    written back, and a buffer that is no window's array is not touched. -/
theorem V2_of (c : Dev nD) (b : Ref sig .tc) (h : b ∉ ([main_v17_0, main_v17_1] : List (Ref sig .tc))) :
    V2 m c b = V1 m c b := by
  by_cases hw : ∃ w, Pipeline.arrRef spec0 w = b
  · obtain ⟨w, rfl⟩ := hw
    have hin : (cfg0.win w).isOut = false := by
      cases ho : (cfg0.win w).isOut with
      | false => rfl
      | true => exact absurd (outs0 w ho) h
    exact (W2_arr m c w).trans (((dat0 (V1 m) c).arrAt_in w hin _).trans (A_eq0 (V1 m) c w))
  · exact W2_of_ne m c b fun w e => hw ⟨w, e⟩

/-- Region 1 leaves every buffer other than its output as it found it. -/
theorem V3_of (c : Dev nD) (b : Ref sig .tc) (h : b ∉ ([main_v18] : List (Ref sig .tc))) :
    V3 m c b = V2 m c b := by
  by_cases hw : ∃ w, Pipeline.arrRef spec1 w = b
  · obtain ⟨w, rfl⟩ := hw
    have hin : (cfg1.win w).isOut = false := by
      cases ho : (cfg1.win w).isOut with
      | false => rfl
      | true => exact absurd (outs1 w ho) h
    exact (W3_arr m c w).trans (((dat1 (V2 m) c).arrAt_in w hin _).trans (A_eq1 (V2 m) c w))
  · exact W3_of_ne m c b fun w e => hw ⟨w, e⟩

/-- Region 2 leaves every buffer other than its output as it found it. -/
theorem V4_of (c : Dev nD) (b : Ref sig .tc) (h : b ∉ ([main_v19] : List (Ref sig .tc))) :
    V4 m c b = V3 m c b := by
  by_cases hw : ∃ w, Pipeline.arrRef spec2 w = b
  · obtain ⟨w, rfl⟩ := hw
    have hin : (cfg2.win w).isOut = false := by
      cases ho : (cfg2.win w).isOut with
      | false => rfl
      | true => exact absurd (outs2 w ho) h
    exact (W4_arr m c w).trans (((dat2 (V3 m) c).arrAt_in w hin _).trans (A_eq2 (V3 m) c w))
  · exact W4_of_ne m c b fun w e => hw ⟨w, e⟩

/-- A buffer that is neither of region 0's outputs nor region 1's reads, when region 2 starts, what the host
    operations left in it. -/
theorem V3_of_V1 (c : Dev nD) (b : Ref sig .tc)
    (h : b ∉ ([main_v17_0, main_v17_1, main_v18] : List (Ref sig .tc))) : V3 m c b = V1 m c b :=
  (V3_of m c b fun hb => h (by simp only [List.mem_cons, List.not_mem_nil, or_false] at hb ⊢; exact Or.inr (Or.inr hb))).trans
    (V2_of m c b fun hb => h (by
      simp only [List.mem_cons, List.not_mem_nil, or_false] at hb ⊢
      rcases hb with hb | hb
      · exact Or.inl hb
      · exact Or.inr (Or.inl hb)))

/-- A buffer that is no region's output ends at what the host operations left in it. -/
theorem V4_of_V1 (c : Dev nD) (b : Ref sig .tc)
    (h : b ∉ ([main_v17_0, main_v17_1, main_v18, main_v19] : List (Ref sig .tc))) : V4 m c b = V1 m c b :=
  (V4_of m c b fun hb => h (by
      simp only [List.mem_cons, List.not_mem_nil, or_false] at hb ⊢; exact Or.inr (Or.inr (Or.inr hb)))).trans
    (V3_of_V1 m c b fun hb => h (by
      simp only [List.mem_cons, List.not_mem_nil, or_false] at hb ⊢
      rcases hb with hb | hb | hb
      · exact Or.inl hb
      · exact Or.inr (Or.inl hb)
      · exact Or.inr (Or.inr (Or.inl hb))))

/-- A buffer no host operation writes holds its launch contents when region 0 starts. -/
theorem V1_of_launch (c : Dev nD) (b : Ref sig .tc) (h : b ∉ (hostOps0_W : List (Ref sig .tc))) :
    V1 m c b = m ((c : Thread nD τ).loc b) :=
  (Cert.Kernel.Gen.V1_of m c b h).trans rfl

/-! ## The outputs read back -/

/-- The program's result array ends at what region 2's write-backs produce. -/
theorem W4_main_v19 (c : Dev nD) : W4 m c (Proc.devRef .tc main_v19) = (dat2 (V3 m) c).arrAt 3 cfg2.N :=
  W4_arr m c 3
/-- Region 2 reads region 1's output at what region 1's write-backs produced. -/
theorem V3_main_v18 (c : Dev nD) : V3 m c main_v18 = (dat1 (V2 m) c).arrAt 9 cfg1.N :=
  W3_arr m c 9
/-- Region 1 reads region 0's two outputs at what region 0's write-backs produced. -/
theorem V2_main_v17_0 (c : Dev nD) : V2 m c main_v17_0 = (dat0 (V1 m) c).arrAt 3 cfg0.N :=
  W2_arr m c 3
theorem V2_main_v17_1 (c : Dev nD) : V2 m c main_v17_1 = (dat0 (V1 m) c).arrAt 4 cfg0.N :=
  W2_arr m c 4

/-! ## The arguments end as launched -/

/-- An argument is written by no host operation and is no region's output. -/
theorem W4_arg (c : Dev nD) (b : Ref sig .tc)
    (h : b ∉ ([main_v17_0, main_v17_1, main_v18, main_v19] : List (Ref sig .tc)))
    (h' : b ∉ (hostOps0_W : List (Ref sig .tc))) :
    W4 m c (Proc.devRef .tc b) = m ((c : Thread nD τ).loc b) :=
  (V4_of_V1 m c b h).trans (V1_of_launch m c b h')

theorem W4_main_arg0 (c : Dev nD) : W4 m c (Proc.devRef .tc main_arg0) = m ((c : Thread nD τ).loc main_arg0) := W4_arg m c main_arg0 (by decide) (by decide)
theorem W4_main_arg1 (c : Dev nD) : W4 m c (Proc.devRef .tc main_arg1) = m ((c : Thread nD τ).loc main_arg1) := W4_arg m c main_arg1 (by decide) (by decide)
theorem W4_main_arg2 (c : Dev nD) : W4 m c (Proc.devRef .tc main_arg2) = m ((c : Thread nD τ).loc main_arg2) := W4_arg m c main_arg2 (by decide) (by decide)
theorem W4_main_arg3 (c : Dev nD) : W4 m c (Proc.devRef .tc main_arg3) = m ((c : Thread nD τ).loc main_arg3) := W4_arg m c main_arg3 (by decide) (by decide)
theorem W4_main_arg4 (c : Dev nD) : W4 m c (Proc.devRef .tc main_arg4) = m ((c : Thread nD τ).loc main_arg4) := W4_arg m c main_arg4 (by decide) (by decide)
theorem W4_main_arg5 (c : Dev nD) : W4 m c (Proc.devRef .tc main_arg5) = m ((c : Thread nD τ).loc main_arg5) := W4_arg m c main_arg5 (by decide) (by decide)
theorem W4_main_arg6 (c : Dev nD) : W4 m c (Proc.devRef .tc main_arg6) = m ((c : Thread nD τ).loc main_arg6) := W4_arg m c main_arg6 (by decide) (by decide)
theorem W4_main_arg7 (c : Dev nD) : W4 m c (Proc.devRef .tc main_arg7) = m ((c : Thread nD τ).loc main_arg7) := W4_arg m c main_arg7 (by decide) (by decide)
theorem W4_main_arg8 (c : Dev nD) : W4 m c (Proc.devRef .tc main_arg8) = m ((c : Thread nD τ).loc main_arg8) := W4_arg m c main_arg8 (by decide) (by decide)
theorem W4_main_arg9 (c : Dev nD) : W4 m c (Proc.devRef .tc main_arg9) = m ((c : Thread nD τ).loc main_arg9) := W4_arg m c main_arg9 (by decide) (by decide)
theorem W4_main_arg10 (c : Dev nD) : W4 m c (Proc.devRef .tc main_arg10) = m ((c : Thread nD τ).loc main_arg10) := W4_arg m c main_arg10 (by decide) (by decide)
theorem W4_main_arg11 (c : Dev nD) : W4 m c (Proc.devRef .tc main_arg11) = m ((c : Thread nD τ).loc main_arg11) := W4_arg m c main_arg11 (by decide) (by decide)
theorem W4_main_arg12 (c : Dev nD) : W4 m c (Proc.devRef .tc main_arg12) = m ((c : Thread nD τ).loc main_arg12) := W4_arg m c main_arg12 (by decide) (by decide)
theorem W4_main_arg13 (c : Dev nD) : W4 m c (Proc.devRef .tc main_arg13) = m ((c : Thread nD τ).loc main_arg13) := W4_arg m c main_arg13 (by decide) (by decide)
theorem W4_main_arg14 (c : Dev nD) : W4 m c (Proc.devRef .tc main_arg14) = m ((c : Thread nD τ).loc main_arg14) := W4_arg m c main_arg14 (by decide) (by decide)
theorem W4_main_arg15 (c : Dev nD) : W4 m c (Proc.devRef .tc main_arg15) = m ((c : Thread nD τ).loc main_arg15) := W4_arg m c main_arg15 (by decide) (by decide)

end Cert.Kernel.Hand

end
-- ==== Proof.KBody0.lean ====
/- Region 0's kernel body, run once on abstract staging buffers: with the three input buffers holding `x0`, `x1`,
   `x2` and the two output buffers holding anything, it terminates leaving the inputs as they were and the
   outputs at `out0_3 x0 x1` and `out0_4 x0 x1 x2`. At every grid point the input buffers hold their windows'
   blocks, so this is the obligation the pipeline asks of the body at that point. -/
import proofs.«110970_g76141180223726_cont_sun_m_824_6_alg».proof.Proof.KData
import Idealize.ShloMosaic.Lib.Pipeline.FrameBody
import Idealize.ShloMosaic.Lib.Ring
import Idealize.ShloMosaic.Lib.Tactic

set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## One store fills each output buffer -/

theorem cover0_3 (p0 : Vec F S1000x256 .f32) (y : S1000x256.Idx) :
    ∃ pc ∈ ([⟨r0_3, p0⟩] : List (View.Piece (Elt F) S1000x256 .f32)), y ∈ pc.1.set :=
  View.cover_of_tiled [⟨r0_3, p0⟩] S1000x256.size (by rfl) y

theorem cover0_4 (p0 : Vec F S1000x128 .f32) (y : S1000x128.Idx) :
    ∃ pc ∈ ([⟨r0_4, p0⟩] : List (View.Piece (Elt F) S1000x128 .f32)), y ∈ pc.1.set :=
  View.cover_of_tiled [⟨r0_4, p0⟩] S1000x128.size (by rfl) y

/-! ## The inputs' buffers hold their blocks -/

/-- Input window 0's current staging buffer holds the window's block at every point, whether or not the block
    was fetched at that point: when it was not, the block index has not moved since the last fetch, and the body
    leaves an input buffer as it found it. Stated for any proof data with `V`'s array and that `after`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether or not the block
    was fetched at that point: when it was not, the block index has not moved since the last fetch, and the body
    leaves an input buffer as it found it. Stated for any proof data with `V`'s array and that `after`. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether or not the block
    was fetched at that point: when it was not, the block index has not moved since the last fetch, and the body
    leaves an input buffer as it found it. Stated for any proof data with `V`'s array and that `after`. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body on abstract buffers -/

set_option maxHeartbeats 1000000 in
/-- The body reads the three inputs whole, reads each output buffer once (a value it does not use), and stores
    one whole block into each output: what an output buffer then reads is the stored value. -/
theorem sound_kernel0 (c : Dev nD) (E : Set ℕ) (i : grid0.Coords)
    (arg1 : Memref sig .tc .vmem S1000x768 .f32) (harg1 : arg1.IsWhole) (arg2 : Memref sig .tc .vmem S768x384 .f32) (harg2 : arg2.IsWhole)
    (arg3 : Memref sig .tc .vmem S1x128 .f32) (harg3 : arg3.IsWhole) (arg4 : Memref sig .tc .vmem S1000x256 .f32) (harg4 : arg4.IsWhole)
    (arg5 : Memref sig .tc .vmem S1000x128 .f32) (harg5 : arg5.IsWhole)
    (x0 : Vec F S1000x768 .f32) (x1 : Vec F S768x384 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body at a grid point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the pipeline hands the body at point `t`: the invariant, the core's dues, and each window's current
    staging buffer at its contents before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it expects back: the same with every buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the input buffers hold their blocks, so the body's run on abstract buffers applies; the
    invariant and the dues are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KBody1.lean ====
/- Region 1's kernel body, run once on abstract staging buffers: with the nine input buffers holding `x0` … `x8`
   and the output buffer holding anything, it terminates leaving the inputs as they were and the output at
   `out1_9 x0 … x8`. The first sixty statements of the body are a function of their own, which the run goes
   through. At every grid point the input buffers hold their windows' blocks, so this is the obligation the
   pipeline asks of the body at that point. -/
import proofs.«110970_g76141180223726_cont_sun_m_824_6_alg».proof.Proof.KData
import Idealize.ShloMosaic.Lib.Pipeline.FrameBody
import Idealize.ShloMosaic.Lib.Ring
import Idealize.ShloMosaic.Lib.Tactic

set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## One store fills the output buffer -/

theorem cover1_9 (p0 : Vec F S200x8 .f32) (y : S200x8.Idx) :
    ∃ pc ∈ ([⟨r1_9, p0⟩] : List (View.Piece (Elt F) S200x8 .f32)), y ∈ pc.1.set :=
  View.cover_of_tiled [⟨r1_9, p0⟩] S200x8.size (by rfl) y

/-! ## The inputs' buffers hold their blocks -/

/-- Input window 0's current staging buffer holds the window's block at every point, whether or not the block
    was fetched at that point: when it was not, the block index has not moved since the last fetch, and the body
    leaves an input buffer as it found it. Stated for any proof data with `V`'s array and that `after`. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether or not the block
    was fetched at that point: when it was not, the block index has not moved since the last fetch, and the body
    leaves an input buffer as it found it. Stated for any proof data with `V`'s array and that `after`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether or not the block
    was fetched at that point: when it was not, the block index has not moved since the last fetch, and the body
    leaves an input buffer as it found it. Stated for any proof data with `V`'s array and that `after`. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether or not the block
    was fetched at that point: when it was not, the block index has not moved since the last fetch, and the body
    leaves an input buffer as it found it. Stated for any proof data with `V`'s array and that `after`. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, whether or not the block
    was fetched at that point: when it was not, the block index has not moved since the last fetch, and the body
    leaves an input buffer as it found it. Stated for any proof data with `V`'s array and that `after`. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block at every point, whether or not the block
    was fetched at that point: when it was not, the block index has not moved since the last fetch, and the body
    leaves an input buffer as it found it. Stated for any proof data with `V`'s array and that `after`. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds the window's block at every point, whether or not the block
    was fetched at that point: when it was not, the block index has not moved since the last fetch, and the body
    leaves an input buffer as it found it. Stated for any proof data with `V`'s array and that `after`. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds the window's block at every point, whether or not the block
    was fetched at that point: when it was not, the block index has not moved since the last fetch, and the body
    leaves an input buffer as it found it. Stated for any proof data with `V`'s array and that `after`. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds the window's block at every point, whether or not the block
    was fetched at that point: when it was not, the block index has not moved since the last fetch, and the body
    leaves an input buffer as it found it. Stated for any proof data with `V`'s array and that `after`. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body on abstract buffers -/

set_option maxHeartbeats 4000000 in
/-- The body reads the feature array, the two adjacency row blocks, the two halves of the bias row, the self
    block, and the score weights (its first part); then the head's weights and two bias rows, the output buffer
    once (a value it does not use), and stores one whole block. -/
theorem sound_kernel1 (c : Dev nD) (E : Set ℕ) (i : grid1.Coords)
    (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S200x128 .f32) (harg4 : arg4.IsWhole) (arg5 : Memref sig .tc .vmem S1x256 .f32) (harg5 : arg5.IsWhole) (arg6 : Memref sig .tc .vmem S384x3 .f32) (harg6 : arg6.IsWhole) (arg7 : Memref sig .tc .vmem S128x8 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S200x8 .f32) (harg10 : arg10.IsWhole)
    (x0 : Vec F S200x10000 .f32) (x1 : Vec F S200x10000 .f32) (x2 : Vec F S10000x256 .f32) (x3 : Vec F S200x128 .f32) (x4 : Vec F S1x256 .f32) (x5 : Vec F S384x3 .f32) (x6 : Vec F S128x8 .f32) (x7 : Vec F S1x8 .f32) (x8 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E (cc1__layer1_kernel i arg1 harg1 arg2 harg2 arg3 harg3 arg4 harg4 arg5 harg5 arg6 harg6 arg7 harg7 arg8 harg8 arg9 harg9 arg10 harg10) K := by
  simp only [cc1__layer1_kernel_eq_skeleton]; unfold cc1__layer1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The body at a grid point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the pipeline hands the body at point `t`: the invariant, the core's dues, and each window's current
    staging buffer at its contents before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it expects back: the same with every buffer at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- At any point the input buffers hold their blocks, so the body's run on abstract buffers applies; the
    invariant and the dues are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KBody2.lean ====
/- Region 2's kernel body, run once on abstract staging buffers at grid coordinate `i`: with the three input
   buffers holding `x0`, `x1`, `x2` and the output buffer holding anything, it terminates leaving the inputs as
   they were and the output at `out2_3 i x0 x1 x2`. At every grid point the input buffers hold their windows'
   blocks, so this is the obligation the pipeline asks of the body at that point. -/
import proofs.«110970_g76141180223726_cont_sun_m_824_6_alg».proof.Proof.KData
import Idealize.ShloMosaic.Lib.Pipeline.FrameBody
import Idealize.ShloMosaic.Lib.Ring
import Idealize.ShloMosaic.Lib.Tactic

set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## One store fills the output buffer -/

theorem cover2_3 (p0 : Vec F S200x2 .f32) (y : S200x2.Idx) :
    ∃ pc ∈ ([⟨r2_3, p0⟩] : List (View.Piece (Elt F) S200x2 .f32)), y ∈ pc.1.set :=
  View.cover_of_tiled [⟨r2_3, p0⟩] S200x2.size (by rfl) y

/-! ## The inputs' buffers hold their blocks -/

/-- Input window 0's current staging buffer holds the window's block at every point, whether or not the block
    was fetched at that point: when it was not, the block index has not moved since the last fetch, and the body
    leaves an input buffer as it found it. Stated for any proof data with `V`'s array and that `after`. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether or not the block
    was fetched at that point: when it was not, the block index has not moved since the last fetch, and the body
    leaves an input buffer as it found it. Stated for any proof data with `V`'s array and that `after`. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether or not the block
    was fetched at that point: when it was not, the block index has not moved since the last fetch, and the body
    leaves an input buffer as it found it. Stated for any proof data with `V`'s array and that `after`. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body on abstract buffers -/

set_option maxHeartbeats 4000000 in
/-- The body reads window 2 whole, windows 0 and 1 whole, window 2 again through a 200x2 rectangle placed by the
    grid coordinate, the output buffer once (a value it does not use), and stores one whole block. -/
theorem sound_kernel2 (c : Dev nD) (E : Set ℕ) (i : grid2.Coords)
    (arg1 : Memref sig .tc .vmem S200x10000 .f32) (harg1 : arg1.IsWhole) (arg2 : Memref sig .tc .vmem S200x10000 .f32) (harg2 : arg2.IsWhole) (arg3 : Memref sig .tc .vmem S10000x8 .f32) (harg3 : arg3.IsWhole) (arg4 : Memref sig .tc .vmem S200x2 .f32) (harg4 : arg4.IsWhole)
    (x0 : Vec F S200x10000 .f32) (x1 : Vec F S200x10000 .f32) (x2 : Vec F S10000x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 i x0 x1 x2)) -∗ K ⟨⟩))
      ⊢ wp frame (wpE (defs₀ (F := F)) Variants.none c none) E (cc2__layer2_kernel i arg1 harg1 arg2 harg2 arg3 harg3 arg4 harg4) K := by
  simp only [cc2__layer2_kernel_eq_skeleton]; unfold cc2__layer2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body at a grid point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the pipeline hands the body at point `t`: the invariant, the core's dues, and each window's current
    staging buffer at its contents before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it expects back: the same with every buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so the body's run on abstract buffers applies; the
    invariant and the dues are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.KRun.lean ====
/- The run of the whole program: the host operations, then the three regions in order, each entered from the
   buffer contents the one before it left. Every weakly fair execution from memory `m` with zero counters
   terminates, and at the end every unscoped buffer of every core reads the last contents of the fold, `W4`;
   in particular every argument reads its launch contents. -/
import proofs.«110970_g76141180223726_cont_sun_m_824_6_alg».proof.Proof.KFold
import proofs.«110970_g76141180223726_cont_sun_m_824_6_alg».proof.Proof.KBody0
import proofs.«110970_g76141180223726_cont_sun_m_824_6_alg».proof.Proof.KBody1
import proofs.«110970_g76141180223726_cont_sun_m_824_6_alg».proof.Proof.KBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data of the three pipelines and the state a core carries between segments -/

/-- No pipeline has a prefetched table. -/
abbrev adm : (p : Fin 3) → (pcfgs (F := F) p).Adm := fun p => (cfgs p).toPCfg_adm
/-- Each pipeline's proof data, at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register, at some state, and its dues, which are none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the state between segments holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the dues: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment of the run: entered with every unscoped buffer at `W1`, left with them at `W2`. At
    entry the region's arrays are split out of the unscoped buffers and the generator register goes into the
    region's invariant; at exit the arrays, now at what the write-backs left, are put back beside the untouched
    rest, and the register comes out. Nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at `W2`, left with them at `W3`. At
    entry the region's arrays are split out of the unscoped buffers and the generator register goes into the
    region's invariant; at exit the arrays, now at what the write-backs left, are put back beside the untouched
    rest, and the register comes out. Nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at `W3`, left with them at `W4`. At
    entry the region's arrays are split out of the unscoped buffers and the generator register goes into the
    region's invariant; at exit the arrays, now at what the write-backs left, are put back beside the untouched
    rest, and the register comes out. Nothing is owed and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

/-- The four segments in order: the host operations from the launch contents, then the three regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]
/-- The program is the run of these segments. -/
theorem main_run (c : Dev nD) : main (F := F) c = Pipeline.Seg.run (segs m) := (main_chain c).trans (by chain_rfl)

set_option backward.isDefEq.respectTransparency.types false in
/-- From any memory `m` with zero counters and any generator registers, every weakly fair execution terminates and
    every final memory has, on every core, every unscoped buffer at `W4`. -/
theorem run_main (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-- The frame: every argument array ends holding its launch contents, on every core. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c),
      (h c _ (mem_uc main_arg10 (by decide))).trans (W4_main_arg10 m c),
      (h c _ (mem_uc main_arg11 (by decide))).trans (W4_main_arg11 m c),
      (h c _ (mem_uc main_arg12 (by decide))).trans (W4_main_arg12 m c),
      (h c _ (mem_uc main_arg13 (by decide))).trans (W4_main_arg13 m c),
      (h c _ (mem_uc main_arg14 (by decide))).trans (W4_main_arg14 m c),
      (h c _ (mem_uc main_arg15 (by decide))).trans (W4_main_arg15 m c)⟩) (run_main m ρ)

end Cert.Kernel.Hand

end
-- ==== Proof.KIData.lean ====
/- The data of the three pipelined regions, at a parameter `V`: the contents of the core's arrays when a
   region is entered. For each region: the block of every window at every grid point, read off `V`; the
   rectangles through which the body reads and writes its staging buffers; the contents the body leaves in
   each output buffer, as a function of the input blocks; and the proof data of the pipeline built from them. -/
import proofs.«110970_g76141180223726_cont_sun_m_824_6_alg».proof.Proof.Gen.KernelIdeal.Launch
import proofs.«110970_g76141180223726_cont_sun_m_824_6_alg».proof.Proof.Gen.KernelIdeal.Skeleton
import proofs.«110970_g76141180223726_cont_sun_m_824_6_alg».proof.Proof.Gen.KernelIdeal.Points
import Idealize.ShloMosaic.Lib.Pipeline.FrameBody

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the contents of the core's arrays at the moment a region starts
variable (V : (c : Dev nD) → (b : Ref sig .tc) → Buf (Elt F) ((c : Thread nD τ).loc b))

/-! # Region 0: the projection (grid of 10 points) -/

/-- The block of window `w` at grid point `t`: the sub-array of `V`'s array of that window which the window's
    index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles of the five staging buffers (every access of this body is a whole block). -/
abbrev r0_0 : Rect S1000x768 := Rect.unit (s := S1000x768) ![0, 0] S1000x768.size inb_S1000x768_S1000x768_0_0
abbrev r0_1 : Rect S768x384 := Rect.unit (s := S768x384) ![0, 0] S768x384.size inb_S768x384_S768x384_0_0
abbrev r0_2 : Rect S1x128 := Rect.unit (s := S1x128) ![0, 0] S1x128.size inb_S1x128_S1x128_0_0
abbrev r0_3 : Rect S1000x256 := Rect.unit (s := S1000x256) ![0, 0] S1000x256.size inb_S1000x256_S1000x256_0_0
abbrev r0_4 : Rect S1000x128 := Rect.unit (s := S1000x128) ![0, 0] S1000x128.size inb_S1000x128_S1000x128_0_0

/-- Output window 3 after the body: one store over the whole 1000x256 block, of columns 0..255 of the
    product of the row block `x0` with the weights `x1`. -/
def out0_3 (x0 : Vec F S1000x768 .f32) (x1 : Vec F S768x384 .f32) : Vec F S1000x256 .f32 :=
  View.canon [⟨r0_3, k0_pay2 (View.ld x0 r0_0) (View.ld x1 r0_1)⟩]

/-- Output window 4 after the body: one store over the whole 1000x128 block, of tanh of columns 256..383 of
    the same product plus the bias row `x2`. -/
def out0_4 (x0 : Vec F S1000x768 .f32) (x1 : Vec F S768x384 .f32) (x2 : Vec F S1x128 .f32) : Vec F S1000x128 .f32 :=
  View.canon [⟨r0_4, k0_pay3 (View.ld x0 r0_0) (View.ld x1 r0_1) (View.ld x2 r0_2)⟩]

/-- The proof data of region 0 on core `c`: each array as `V` has it; after the body at point `t` every input
    buffer still holds its block and every output buffer holds `out0_W` of the input blocks; the invariant is
    the untouched remainder of the core's state; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 1 t) (iblk0 V c 2 t) := by dsimp only [dat0]

/-! # Region 1: the first layer (grid of 50 points) -/

/-- The block of window `w` at grid point `t`, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles of the body's accesses. All are whole buffers except window 4's: its 1x256 buffer is read
    through two 1x128 rectangles, columns 0..127 (`r1_4a`) and columns 128..255 (`r1_4b`). -/
abbrev r1_0 : Rect S200x10000 := Rect.unit (s := S200x10000) ![0, 0] S200x10000.size inb_S200x10000_S200x10000_0_0
abbrev r1_1 : Rect S200x10000 := Rect.unit (s := S200x10000) ![0, 0] S200x10000.size inb_S200x10000_S200x10000_0_0
abbrev r1_2 : Rect S10000x256 := Rect.unit (s := S10000x256) ![0, 0] S10000x256.size inb_S10000x256_S10000x256_0_0
abbrev r1_3 : Rect S200x128 := Rect.unit (s := S200x128) ![0, 0] S200x128.size inb_S200x128_S200x128_0_0
abbrev r1_4a : Rect S1x256 := Rect.unit (s := S1x256) ![0, 0] S1x128.size inb_S1x256_S1x128_0_0
abbrev r1_4b : Rect S1x256 := Rect.unit (s := S1x256) ![0, 128] S1x128.size inb_S1x256_S1x128_0_128
abbrev r1_5 : Rect S384x3 := Rect.unit (s := S384x3) ![0, 0] S384x3.size inb_S384x3_S384x3_0_0
abbrev r1_6 : Rect S128x8 := Rect.unit (s := S128x8) ![0, 0] S128x8.size inb_S128x8_S128x8_0_0
abbrev r1_7 : Rect S1x8 := Rect.unit (s := S1x8) ![0, 0] S1x8.size inb_S1x8_S1x8_0_0
abbrev r1_8 : Rect S1x8 := Rect.unit (s := S1x8) ![0, 0] S1x8.size inb_S1x8_S1x8_0_0
abbrev r1_9 : Rect S200x8 := Rect.unit (s := S200x8) ![0, 0] S200x8.size inb_S200x8_S200x8_0_0

/-- Output window 9 after the body: one store over the whole 200x8 block. Its value combines three 200x128
    branch activations (two aggregations of the 10000x256 features by the adjacency row blocks `x0`, `x1`,
    each with its half of the bias row `x4`, and the self block `x3`), weights them by a row-wise softmax of
    their scores against `x5`, and applies the head `x6`, `x7`, `x8`. -/
def out1_9 (x0 : Vec F S200x10000 .f32) (x1 : Vec F S200x10000 .f32) (x2 : Vec F S10000x256 .f32)
    (x3 : Vec F S200x128 .f32) (x4 : Vec F S1x256 .f32) (x5 : Vec F S384x3 .f32) (x6 : Vec F S128x8 .f32)
    (x7 : Vec F S1x8 .f32) (x8 : Vec F S1x8 .f32) : Vec F S200x8 .f32 :=
  View.canon [⟨r1_9, k1_pay1
    (k1_pay3 (View.ld x2 r1_2) (View.ld x0 r1_0) (View.ld x4 r1_4a))
    (k1_pay4 (View.ld x2 r1_2) (View.ld x1 r1_1) (View.ld x4 r1_4b))
    (k1_pay5 (View.ld x3 r1_3))
    (k1_pay6 (View.ld x2 r1_2) (View.ld x0 r1_0) (View.ld x4 r1_4a) (View.ld x1 r1_1) (View.ld x4 r1_4b) (View.ld x3 r1_3) (View.ld x5 r1_5))
    (k1_pay7 (View.ld x2 r1_2) (View.ld x0 r1_0) (View.ld x4 r1_4a) (View.ld x1 r1_1) (View.ld x4 r1_4b) (View.ld x3 r1_3) (View.ld x5 r1_5))
    (View.ld x6 r1_6) (View.ld x7 r1_7) (View.ld x8 r1_8)⟩]

/-- The proof data of region 1 on core `c`, as for region 0: nine input windows kept, one output window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t)
        (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t)
        (iblk1 V c 5 t) (iblk1 V c 6 t) (iblk1 V c 7 t) (iblk1 V c 8 t) := by dsimp only [dat1]

/-! # Region 2: the second layer (grid of 50 points) -/

/-- The block of window `w` at grid point `t`, read off `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangles of the body's accesses: whole buffers, and one 200x2 rectangle of window 2's 10000x8
    buffer whose row offset is 200 times the grid coordinate and whose column offset is 4 (`r2_2o i`). -/
abbrev r2_0 : Rect S200x10000 := Rect.unit (s := S200x10000) ![0, 0] S200x10000.size inb_S200x10000_S200x10000_0_0
abbrev r2_1 : Rect S200x10000 := Rect.unit (s := S200x10000) ![0, 0] S200x10000.size inb_S200x10000_S200x10000_0_0
abbrev r2_2 : Rect S10000x8 := Rect.unit (s := S10000x8) ![0, 0] S10000x8.size inb_S10000x8_S10000x8_0_0
abbrev r2_2o (i : grid2.Coords) : Rect S10000x8 := Rect.unit (s := S10000x8) (k2_off1 i) S200x2.size (k2_off1_inb i)
abbrev r2_3 : Rect S200x2 := Rect.unit (s := S200x2) ![0, 0] S200x2.size inb_S200x2_S200x2_0_0

/-- Output window 3 after the body at grid coordinate `i`: one store over the whole 200x2 block, of the two
    aggregations of column pairs 0..1 and 2..3 of the 10000x8 array `x2` by the adjacency row blocks `x0`,
    `x1`, plus rows 200 i .. 200 i + 199, columns 4..5, of `x2` itself. -/
def out2_3 (i : grid2.Coords) (x0 : Vec F S200x10000 .f32) (x1 : Vec F S200x10000 .f32)
    (x2 : Vec F S10000x8 .f32) : Vec F S200x2 .f32 :=
  View.canon [⟨r2_3, k2_pay1 (View.ld x2 r2_2) (View.ld x0 r2_0) (View.ld x1 r2_1) (View.ld x2 (r2_2o i))⟩]

/-- The proof data of region 2 on core `c`: three input windows kept, one output window, whose contents
    depend on the grid coordinate of the point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (grid2.coords t) (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (grid2.coords t) (iblk2 V c 0 t) (iblk2 V c 1 t) (iblk2 V c 2 t) := by
  dsimp only [dat2]

end Regions

end Cert.KernelIdeal.Hand

end
-- ==== Proof.KIFold.lean ====
/- The contents of the core's buffers at each boundary of the program: at launch, after the host operations,
   and after each of the three regions. A region leaves each of its arrays at what its write-backs produce
   (an input array is never written back, so it keeps its contents) and every other buffer as it found it.
   From this, every buffer that is no region's output reads, at the end, what the host operations left in it,
   and every argument reads its launch contents. -/
import proofs.«110970_g76141180223726_cont_sun_m_824_6_alg».proof.Proof.KIData
import proofs.«110970_g76141180223726_cont_sun_m_824_6_alg».proof.Proof.Gen.KernelIdeal.Regions
import Idealize.ShloMosaic.Lib.Pipeline.FrameSuffix

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The fold of the buffer contents through the program -/

/-- Core `c`'s buffers at launch. -/
abbrev W0 (c : Dev nD) : Valuation τ sig (Elt F) := fun b => m (c, b)
/-- After the host operations: the contents region 0 starts from. -/
abbrev W1 (c : Dev nD) : Valuation τ sig (Elt F) := StableHlo.after hostOps0 (W0 m c)
/-- The same, indexed by the core's own references. -/
abbrev V1 : (c : Dev nD) → (b : Ref sig .tc) → Buf (Elt F) ((c : Thread nD τ).loc b) := fun c b => W1 m c b

/-- After region 0: its arrays at what its pipeline leaves, every other buffer unchanged. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1 (entered from region 0's exit contents: no host operation in between). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After region 2: the contents the program ends with. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## A region changes only its output arrays -/

/-- The output windows' arrays of each region. -/
theorem outs0 : ∀ w : Fin cfg0.W, (cfg0.win w).isOut = true →
    Pipeline.arrRef spec0 w ∈ ([main_v17_0, main_v17_1] : List (Ref sig .tc)) := by decide
theorem outs1 : ∀ w : Fin cfg1.W, (cfg1.win w).isOut = true →
    Pipeline.arrRef spec1 w ∈ ([main_v18] : List (Ref sig .tc)) := by decide
theorem outs2 : ∀ w : Fin cfg2.W, (cfg2.win w).isOut = true →
    Pipeline.arrRef spec2 w ∈ ([main_v19] : List (Ref sig .tc)) := by decide

/-- Region 0 leaves every buffer other than its two outputs as it found it: an input window's array is never
    written back, and a buffer that is no window's array is not touched. -/
theorem V2_of (c : Dev nD) (b : Ref sig .tc) (h : b ∉ ([main_v17_0, main_v17_1] : List (Ref sig .tc))) :
    V2 m c b = V1 m c b := by
  by_cases hw : ∃ w, Pipeline.arrRef spec0 w = b
  · obtain ⟨w, rfl⟩ := hw
    have hin : (cfg0.win w).isOut = false := by
      cases ho : (cfg0.win w).isOut with
      | false => rfl
      | true => exact absurd (outs0 w ho) h
    exact (W2_arr m c w).trans (((dat0 (V1 m) c).arrAt_in w hin _).trans (A_eq0 (V1 m) c w))
  · exact W2_of_ne m c b fun w e => hw ⟨w, e⟩

/-- Region 1 leaves every buffer other than its output as it found it. -/
theorem V3_of (c : Dev nD) (b : Ref sig .tc) (h : b ∉ ([main_v18] : List (Ref sig .tc))) :
    V3 m c b = V2 m c b := by
  by_cases hw : ∃ w, Pipeline.arrRef spec1 w = b
  · obtain ⟨w, rfl⟩ := hw
    have hin : (cfg1.win w).isOut = false := by
      cases ho : (cfg1.win w).isOut with
      | false => rfl
      | true => exact absurd (outs1 w ho) h
    exact (W3_arr m c w).trans (((dat1 (V2 m) c).arrAt_in w hin _).trans (A_eq1 (V2 m) c w))
  · exact W3_of_ne m c b fun w e => hw ⟨w, e⟩

/-- Region 2 leaves every buffer other than its output as it found it. -/
theorem V4_of (c : Dev nD) (b : Ref sig .tc) (h : b ∉ ([main_v19] : List (Ref sig .tc))) :
    V4 m c b = V3 m c b := by
  by_cases hw : ∃ w, Pipeline.arrRef spec2 w = b
  · obtain ⟨w, rfl⟩ := hw
    have hin : (cfg2.win w).isOut = false := by
      cases ho : (cfg2.win w).isOut with
      | false => rfl
      | true => exact absurd (outs2 w ho) h
    exact (W4_arr m c w).trans (((dat2 (V3 m) c).arrAt_in w hin _).trans (A_eq2 (V3 m) c w))
  · exact W4_of_ne m c b fun w e => hw ⟨w, e⟩

/-- A buffer that is neither of region 0's outputs nor region 1's reads, when region 2 starts, what the host
    operations left in it. -/
theorem V3_of_V1 (c : Dev nD) (b : Ref sig .tc)
    (h : b ∉ ([main_v17_0, main_v17_1, main_v18] : List (Ref sig .tc))) : V3 m c b = V1 m c b :=
  (V3_of m c b fun hb => h (by simp only [List.mem_cons, List.not_mem_nil, or_false] at hb ⊢; exact Or.inr (Or.inr hb))).trans
    (V2_of m c b fun hb => h (by
      simp only [List.mem_cons, List.not_mem_nil, or_false] at hb ⊢
      rcases hb with hb | hb
      · exact Or.inl hb
      · exact Or.inr (Or.inl hb)))

/-- A buffer that is no region's output ends at what the host operations left in it. -/
theorem V4_of_V1 (c : Dev nD) (b : Ref sig .tc)
    (h : b ∉ ([main_v17_0, main_v17_1, main_v18, main_v19] : List (Ref sig .tc))) : V4 m c b = V1 m c b :=
  (V4_of m c b fun hb => h (by
      simp only [List.mem_cons, List.not_mem_nil, or_false] at hb ⊢; exact Or.inr (Or.inr (Or.inr hb)))).trans
    (V3_of_V1 m c b fun hb => h (by
      simp only [List.mem_cons, List.not_mem_nil, or_false] at hb ⊢
      rcases hb with hb | hb | hb
      · exact Or.inl hb
      · exact Or.inr (Or.inl hb)
      · exact Or.inr (Or.inr (Or.inl hb))))

/-- A buffer no host operation writes holds its launch contents when region 0 starts. -/
theorem V1_of_launch (c : Dev nD) (b : Ref sig .tc) (h : b ∉ (hostOps0_W : List (Ref sig .tc))) :
    V1 m c b = m ((c : Thread nD τ).loc b) :=
  (Cert.KernelIdeal.Gen.V1_of m c b h).trans rfl

/-! ## The outputs read back -/

/-- The program's result array ends at what region 2's write-backs produce. -/
theorem W4_main_v19 (c : Dev nD) : W4 m c (Proc.devRef .tc main_v19) = (dat2 (V3 m) c).arrAt 3 cfg2.N :=
  W4_arr m c 3
/-- Region 2 reads region 1's output at what region 1's write-backs produced. -/
theorem V3_main_v18 (c : Dev nD) : V3 m c main_v18 = (dat1 (V2 m) c).arrAt 9 cfg1.N :=
  W3_arr m c 9
/-- Region 1 reads region 0's two outputs at what region 0's write-backs produced. -/
theorem V2_main_v17_0 (c : Dev nD) : V2 m c main_v17_0 = (dat0 (V1 m) c).arrAt 3 cfg0.N :=
  W2_arr m c 3
theorem V2_main_v17_1 (c : Dev nD) : V2 m c main_v17_1 = (dat0 (V1 m) c).arrAt 4 cfg0.N :=
  W2_arr m c 4

/-! ## The arguments end as launched -/

/-- An argument is written by no host operation and is no region's output. -/
theorem W4_arg (c : Dev nD) (b : Ref sig .tc)
    (h : b ∉ ([main_v17_0, main_v17_1, main_v18, main_v19] : List (Ref sig .tc)))
    (h' : b ∉ (hostOps0_W : List (Ref sig .tc))) :
    W4 m c (Proc.devRef .tc b) = m ((c : Thread nD τ).loc b) :=
  (V4_of_V1 m c b h).trans (V1_of_launch m c b h')

theorem W4_main_arg0 (c : Dev nD) : W4 m c (Proc.devRef .tc main_arg0) = m ((c : Thread nD τ).loc main_arg0) := W4_arg m c main_arg0 (by decide) (by decide)
theorem W4_main_arg1 (c : Dev nD) : W4 m c (Proc.devRef .tc main_arg1) = m ((c : Thread nD τ).loc main_arg1) := W4_arg m c main_arg1 (by decide) (by decide)
theorem W4_main_arg2 (c : Dev nD) : W4 m c (Proc.devRef .tc main_arg2) = m ((c : Thread nD τ).loc main_arg2) := W4_arg m c main_arg2 (by decide) (by decide)
theorem W4_main_arg3 (c : Dev nD) : W4 m c (Proc.devRef .tc main_arg3) = m ((c : Thread nD τ).loc main_arg3) := W4_arg m c main_arg3 (by decide) (by decide)
theorem W4_main_arg4 (c : Dev nD) : W4 m c (Proc.devRef .tc main_arg4) = m ((c : Thread nD τ).loc main_arg4) := W4_arg m c main_arg4 (by decide) (by decide)
theorem W4_main_arg5 (c : Dev nD) : W4 m c (Proc.devRef .tc main_arg5) = m ((c : Thread nD τ).loc main_arg5) := W4_arg m c main_arg5 (by decide) (by decide)
theorem W4_main_arg6 (c : Dev nD) : W4 m c (Proc.devRef .tc main_arg6) = m ((c : Thread nD τ).loc main_arg6) := W4_arg m c main_arg6 (by decide) (by decide)
theorem W4_main_arg7 (c : Dev nD) : W4 m c (Proc.devRef .tc main_arg7) = m ((c : Thread nD τ).loc main_arg7) := W4_arg m c main_arg7 (by decide) (by decide)
theorem W4_main_arg8 (c : Dev nD) : W4 m c (Proc.devRef .tc main_arg8) = m ((c : Thread nD τ).loc main_arg8) := W4_arg m c main_arg8 (by decide) (by decide)
theorem W4_main_arg9 (c : Dev nD) : W4 m c (Proc.devRef .tc main_arg9) = m ((c : Thread nD τ).loc main_arg9) := W4_arg m c main_arg9 (by decide) (by decide)
theorem W4_main_arg10 (c : Dev nD) : W4 m c (Proc.devRef .tc main_arg10) = m ((c : Thread nD τ).loc main_arg10) := W4_arg m c main_arg10 (by decide) (by decide)
theorem W4_main_arg11 (c : Dev nD) : W4 m c (Proc.devRef .tc main_arg11) = m ((c : Thread nD τ).loc main_arg11) := W4_arg m c main_arg11 (by decide) (by decide)
theorem W4_main_arg12 (c : Dev nD) : W4 m c (Proc.devRef .tc main_arg12) = m ((c : Thread nD τ).loc main_arg12) := W4_arg m c main_arg12 (by decide) (by decide)
theorem W4_main_arg13 (c : Dev nD) : W4 m c (Proc.devRef .tc main_arg13) = m ((c : Thread nD τ).loc main_arg13) := W4_arg m c main_arg13 (by decide) (by decide)
theorem W4_main_arg14 (c : Dev nD) : W4 m c (Proc.devRef .tc main_arg14) = m ((c : Thread nD τ).loc main_arg14) := W4_arg m c main_arg14 (by decide) (by decide)
theorem W4_main_arg15 (c : Dev nD) : W4 m c (Proc.devRef .tc main_arg15) = m ((c : Thread nD τ).loc main_arg15) := W4_arg m c main_arg15 (by decide) (by decide)

end Cert.KernelIdeal.Hand

end
-- ==== Proof.KIBody0.lean ====
/- Region 0's kernel body, run once on abstract staging buffers: with the three input buffers holding `x0`, `x1`,
   `x2` and the two output buffers holding anything, it terminates leaving the inputs as they were and the
   outputs at `out0_3 x0 x1` and `out0_4 x0 x1 x2`. At every grid point the input buffers hold their windows'
   blocks, so this is the obligation the pipeline asks of the body at that point. -/
import proofs.«110970_g76141180223726_cont_sun_m_824_6_alg».proof.Proof.KIData
import Idealize.ShloMosaic.Lib.Pipeline.FrameBody
import Idealize.ShloMosaic.Lib.Ring
import Idealize.ShloMosaic.Lib.Tactic

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## One store fills each output buffer -/

theorem cover0_3 (p0 : Vec F S1000x256 .f32) (y : S1000x256.Idx) :
    ∃ pc ∈ ([⟨r0_3, p0⟩] : List (View.Piece (Elt F) S1000x256 .f32)), y ∈ pc.1.set :=
  View.cover_of_tiled [⟨r0_3, p0⟩] S1000x256.size (by rfl) y

theorem cover0_4 (p0 : Vec F S1000x128 .f32) (y : S1000x128.Idx) :
    ∃ pc ∈ ([⟨r0_4, p0⟩] : List (View.Piece (Elt F) S1000x128 .f32)), y ∈ pc.1.set :=
  View.cover_of_tiled [⟨r0_4, p0⟩] S1000x128.size (by rfl) y

/-! ## The inputs' buffers hold their blocks -/

/-- Input window 0's current staging buffer holds the window's block at every point, whether or not the block
    was fetched at that point: when it was not, the block index has not moved since the last fetch, and the body
    leaves an input buffer as it found it. Stated for any proof data with `V`'s array and that `after`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether or not the block
    was fetched at that point: when it was not, the block index has not moved since the last fetch, and the body
    leaves an input buffer as it found it. Stated for any proof data with `V`'s array and that `after`. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether or not the block
    was fetched at that point: when it was not, the block index has not moved since the last fetch, and the body
    leaves an input buffer as it found it. Stated for any proof data with `V`'s array and that `after`. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body on abstract buffers -/

set_option maxHeartbeats 1000000 in
/-- The body reads the three inputs whole, reads each output buffer once (a value it does not use), and stores
    one whole block into each output: what an output buffer then reads is the stored value. -/
theorem sound_kernel0 (c : Dev nD) (E : Set ℕ) (i : grid0.Coords)
    (arg1 : Memref sig .tc .vmem S1000x768 .f32) (harg1 : arg1.IsWhole) (arg2 : Memref sig .tc .vmem S768x384 .f32) (harg2 : arg2.IsWhole)
    (arg3 : Memref sig .tc .vmem S1x128 .f32) (harg3 : arg3.IsWhole) (arg4 : Memref sig .tc .vmem S1000x256 .f32) (harg4 : arg4.IsWhole)
    (arg5 : Memref sig .tc .vmem S1000x128 .f32) (harg5 : arg5.IsWhole)
    (x0 : Vec F S1000x768 .f32) (x1 : Vec F S768x384 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body at a grid point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the pipeline hands the body at point `t`: the invariant, the core's dues, and each window's current
    staging buffer at its contents before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it expects back: the same with every buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the input buffers hold their blocks, so the body's run on abstract buffers applies; the
    invariant and the dues are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIBody1.lean ====
/- Region 1's kernel body, run once on abstract staging buffers: with the nine input buffers holding `x0` … `x8`
   and the output buffer holding anything, it terminates leaving the inputs as they were and the output at
   `out1_9 x0 … x8`. The first sixty statements of the body are a function of their own, which the run goes
   through. At every grid point the input buffers hold their windows' blocks, so this is the obligation the
   pipeline asks of the body at that point. -/
import proofs.«110970_g76141180223726_cont_sun_m_824_6_alg».proof.Proof.KIData
import Idealize.ShloMosaic.Lib.Pipeline.FrameBody
import Idealize.ShloMosaic.Lib.Ring
import Idealize.ShloMosaic.Lib.Tactic

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## One store fills the output buffer -/

theorem cover1_9 (p0 : Vec F S200x8 .f32) (y : S200x8.Idx) :
    ∃ pc ∈ ([⟨r1_9, p0⟩] : List (View.Piece (Elt F) S200x8 .f32)), y ∈ pc.1.set :=
  View.cover_of_tiled [⟨r1_9, p0⟩] S200x8.size (by rfl) y

/-! ## The inputs' buffers hold their blocks -/

/-- Input window 0's current staging buffer holds the window's block at every point, whether or not the block
    was fetched at that point: when it was not, the block index has not moved since the last fetch, and the body
    leaves an input buffer as it found it. Stated for any proof data with `V`'s array and that `after`. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether or not the block
    was fetched at that point: when it was not, the block index has not moved since the last fetch, and the body
    leaves an input buffer as it found it. Stated for any proof data with `V`'s array and that `after`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether or not the block
    was fetched at that point: when it was not, the block index has not moved since the last fetch, and the body
    leaves an input buffer as it found it. Stated for any proof data with `V`'s array and that `after`. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether or not the block
    was fetched at that point: when it was not, the block index has not moved since the last fetch, and the body
    leaves an input buffer as it found it. Stated for any proof data with `V`'s array and that `after`. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, whether or not the block
    was fetched at that point: when it was not, the block index has not moved since the last fetch, and the body
    leaves an input buffer as it found it. Stated for any proof data with `V`'s array and that `after`. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block at every point, whether or not the block
    was fetched at that point: when it was not, the block index has not moved since the last fetch, and the body
    leaves an input buffer as it found it. Stated for any proof data with `V`'s array and that `after`. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds the window's block at every point, whether or not the block
    was fetched at that point: when it was not, the block index has not moved since the last fetch, and the body
    leaves an input buffer as it found it. Stated for any proof data with `V`'s array and that `after`. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds the window's block at every point, whether or not the block
    was fetched at that point: when it was not, the block index has not moved since the last fetch, and the body
    leaves an input buffer as it found it. Stated for any proof data with `V`'s array and that `after`. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds the window's block at every point, whether or not the block
    was fetched at that point: when it was not, the block index has not moved since the last fetch, and the body
    leaves an input buffer as it found it. Stated for any proof data with `V`'s array and that `after`. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body on abstract buffers -/

set_option maxHeartbeats 4000000 in
/-- The body reads the feature array, the two adjacency row blocks, the two halves of the bias row, the self
    block, and the score weights (its first part); then the head's weights and two bias rows, the output buffer
    once (a value it does not use), and stores one whole block. -/
theorem sound_kernel1 (c : Dev nD) (E : Set ℕ) (i : grid1.Coords)
    (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S200x128 .f32) (harg4 : arg4.IsWhole) (arg5 : Memref sig .tc .vmem S1x256 .f32) (harg5 : arg5.IsWhole) (arg6 : Memref sig .tc .vmem S384x3 .f32) (harg6 : arg6.IsWhole) (arg7 : Memref sig .tc .vmem S128x8 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S200x8 .f32) (harg10 : arg10.IsWhole)
    (x0 : Vec F S200x10000 .f32) (x1 : Vec F S200x10000 .f32) (x2 : Vec F S10000x256 .f32) (x3 : Vec F S200x128 .f32) (x4 : Vec F S1x256 .f32) (x5 : Vec F S384x3 .f32) (x6 : Vec F S128x8 .f32) (x7 : Vec F S1x8 .f32) (x8 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E (cc1__layer1_kernel i arg1 harg1 arg2 harg2 arg3 harg3 arg4 harg4 arg5 harg5 arg6 harg6 arg7 harg7 arg8 harg8 arg9 harg9 arg10 harg10) K := by
  simp only [cc1__layer1_kernel_eq_skeleton]; unfold cc1__layer1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The body at a grid point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the pipeline hands the body at point `t`: the invariant, the core's dues, and each window's current
    staging buffer at its contents before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it expects back: the same with every buffer at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- At any point the input buffers hold their blocks, so the body's run on abstract buffers applies; the
    invariant and the dues are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIBody2.lean ====
/- Region 2's kernel body, run once on abstract staging buffers at grid coordinate `i`: with the three input
   buffers holding `x0`, `x1`, `x2` and the output buffer holding anything, it terminates leaving the inputs as
   they were and the output at `out2_3 i x0 x1 x2`. At every grid point the input buffers hold their windows'
   blocks, so this is the obligation the pipeline asks of the body at that point. -/
import proofs.«110970_g76141180223726_cont_sun_m_824_6_alg».proof.Proof.KIData
import Idealize.ShloMosaic.Lib.Pipeline.FrameBody
import Idealize.ShloMosaic.Lib.Ring
import Idealize.ShloMosaic.Lib.Tactic

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## One store fills the output buffer -/

theorem cover2_3 (p0 : Vec F S200x2 .f32) (y : S200x2.Idx) :
    ∃ pc ∈ ([⟨r2_3, p0⟩] : List (View.Piece (Elt F) S200x2 .f32)), y ∈ pc.1.set :=
  View.cover_of_tiled [⟨r2_3, p0⟩] S200x2.size (by rfl) y

/-! ## The inputs' buffers hold their blocks -/

/-- Input window 0's current staging buffer holds the window's block at every point, whether or not the block
    was fetched at that point: when it was not, the block index has not moved since the last fetch, and the body
    leaves an input buffer as it found it. Stated for any proof data with `V`'s array and that `after`. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether or not the block
    was fetched at that point: when it was not, the block index has not moved since the last fetch, and the body
    leaves an input buffer as it found it. Stated for any proof data with `V`'s array and that `after`. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether or not the block
    was fetched at that point: when it was not, the block index has not moved since the last fetch, and the body
    leaves an input buffer as it found it. Stated for any proof data with `V`'s array and that `after`. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body on abstract buffers -/

set_option maxHeartbeats 4000000 in
/-- The body reads window 2 whole, windows 0 and 1 whole, window 2 again through a 200x2 rectangle placed by the
    grid coordinate, the output buffer once (a value it does not use), and stores one whole block. -/
theorem sound_kernel2 (c : Dev nD) (E : Set ℕ) (i : grid2.Coords)
    (arg1 : Memref sig .tc .vmem S200x10000 .f32) (harg1 : arg1.IsWhole) (arg2 : Memref sig .tc .vmem S200x10000 .f32) (harg2 : arg2.IsWhole) (arg3 : Memref sig .tc .vmem S10000x8 .f32) (harg3 : arg3.IsWhole) (arg4 : Memref sig .tc .vmem S200x2 .f32) (harg4 : arg4.IsWhole)
    (x0 : Vec F S200x10000 .f32) (x1 : Vec F S200x10000 .f32) (x2 : Vec F S10000x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 i x0 x1 x2)) -∗ K ⟨⟩))
      ⊢ wp frame (wpE (defs₀ (F := F)) Variants.none c none) E (cc2__layer2_kernel i arg1 harg1 arg2 harg2 arg3 harg3 arg4 harg4) K := by
  simp only [cc2__layer2_kernel_eq_skeleton]; unfold cc2__layer2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body at a grid point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the pipeline hands the body at point `t`: the invariant, the core's dues, and each window's current
    staging buffer at its contents before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it expects back: the same with every buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so the body's run on abstract buffers applies; the
    invariant and the dues are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KIRun.lean ====
/- The run of the whole program: the host operations, then the three regions in order, each entered from the
   buffer contents the one before it left. Every weakly fair execution from memory `m` with zero counters
   terminates, and at the end every unscoped buffer of every core reads the last contents of the fold, `W4`;
   in particular every argument reads its launch contents. -/
import proofs.«110970_g76141180223726_cont_sun_m_824_6_alg».proof.Proof.KIFold
import proofs.«110970_g76141180223726_cont_sun_m_824_6_alg».proof.Proof.KIBody0
import proofs.«110970_g76141180223726_cont_sun_m_824_6_alg».proof.Proof.KIBody1
import proofs.«110970_g76141180223726_cont_sun_m_824_6_alg».proof.Proof.KIBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data of the three pipelines and the state a core carries between segments -/

/-- No pipeline has a prefetched table. -/
abbrev adm : (p : Fin 3) → (pcfgs (F := F) p).Adm := fun p => (cfgs p).toPCfg_adm
/-- Each pipeline's proof data, at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register, at some state, and its dues, which are none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the state between segments holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the dues: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment of the run: entered with every unscoped buffer at `W1`, left with them at `W2`. At
    entry the region's arrays are split out of the unscoped buffers and the generator register goes into the
    region's invariant; at exit the arrays, now at what the write-backs left, are put back beside the untouched
    rest, and the register comes out. Nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at `W2`, left with them at `W3`. At
    entry the region's arrays are split out of the unscoped buffers and the generator register goes into the
    region's invariant; at exit the arrays, now at what the write-backs left, are put back beside the untouched
    rest, and the register comes out. Nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at `W3`, left with them at `W4`. At
    entry the region's arrays are split out of the unscoped buffers and the generator register goes into the
    region's invariant; at exit the arrays, now at what the write-backs left, are put back beside the untouched
    rest, and the register comes out. Nothing is owed and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

/-- The four segments in order: the host operations from the launch contents, then the three regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]
/-- The program is the run of these segments. -/
theorem main_run (c : Dev nD) : main (F := F) c = Pipeline.Seg.run (segs m) := (main_chain c).trans (by chain_rfl)

set_option backward.isDefEq.respectTransparency.types false in
/-- From any memory `m` with zero counters and any generator registers, every weakly fair execution terminates and
    every final memory has, on every core, every unscoped buffer at `W4`. -/
theorem run_main (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-- The frame: every argument array ends holding its launch contents, on every core. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c),
      (h c _ (mem_uc main_arg10 (by decide))).trans (W4_main_arg10 m c),
      (h c _ (mem_uc main_arg11 (by decide))).trans (W4_main_arg11 m c),
      (h c _ (mem_uc main_arg12 (by decide))).trans (W4_main_arg12 m c),
      (h c _ (mem_uc main_arg13 (by decide))).trans (W4_main_arg13 m c),
      (h c _ (mem_uc main_arg14 (by decide))).trans (W4_main_arg14 m c),
      (h c _ (mem_uc main_arg15 (by decide))).trans (W4_main_arg15 m c)⟩) (run_main m ρ)

end Cert.KernelIdeal.Hand

end
-- ==== Proof.KHostLib.lean ====
/-
  Concatenations of literal shapes read at an index, none of which mentions a program: three blocks of 128 columns
  over 768 rows, four blocks of 2 columns over 128 rows, and two vectors of length 128 end to end. A piece is read at
  the coordinate less the widths of the pieces before it.
-/
import Idealize.ShloMosaic.Lib.Pipeline.Value
import Idealize.ShloMosaic.Lib.ValueIdx

noncomputable section

namespace Cert.KernelIdeal.KValue

open Idealize.ShloMosaic Idealize.ShloMosaic.ValueIdx

section concat_w3

variable {α : Type} (y0 y1 y2 : (⟨2, ![768, 128]⟩ : Shape).Idx → α)
  (h : Shape.Concatenates [(⟨2, ![768, 128]⟩ : Shape), ⟨2, ![768, 128]⟩, ⟨2, ![768, 128]⟩] ⟨2, ![768, 384]⟩ 1)
  (r : Fin 768) (j : Fin 128)

/-- Three blocks of 128 columns side by side: columns 0..127 are piece 0. -/
theorem concat_w3_0 :
    concatenate ⟨2, ![768, 384]⟩ 1 [⟨⟨2, ![768, 128]⟩, y0⟩, ⟨⟨2, ![768, 128]⟩, y1⟩, ⟨⟨2, ![768, 128]⟩, y2⟩] h (ix2 r (⟨j.val, by omega⟩ : Fin 384)) = y0 (ix2 r j) :=
  concatenate_apply_piece 1 [⟨⟨2, ![768, 128]⟩, y0⟩, ⟨⟨2, ![768, 128]⟩, y1⟩, ⟨⟨2, ![768, 128]⟩, y2⟩] h _ 0 (by show _ < 3; omega) _ y0 rfl rfl 0 rfl (ix2 r j)
    (fun b hb => by match b with | ⟨0, _⟩ => rfl | ⟨1, _⟩ => exact absurd rfl hb) (Nat.zero_add _)

/-- Three blocks of 128 columns side by side: columns 128..255 are piece 1. -/
theorem concat_w3_1 :
    concatenate ⟨2, ![768, 384]⟩ 1 [⟨⟨2, ![768, 128]⟩, y0⟩, ⟨⟨2, ![768, 128]⟩, y1⟩, ⟨⟨2, ![768, 128]⟩, y2⟩] h (ix2 r (⟨128 + j.val, by omega⟩ : Fin 384)) = y1 (ix2 r j) :=
  concatenate_apply_piece 1 [⟨⟨2, ![768, 128]⟩, y0⟩, ⟨⟨2, ![768, 128]⟩, y1⟩, ⟨⟨2, ![768, 128]⟩, y2⟩] h _ 1 (by show _ < 3; omega) _ y1 rfl rfl 128 rfl (ix2 r j)
    (fun b hb => by match b with | ⟨0, _⟩ => rfl | ⟨1, _⟩ => exact absurd rfl hb) rfl

/-- Three blocks of 128 columns side by side: columns 256..383 are piece 2. -/
theorem concat_w3_2 :
    concatenate ⟨2, ![768, 384]⟩ 1 [⟨⟨2, ![768, 128]⟩, y0⟩, ⟨⟨2, ![768, 128]⟩, y1⟩, ⟨⟨2, ![768, 128]⟩, y2⟩] h (ix2 r (⟨256 + j.val, by omega⟩ : Fin 384)) = y2 (ix2 r j) :=
  concatenate_apply_piece 1 [⟨⟨2, ![768, 128]⟩, y0⟩, ⟨⟨2, ![768, 128]⟩, y1⟩, ⟨⟨2, ![768, 128]⟩, y2⟩] h _ 2 (by show _ < 3; omega) _ y2 rfl rfl 256 rfl (ix2 r j)
    (fun b hb => by match b with | ⟨0, _⟩ => rfl | ⟨1, _⟩ => exact absurd rfl hb) rfl

end concat_w3

section concat_v4

variable {α : Type} (y0 y1 y2 y3 : (⟨2, ![128, 2]⟩ : Shape).Idx → α)
  (h : Shape.Concatenates [(⟨2, ![128, 2]⟩ : Shape), ⟨2, ![128, 2]⟩, ⟨2, ![128, 2]⟩, ⟨2, ![128, 2]⟩] ⟨2, ![128, 8]⟩ 1)
  (r : Fin 128) (j : Fin 2)

/-- Four blocks of 2 columns side by side: columns 0..1 are piece 0. -/
theorem concat_v4_0 :
    concatenate ⟨2, ![128, 8]⟩ 1 [⟨⟨2, ![128, 2]⟩, y0⟩, ⟨⟨2, ![128, 2]⟩, y1⟩, ⟨⟨2, ![128, 2]⟩, y2⟩, ⟨⟨2, ![128, 2]⟩, y3⟩] h (ix2 r (⟨j.val, by omega⟩ : Fin 8)) = y0 (ix2 r j) :=
  concatenate_apply_piece 1 [⟨⟨2, ![128, 2]⟩, y0⟩, ⟨⟨2, ![128, 2]⟩, y1⟩, ⟨⟨2, ![128, 2]⟩, y2⟩, ⟨⟨2, ![128, 2]⟩, y3⟩] h _ 0 (by show _ < 4; omega) _ y0 rfl rfl 0 rfl (ix2 r j)
    (fun b hb => by match b with | ⟨0, _⟩ => rfl | ⟨1, _⟩ => exact absurd rfl hb) (Nat.zero_add _)

/-- Four blocks of 2 columns side by side: columns 2..3 are piece 1. -/
theorem concat_v4_1 :
    concatenate ⟨2, ![128, 8]⟩ 1 [⟨⟨2, ![128, 2]⟩, y0⟩, ⟨⟨2, ![128, 2]⟩, y1⟩, ⟨⟨2, ![128, 2]⟩, y2⟩, ⟨⟨2, ![128, 2]⟩, y3⟩] h (ix2 r (⟨2 + j.val, by omega⟩ : Fin 8)) = y1 (ix2 r j) :=
  concatenate_apply_piece 1 [⟨⟨2, ![128, 2]⟩, y0⟩, ⟨⟨2, ![128, 2]⟩, y1⟩, ⟨⟨2, ![128, 2]⟩, y2⟩, ⟨⟨2, ![128, 2]⟩, y3⟩] h _ 1 (by show _ < 4; omega) _ y1 rfl rfl 2 rfl (ix2 r j)
    (fun b hb => by match b with | ⟨0, _⟩ => rfl | ⟨1, _⟩ => exact absurd rfl hb) rfl

/-- Four blocks of 2 columns side by side: columns 4..5 are piece 2. -/
theorem concat_v4_2 :
    concatenate ⟨2, ![128, 8]⟩ 1 [⟨⟨2, ![128, 2]⟩, y0⟩, ⟨⟨2, ![128, 2]⟩, y1⟩, ⟨⟨2, ![128, 2]⟩, y2⟩, ⟨⟨2, ![128, 2]⟩, y3⟩] h (ix2 r (⟨4 + j.val, by omega⟩ : Fin 8)) = y2 (ix2 r j) :=
  concatenate_apply_piece 1 [⟨⟨2, ![128, 2]⟩, y0⟩, ⟨⟨2, ![128, 2]⟩, y1⟩, ⟨⟨2, ![128, 2]⟩, y2⟩, ⟨⟨2, ![128, 2]⟩, y3⟩] h _ 2 (by show _ < 4; omega) _ y2 rfl rfl 4 rfl (ix2 r j)
    (fun b hb => by match b with | ⟨0, _⟩ => rfl | ⟨1, _⟩ => exact absurd rfl hb) rfl

end concat_v4

section concat_b2

variable {α : Type} (y0 y1 : (⟨1, ![128]⟩ : Shape).Idx → α)
  (h : Shape.Concatenates [(⟨1, ![128]⟩ : Shape), ⟨1, ![128]⟩] ⟨1, ![256]⟩ 0) (j : Fin 128)

/-- Two vectors of length 128 end to end: entries 0..127 are the first. -/
theorem concat_b2_0 :
    concatenate ⟨1, ![256]⟩ 0 [⟨⟨1, ![128]⟩, y0⟩, ⟨⟨1, ![128]⟩, y1⟩] h (ix1 (⟨j.val, by omega⟩ : Fin 256)) = y0 (ix1 j) :=
  concatenate_apply_piece 0 [⟨⟨1, ![128]⟩, y0⟩, ⟨⟨1, ![128]⟩, y1⟩] h _ 0 (by show _ < 2; omega) _ y0 rfl rfl 0 rfl (ix1 j)
    (fun b hb => by match b with | ⟨0, _⟩ => exact absurd rfl hb) (Nat.zero_add _)

/-- Entries 128..255 are the second. -/
theorem concat_b2_1 :
    concatenate ⟨1, ![256]⟩ 0 [⟨⟨1, ![128]⟩, y0⟩, ⟨⟨1, ![128]⟩, y1⟩] h (ix1 (⟨128 + j.val, by omega⟩ : Fin 256)) = y1 (ix1 j) :=
  concatenate_apply_piece 0 [⟨⟨1, ![128]⟩, y0⟩, ⟨⟨1, ![128]⟩, y1⟩] h _ 1 (by show _ < 2; omega) _ y1 rfl rfl 128 rfl (ix1 j)
    (fun b hb => by match b with | ⟨0, _⟩ => exact absurd rfl hb) rfl

end concat_b2

end Cert.KernelIdeal.KValue

end
-- ==== Proof.KHost.lean ====
/-
  What the buffers written by the host operations before the first region hold, read at an index: the three layer-one
  weight matrices side by side, their biases, the three layer-two matrices side by side with a block of zeros, and the
  two rows of width 8 that carry the layer-two biases at columns 4 and 5 (an update of a row of zeros at the start
  index (0, 4)).
-/
import proofs.«110970_g76141180223726_cont_sun_m_824_6_alg».proof.Proof.KIFold
import proofs.«110970_g76141180223726_cont_sun_m_824_6_alg».proof.Proof.KHostLib
import Idealize.ShloMosaic.Lib.StableHlo.Run

noncomputable section

namespace Cert.KernelIdeal.KValue

open Cert.KernelIdeal Cert.KernelIdeal.Gen Cert.KernelIdeal.Hand Idealize.ShloMosaic Idealize.ShloMosaic.ValueIdx
  Idealize.ShloMosaic.TcCoe Idealize.SL.Sem Idealize.ShloMosaic.StableHlo

/-! ## An update of a row of width 8 at the start index (0, 4) -/

/-- The two-entry start index (0, 4). -/
abbrev idx04 : S2.Idx → BitVec 32 :=
  concatenate S2 0 [⟨S1, broadcastInDim S1 ![] bcast_S_S1 (constantI S_ 32 0#32)⟩,
    ⟨S1, broadcastInDim S1 ![] bcast_S_S1 (constantI S_ 32 4#32)⟩] concatenates_S1_S1_S2_d0

/-- The first entry of the update lands at column 4 of the row. -/
theorem result_idx_0 : scatter_S1x8_S2_S2_0_0_01_0.resultIdx? (S2.rowMajor.symm (⟨0, by decide⟩ : Fin S2.numel)) idx04
    = some (ix2 (0 : Fin 1) (4 : Fin 8)) := by decide

/-- The second entry of the update lands at column 5 of the row. -/
theorem result_idx_1 : scatter_S1x8_S2_S2_0_0_01_0.resultIdx? (S2.rowMajor.symm (⟨1, by decide⟩ : Fin S2.numel)) idx04
    = some (ix2 (0 : Fin 1) (5 : Fin 8)) := by decide

/-- The update has two entries. -/
theorem update_range : List.finRange S2.numel = [(⟨0, by decide⟩ : Fin S2.numel), ⟨1, by decide⟩] := by decide

/-- A two-entry update that replaces, written at the start index (0, 4) into a row of width 8: column `4 + j` of
    the result is entry `j` of the update. -/
theorem scatter_at (x : S1x8.Idx → EReal) (upd : S2.Idx → EReal) (j : Fin 2) :
    Host.scatter scatter_S1x8_S2_S2_0_0_01_0 (fun _ b => b) x idx04 upd (ix2 (0 : Fin 1) (⟨4 + j.val, by omega⟩ : Fin 8))
      = upd (ix1 j) := by
  unfold Host.scatter
  rw [update_range]
  simp only [List.foldl_cons, List.foldl_nil]
  rw [result_idx_0, result_idx_1]
  dsimp only
  fin_cases j
  · rw [if_neg (by decide), if_pos (by decide)]
    exact congrArg upd (by decide)
  · rw [if_pos (by decide)]
    exact congrArg upd (by decide)

/-! ## The host operations' results as terms of the launch contents -/

variable (m : (ℓ : Loc nD τ sig) → Buf (Elt Ideal) ℓ) (c : Dev nD)

/-- Core `c`'s launch contents of the first graph bias of layer two, as a vector of extended reals. -/
abbrev bias21 : S2.Idx → EReal := (m ((c : Thread nD τ).loc main_arg11))
/-- Core `c`'s launch contents of the second graph bias of layer two. -/
abbrev bias22 : S2.Idx → EReal := (m ((c : Thread nD τ).loc main_arg13))

/-- The three layer-one weight matrices side by side. -/
theorem e_v0 : (Hand.V1 m c main_v0 : S768x384.Idx → EReal)
    = concatenate S768x384 1 [⟨S768x128, (m ((c : Thread nD τ).loc main_arg3))⟩, ⟨S768x128, (m ((c : Thread nD τ).loc main_arg5))⟩, ⟨S768x128, (m ((c : Thread nD τ).loc main_arg7))⟩]
        concatenates_S768x128_S768x128_S768x128_S768x384_d1 := by
  dsimp only [Hand.V1, Hand.W1, Hand.W0, hostOps0]; after_results <;> rfl

/-- The two graph biases of layer one end to end, as a row. -/
theorem e_v2 : (Hand.V1 m c main_v2 : S1x256.Idx → EReal)
    = broadcastInDim S1x256 ![1] bcast_S256_S1x256_1
        (concatenate S256 0 [⟨S128, (m ((c : Thread nD τ).loc main_arg4))⟩, ⟨S128, (m ((c : Thread nD τ).loc main_arg6))⟩] concatenates_S128_S128_S256_d0) := by
  dsimp only [Hand.V1, Hand.W1, Hand.W0, hostOps0]; after_results <;> rfl

/-- The three layer-two matrices side by side, then a block of zeros. -/
theorem e_v4 : (Hand.V1 m c main_v4 : S128x8.Idx → EReal)
    = concatenate S128x8 1 [⟨S128x2, (m ((c : Thread nD τ).loc main_arg10))⟩, ⟨S128x2, (m ((c : Thread nD τ).loc main_arg12))⟩, ⟨S128x2, (m ((c : Thread nD τ).loc main_arg14))⟩,
        ⟨S128x2, broadcastInDim S128x2 ![] bcast_S_S128x2 (constant (F := Ideal) S_ .f32 0x00000000#32)⟩]
        concatenates_S128x2_S128x2_S128x2_S128x2_S128x8_d1 := by
  dsimp only [Hand.V1, Hand.W1, Hand.W0, hostOps0]; after_results <;> rfl

/-- The dense bias of layer two written into a row of zeros at the start index (0, 4). -/
theorem e_v9 : (Hand.V1 m c main_v9 : S1x8.Idx → EReal)
    = Host.scatter scatter_S1x8_S2_S2_0_0_01_0 (fun _ b => b) (broadcastInDim S1x8 ![] bcast_S_S1x8 (constant (F := Ideal) S_ .f32 0x00000000#32)) idx04 (m ((c : Thread nD τ).loc main_arg15)) := by
  dsimp only [Hand.V1, Hand.W1, Hand.W0, hostOps0]; after_results <;> rfl

set_option maxHeartbeats 800000 in
/-- The sum of the two graph biases of layer two written into a row of zeros at the start index (0, 4). -/
theorem e_v15 : (Hand.V1 m c main_v15 : S1x8.Idx → EReal)
    = Host.scatter scatter_S1x8_S2_S2_0_0_01_0 (fun _ b => b) (broadcastInDim S1x8 ![] bcast_S_S1x8 (constant (F := Ideal) S_ .f32 0x00000000#32)) idx04
        (addf (F := Ideal) (s := S2) (φ := .f32) (m ((c : Thread nD τ).loc main_arg11)) (m ((c : Thread nD τ).loc main_arg13))) := by
  generalize hR : Host.scatter scatter_S1x8_S2_S2_0_0_01_0 (fun _ b => b) (broadcastInDim S1x8 ![] bcast_S_S1x8 (constant (F := Ideal) S_ .f32 0x00000000#32)) idx04
    (addf (F := Ideal) (s := S2) (φ := .f32) (m ((c : Thread nD τ).loc main_arg11)) (m ((c : Thread nD τ).loc main_arg13))) = R
  dsimp only [Hand.V1, Hand.W1, Hand.W0, hostOps0]; after_results
  exact hR

/-- The dense bias of layer one as a row. -/
theorem e_v16 : (Hand.V1 m c main_v16 : S1x128.Idx → EReal)
    = broadcastInDim S1x128 ![1] bcast_S128_S1x128_1 (m ((c : Thread nD τ).loc main_arg8)) := by
  dsimp only [Hand.V1, Hand.W1, Hand.W0, hostOps0]; after_results <;> rfl

/-! ## Read at an index -/

/-- Columns 0..127 of the joined layer-one weights are the first graph branch's. -/
theorem v0_at_0 (k : Fin 768) (j : Fin 128) :
    (Hand.V1 m c main_v0 : S768x384.Idx → EReal) (ix2 k (⟨j.val, by omega⟩ : Fin 384)) = ((m ((c : Thread nD τ).loc main_arg3)) : S768x128.Idx → EReal) (ix2 k j) :=
  (congrFun (e_v0 m c) _).trans (concat_w3_0 _ _ _ _ k j)

/-- Columns 128..255 are the second graph branch's. -/
theorem v0_at_1 (k : Fin 768) (j : Fin 128) :
    (Hand.V1 m c main_v0 : S768x384.Idx → EReal) (ix2 k (⟨128 + j.val, by omega⟩ : Fin 384)) = ((m ((c : Thread nD τ).loc main_arg5)) : S768x128.Idx → EReal) (ix2 k j) :=
  (congrFun (e_v0 m c) _).trans (concat_w3_1 _ _ _ _ k j)

/-- Columns 256..383 are the dense branch's. -/
theorem v0_at_2 (k : Fin 768) (j : Fin 128) :
    (Hand.V1 m c main_v0 : S768x384.Idx → EReal) (ix2 k (⟨256 + j.val, by omega⟩ : Fin 384)) = ((m ((c : Thread nD τ).loc main_arg7)) : S768x128.Idx → EReal) (ix2 k j) :=
  (congrFun (e_v0 m c) _).trans (concat_w3_2 _ _ _ _ k j)

/-- The dense bias of layer one as a row: column `j` is entry `j`. -/
theorem v16_at (j : Fin 128) :
    (Hand.V1 m c main_v16 : S1x128.Idx → EReal) (ix2 (0 : Fin 1) j) = ((m ((c : Thread nD τ).loc main_arg8)) : S128.Idx → EReal) (ix1 j) :=
  (congrFun (e_v16 m c) _).trans (broadcastInDim_apply _ bcast_S128_S1x128_1 _ (ix2 (0 : Fin 1) j) (ix1 j) (fun a => match a with
    | ⟨0, _⟩ => by show j.val = if (128 : Nat) = 1 then 0 else j.val; rw [if_neg (by decide)]))

/-- The joined graph biases as a row: columns 0..127 are the first's. -/
theorem v2_at_0 (j : Fin 128) :
    (Hand.V1 m c main_v2 : S1x256.Idx → EReal) (ix2 (0 : Fin 1) (⟨j.val, by omega⟩ : Fin 256)) = ((m ((c : Thread nD τ).loc main_arg4)) : S128.Idx → EReal) (ix1 j) :=
  (congrFun (e_v2 m c) _).trans ((broadcastInDim_apply _ bcast_S256_S1x256_1 _ (ix2 (0 : Fin 1) (⟨j.val, by omega⟩ : Fin 256))
    (ix1 (⟨j.val, by omega⟩ : Fin 256)) (fun a => match a with
    | ⟨0, _⟩ => by show j.val = if (256 : Nat) = 1 then 0 else j.val; rw [if_neg (by decide)])).trans (concat_b2_0 _ _ _ j))

/-- Columns 128..255 are the second's. -/
theorem v2_at_1 (j : Fin 128) :
    (Hand.V1 m c main_v2 : S1x256.Idx → EReal) (ix2 (0 : Fin 1) (⟨128 + j.val, by omega⟩ : Fin 256)) = ((m ((c : Thread nD τ).loc main_arg6)) : S128.Idx → EReal) (ix1 j) :=
  (congrFun (e_v2 m c) _).trans ((broadcastInDim_apply _ bcast_S256_S1x256_1 _ (ix2 (0 : Fin 1) (⟨128 + j.val, by omega⟩ : Fin 256))
    (ix1 (⟨128 + j.val, by omega⟩ : Fin 256)) (fun a => match a with
    | ⟨0, _⟩ => by show 128 + j.val = if (256 : Nat) = 1 then 0 else 128 + j.val; rw [if_neg (by decide)])).trans (concat_b2_1 _ _ _ j))

/-- Columns 0, 1 of the joined layer-two matrices are the first graph branch's. -/
theorem v4_at_0 (h : Fin 128) (j : Fin 2) :
    (Hand.V1 m c main_v4 : S128x8.Idx → EReal) (ix2 h (⟨j.val, by omega⟩ : Fin 8)) = ((m ((c : Thread nD τ).loc main_arg10)) : S128x2.Idx → EReal) (ix2 h j) :=
  (congrFun (e_v4 m c) _).trans (concat_v4_0 _ _ _ _ _ h j)

/-- Columns 2, 3 are the second graph branch's. -/
theorem v4_at_1 (h : Fin 128) (j : Fin 2) :
    (Hand.V1 m c main_v4 : S128x8.Idx → EReal) (ix2 h (⟨2 + j.val, by omega⟩ : Fin 8)) = ((m ((c : Thread nD τ).loc main_arg12)) : S128x2.Idx → EReal) (ix2 h j) :=
  (congrFun (e_v4 m c) _).trans (concat_v4_1 _ _ _ _ _ h j)

/-- Columns 4, 5 are the dense branch's. -/
theorem v4_at_2 (h : Fin 128) (j : Fin 2) :
    (Hand.V1 m c main_v4 : S128x8.Idx → EReal) (ix2 h (⟨4 + j.val, by omega⟩ : Fin 8)) = ((m ((c : Thread nD τ).loc main_arg14)) : S128x2.Idx → EReal) (ix2 h j) :=
  (congrFun (e_v4 m c) _).trans (concat_v4_2 _ _ _ _ _ h j)

/-- Columns 4, 5 of the dense-bias row are the dense bias of layer two. -/
theorem v9_at (j : Fin 2) :
    (Hand.V1 m c main_v9 : S1x8.Idx → EReal) (ix2 (0 : Fin 1) (⟨4 + j.val, by omega⟩ : Fin 8)) = ((m ((c : Thread nD τ).loc main_arg15)) : S2.Idx → EReal) (ix1 j) :=
  (congrFun (e_v9 m c) _).trans (scatter_at _ _ j)

/-- Columns 4, 5 of the graph-bias row are the sum of the two graph biases of layer two. -/
theorem v15_at (j : Fin 2) :
    (Hand.V1 m c main_v15 : S1x8.Idx → EReal) (ix2 (0 : Fin 1) (⟨4 + j.val, by omega⟩ : Fin 8))
      = bias21 m c (ix1 j) + bias22 m c (ix1 j) :=
  (congrFun (e_v15 m c) _).trans (scatter_at _ _ j)

end Cert.KernelIdeal.KValue

end
-- ==== Proof.KDot.lean ====
/-
  Each matrix product of the kernel bodies, into the zero matrix, read at the entry in row `p` and column `q`: the sum
  over the inner index `k` of the left factor at `(p, k)` times the right factor at `(k, q)`. The contraction's index set has
  one axis, of the inner extent, and is traded for `Fin` of that extent; the operand indices the product names are then
  `(p, k)` and `(k, q)` coordinate by coordinate.
-/
import proofs.«110970_g76141180223726_cont_sun_m_824_6_alg».proof.Proof.Gen.KernelIdeal.Skeleton
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.ValueIdx

/-- The left factor's row is the entry's row. -/
theorem lhs0_1000_768_384 (i : S1000x384.Idx) (c : dot_S1000x768_S768x384_S1000x384_1_0_0_1_n_n.contr.Idx) : (dot_S1000x768_S768x384_S1000x384_1_0_0_1_n_n.lhsIdx i c 0).val = (i 0).val := by
  unfold DotDims.lhsIdx
  rw [dif_neg (show ¬(0 : Fin S1000x768.rank) ∈ dot_S1000x768_S768x384_S1000x384_1_0_0_1_n_n.lhsBatch by decide), dif_pos (show (0 : Fin S1000x768.rank) ∈ dot_S1000x768_S768x384_S1000x384_1_0_0_1_n_n.lhsNonContracting by decide)]
  rfl
/-- The left factor's column is the inner index. -/
theorem lhs1_1000_768_384 (i : S1000x384.Idx) (c : dot_S1000x768_S768x384_S1000x384_1_0_0_1_n_n.contr.Idx) : (dot_S1000x768_S768x384_S1000x384_1_0_0_1_n_n.lhsIdx i c 1).val = (c ⟨0, by decide⟩).val :=
  dot_S1000x768_S768x384_S1000x384_1_0_0_1_n_n.lhsIdx_val_of_single rfl i c
/-- The right factor's row is the inner index. -/
theorem rhs0_1000_768_384 (i : S1000x384.Idx) (c : dot_S1000x768_S768x384_S1000x384_1_0_0_1_n_n.contr.Idx) : (dot_S1000x768_S768x384_S1000x384_1_0_0_1_n_n.rhsIdx i c 0).val = (c ⟨0, by decide⟩).val :=
  dot_S1000x768_S768x384_S1000x384_1_0_0_1_n_n.rhsIdx_val_of_single rfl i c
/-- The right factor's column is the entry's column. -/
theorem rhs1_1000_768_384 (i : S1000x384.Idx) (c : dot_S1000x768_S768x384_S1000x384_1_0_0_1_n_n.contr.Idx) : (dot_S1000x768_S768x384_S1000x384_1_0_0_1_n_n.rhsIdx i c 1).val = (i 1).val := by
  unfold DotDims.rhsIdx
  rw [dif_neg (show ¬(1 : Fin S768x384.rank) ∈ dot_S1000x768_S768x384_S1000x384_1_0_0_1_n_n.rhsBatch by decide), dif_pos (show (1 : Fin S768x384.rank) ∈ dot_S1000x768_S768x384_S1000x384_1_0_0_1_n_n.rhsNonContracting by decide)]
  rfl
/-- The 1000 × 768 by 768 × 384 product into zero, at `(p, q)`. -/
theorem mm_1000_768_384 (l : FVec Ideal S1000x768 .f32) (r : FVec Ideal S768x384 .f32) (p : Fin 1000) (q : Fin 384) :
    matmul dot_S1000x768_S768x384_S1000x384_1_0_0_1_n_n none l r (constant S1000x384 .f32 0x00000000#32) (ix2 p q) = ∑ k : Fin 768, l (ix2 p k) * r (ix2 k q) := by
  simp only [matmul]
  rw [Ideal.matmul_constant_zero_apply, ← Equiv.sum_comp (contrEquiv1 dot_S1000x768_S768x384_S1000x384_1_0_0_1_n_n 768 rfl rfl).symm]
  refine Finset.sum_congr rfl fun k _ => ?_
  have hk := contrEquiv1_symm_val dot_S1000x768_S768x384_S1000x384_1_0_0_1_n_n 768 rfl rfl k
  have el : dot_S1000x768_S768x384_S1000x384_1_0_0_1_n_n.lhsIdx (ix2 p q) ((contrEquiv1 dot_S1000x768_S768x384_S1000x384_1_0_0_1_n_n 768 rfl rfl).symm k) = ix2 p k := funext fun a => Fin.ext (by
    match a with
    | ⟨0, _⟩ => exact lhs0_1000_768_384 _ _
    | ⟨1, _⟩ => exact (lhs1_1000_768_384 _ _).trans hk)
  have er : dot_S1000x768_S768x384_S1000x384_1_0_0_1_n_n.rhsIdx (ix2 p q) ((contrEquiv1 dot_S1000x768_S768x384_S1000x384_1_0_0_1_n_n 768 rfl rfl).symm k) = ix2 k q := funext fun a => Fin.ext (by
    match a with
    | ⟨0, _⟩ => exact (rhs0_1000_768_384 _ _).trans hk
    | ⟨1, _⟩ => exact rhs1_1000_768_384 _ _)
  rw [el, er]

/-- The left factor's row is the entry's row. -/
theorem lhs0_200_10000_128 (i : S200x128.Idx) (c : dot_S200x10000_S10000x128_S200x128_1_0_0_1_n_n.contr.Idx) : (dot_S200x10000_S10000x128_S200x128_1_0_0_1_n_n.lhsIdx i c 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The left factor's column is the inner index. -/
theorem lhs1_200_10000_128 (i : S200x128.Idx) (c : dot_S200x10000_S10000x128_S200x128_1_0_0_1_n_n.contr.Idx) : (dot_S200x10000_S10000x128_S200x128_1_0_0_1_n_n.lhsIdx i c 1).val = (c ⟨0, by decide⟩).val :=
  dot_S200x10000_S10000x128_S200x128_1_0_0_1_n_n.lhsIdx_val_of_single rfl i c
/-- The right factor's row is the inner index. -/
theorem rhs0_200_10000_128 (i : S200x128.Idx) (c : dot_S200x10000_S10000x128_S200x128_1_0_0_1_n_n.contr.Idx) : (dot_S200x10000_S10000x128_S200x128_1_0_0_1_n_n.rhsIdx i c 0).val = (c ⟨0, by decide⟩).val :=
  dot_S200x10000_S10000x128_S200x128_1_0_0_1_n_n.rhsIdx_val_of_single rfl i c
/-- The right factor's column is the entry's column. -/
theorem rhs1_200_10000_128 (i : S200x128.Idx) (c : dot_S200x10000_S10000x128_S200x128_1_0_0_1_n_n.contr.Idx) : (dot_S200x10000_S10000x128_S200x128_1_0_0_1_n_n.rhsIdx i c 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl
/-- The 200 × 10000 by 10000 × 128 product into zero, at `(p, q)`. -/
theorem mm_200_10000_128 (l : FVec Ideal S200x10000 .f32) (r : FVec Ideal S10000x128 .f32) (p : Fin 200) (q : Fin 128) :
    matmul dot_S200x10000_S10000x128_S200x128_1_0_0_1_n_n none l r (constant S200x128 .f32 0x00000000#32) (ix2 p q) = ∑ k : Fin 10000, l (ix2 p k) * r (ix2 k q) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact lhs0_200_10000_128 _ _
    | ⟨1, _⟩ => exact (lhs1_200_10000_128 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (rhs0_200_10000_128 _ _).trans hk
    | ⟨1, _⟩ => exact rhs1_200_10000_128 _ _)
  rw [el, er]

/-- The left factor's row is the entry's row. -/
theorem lhs0_200_128_3 (i : S200x3.Idx) (c : dot_S200x128_S128x3_S200x3_1_0_0_1_n_n.contr.Idx) : (dot_S200x128_S128x3_S200x3_1_0_0_1_n_n.lhsIdx i c 0).val = (i 0).val := by
  unfold DotDims.lhsIdx
  rw [dif_neg (show ¬(0 : Fin S200x128.rank) ∈ dot_S200x128_S128x3_S200x3_1_0_0_1_n_n.lhsBatch by decide), dif_pos (show (0 : Fin S200x128.rank) ∈ dot_S200x128_S128x3_S200x3_1_0_0_1_n_n.lhsNonContracting by decide)]
  rfl
/-- The left factor's column is the inner index. -/
theorem lhs1_200_128_3 (i : S200x3.Idx) (c : dot_S200x128_S128x3_S200x3_1_0_0_1_n_n.contr.Idx) : (dot_S200x128_S128x3_S200x3_1_0_0_1_n_n.lhsIdx i c 1).val = (c ⟨0, by decide⟩).val :=
  dot_S200x128_S128x3_S200x3_1_0_0_1_n_n.lhsIdx_val_of_single rfl i c
/-- The right factor's row is the inner index. -/
theorem rhs0_200_128_3 (i : S200x3.Idx) (c : dot_S200x128_S128x3_S200x3_1_0_0_1_n_n.contr.Idx) : (dot_S200x128_S128x3_S200x3_1_0_0_1_n_n.rhsIdx i c 0).val = (c ⟨0, by decide⟩).val :=
  dot_S200x128_S128x3_S200x3_1_0_0_1_n_n.rhsIdx_val_of_single rfl i c
/-- The right factor's column is the entry's column. -/
theorem rhs1_200_128_3 (i : S200x3.Idx) (c : dot_S200x128_S128x3_S200x3_1_0_0_1_n_n.contr.Idx) : (dot_S200x128_S128x3_S200x3_1_0_0_1_n_n.rhsIdx i c 1).val = (i 1).val := by
  unfold DotDims.rhsIdx
  rw [dif_neg (show ¬(1 : Fin S128x3.rank) ∈ dot_S200x128_S128x3_S200x3_1_0_0_1_n_n.rhsBatch by decide), dif_pos (show (1 : Fin S128x3.rank) ∈ dot_S200x128_S128x3_S200x3_1_0_0_1_n_n.rhsNonContracting by decide)]
  rfl
/-- The 200 × 128 by 128 × 3 product into zero, at `(p, q)`. -/
theorem mm_200_128_3 (l : FVec Ideal S200x128 .f32) (r : FVec Ideal S128x3 .f32) (p : Fin 200) (q : Fin 3) :
    matmul dot_S200x128_S128x3_S200x3_1_0_0_1_n_n none l r (constant S200x3 .f32 0x00000000#32) (ix2 p q) = ∑ k : Fin 128, l (ix2 p k) * r (ix2 k q) := by
  simp only [matmul]
  rw [Ideal.matmul_constant_zero_apply, ← Equiv.sum_comp (contrEquiv1 dot_S200x128_S128x3_S200x3_1_0_0_1_n_n 128 rfl rfl).symm]
  refine Finset.sum_congr rfl fun k _ => ?_
  have hk := contrEquiv1_symm_val dot_S200x128_S128x3_S200x3_1_0_0_1_n_n 128 rfl rfl k
  have el : dot_S200x128_S128x3_S200x3_1_0_0_1_n_n.lhsIdx (ix2 p q) ((contrEquiv1 dot_S200x128_S128x3_S200x3_1_0_0_1_n_n 128 rfl rfl).symm k) = ix2 p k := funext fun a => Fin.ext (by
    match a with
    | ⟨0, _⟩ => exact lhs0_200_128_3 _ _
    | ⟨1, _⟩ => exact (lhs1_200_128_3 _ _).trans hk)
  have er : dot_S200x128_S128x3_S200x3_1_0_0_1_n_n.rhsIdx (ix2 p q) ((contrEquiv1 dot_S200x128_S128x3_S200x3_1_0_0_1_n_n 128 rfl rfl).symm k) = ix2 k q := funext fun a => Fin.ext (by
    match a with
    | ⟨0, _⟩ => exact (rhs0_200_128_3 _ _).trans hk
    | ⟨1, _⟩ => exact rhs1_200_128_3 _ _)
  rw [el, er]

/-- The left factor's row is the entry's row. -/
theorem lhs0_200_128_8 (i : S200x8.Idx) (c : dot_S200x128_S128x8_S200x8_1_0_0_1_n_n.contr.Idx) : (dot_S200x128_S128x8_S200x8_1_0_0_1_n_n.lhsIdx i c 0).val = (i 0).val := by
  unfold DotDims.lhsIdx
  rw [dif_neg (show ¬(0 : Fin S200x128.rank) ∈ dot_S200x128_S128x8_S200x8_1_0_0_1_n_n.lhsBatch by decide), dif_pos (show (0 : Fin S200x128.rank) ∈ dot_S200x128_S128x8_S200x8_1_0_0_1_n_n.lhsNonContracting by decide)]
  rfl
/-- The left factor's column is the inner index. -/
theorem lhs1_200_128_8 (i : S200x8.Idx) (c : dot_S200x128_S128x8_S200x8_1_0_0_1_n_n.contr.Idx) : (dot_S200x128_S128x8_S200x8_1_0_0_1_n_n.lhsIdx i c 1).val = (c ⟨0, by decide⟩).val :=
  dot_S200x128_S128x8_S200x8_1_0_0_1_n_n.lhsIdx_val_of_single rfl i c
/-- The right factor's row is the inner index. -/
theorem rhs0_200_128_8 (i : S200x8.Idx) (c : dot_S200x128_S128x8_S200x8_1_0_0_1_n_n.contr.Idx) : (dot_S200x128_S128x8_S200x8_1_0_0_1_n_n.rhsIdx i c 0).val = (c ⟨0, by decide⟩).val :=
  dot_S200x128_S128x8_S200x8_1_0_0_1_n_n.rhsIdx_val_of_single rfl i c
/-- The right factor's column is the entry's column. -/
theorem rhs1_200_128_8 (i : S200x8.Idx) (c : dot_S200x128_S128x8_S200x8_1_0_0_1_n_n.contr.Idx) : (dot_S200x128_S128x8_S200x8_1_0_0_1_n_n.rhsIdx i c 1).val = (i 1).val := by
  unfold DotDims.rhsIdx
  rw [dif_neg (show ¬(1 : Fin S128x8.rank) ∈ dot_S200x128_S128x8_S200x8_1_0_0_1_n_n.rhsBatch by decide), dif_pos (show (1 : Fin S128x8.rank) ∈ dot_S200x128_S128x8_S200x8_1_0_0_1_n_n.rhsNonContracting by decide)]
  rfl
/-- The 200 × 128 by 128 × 8 product into zero, at `(p, q)`. -/
theorem mm_200_128_8 (l : FVec Ideal S200x128 .f32) (r : FVec Ideal S128x8 .f32) (p : Fin 200) (q : Fin 8) :
    matmul dot_S200x128_S128x8_S200x8_1_0_0_1_n_n none l r (constant S200x8 .f32 0x00000000#32) (ix2 p q) = ∑ k : Fin 128, l (ix2 p k) * r (ix2 k q) := by
  simp only [matmul]
  rw [Ideal.matmul_constant_zero_apply, ← Equiv.sum_comp (contrEquiv1 dot_S200x128_S128x8_S200x8_1_0_0_1_n_n 128 rfl rfl).symm]
  refine Finset.sum_congr rfl fun k _ => ?_
  have hk := contrEquiv1_symm_val dot_S200x128_S128x8_S200x8_1_0_0_1_n_n 128 rfl rfl k
  have el : dot_S200x128_S128x8_S200x8_1_0_0_1_n_n.lhsIdx (ix2 p q) ((contrEquiv1 dot_S200x128_S128x8_S200x8_1_0_0_1_n_n 128 rfl rfl).symm k) = ix2 p k := funext fun a => Fin.ext (by
    match a with
    | ⟨0, _⟩ => exact lhs0_200_128_8 _ _
    | ⟨1, _⟩ => exact (lhs1_200_128_8 _ _).trans hk)
  have er : dot_S200x128_S128x8_S200x8_1_0_0_1_n_n.rhsIdx (ix2 p q) ((contrEquiv1 dot_S200x128_S128x8_S200x8_1_0_0_1_n_n 128 rfl rfl).symm k) = ix2 k q := funext fun a => Fin.ext (by
    match a with
    | ⟨0, _⟩ => exact (rhs0_200_128_8 _ _).trans hk
    | ⟨1, _⟩ => exact rhs1_200_128_8 _ _)
  rw [el, er]

/-- The left factor's row is the entry's row. -/
theorem lhs0_200_10000_2 (i : S200x2.Idx) (c : dot_S200x10000_S10000x2_S200x2_1_0_0_1_n_n.contr.Idx) : (dot_S200x10000_S10000x2_S200x2_1_0_0_1_n_n.lhsIdx i c 0).val = (i 0).val := by
  unfold DotDims.lhsIdx
  rw [dif_neg (show ¬(0 : Fin S200x10000.rank) ∈ dot_S200x10000_S10000x2_S200x2_1_0_0_1_n_n.lhsBatch by decide), dif_pos (show (0 : Fin S200x10000.rank) ∈ dot_S200x10000_S10000x2_S200x2_1_0_0_1_n_n.lhsNonContracting by decide)]
  rfl
/-- The left factor's column is the inner index. -/
theorem lhs1_200_10000_2 (i : S200x2.Idx) (c : dot_S200x10000_S10000x2_S200x2_1_0_0_1_n_n.contr.Idx) : (dot_S200x10000_S10000x2_S200x2_1_0_0_1_n_n.lhsIdx i c 1).val = (c ⟨0, by decide⟩).val :=
  dot_S200x10000_S10000x2_S200x2_1_0_0_1_n_n.lhsIdx_val_of_single rfl i c
/-- The right factor's row is the inner index. -/
theorem rhs0_200_10000_2 (i : S200x2.Idx) (c : dot_S200x10000_S10000x2_S200x2_1_0_0_1_n_n.contr.Idx) : (dot_S200x10000_S10000x2_S200x2_1_0_0_1_n_n.rhsIdx i c 0).val = (c ⟨0, by decide⟩).val :=
  dot_S200x10000_S10000x2_S200x2_1_0_0_1_n_n.rhsIdx_val_of_single rfl i c
/-- The right factor's column is the entry's column. -/
theorem rhs1_200_10000_2 (i : S200x2.Idx) (c : dot_S200x10000_S10000x2_S200x2_1_0_0_1_n_n.contr.Idx) : (dot_S200x10000_S10000x2_S200x2_1_0_0_1_n_n.rhsIdx i c 1).val = (i 1).val := by
  unfold DotDims.rhsIdx
  rw [dif_neg (show ¬(1 : Fin S10000x2.rank) ∈ dot_S200x10000_S10000x2_S200x2_1_0_0_1_n_n.rhsBatch by decide), dif_pos (show (1 : Fin S10000x2.rank) ∈ dot_S200x10000_S10000x2_S200x2_1_0_0_1_n_n.rhsNonContracting by decide)]
  rfl
/-- The 200 × 10000 by 10000 × 2 product into zero, at `(p, q)`. -/
theorem mm_200_10000_2 (l : FVec Ideal S200x10000 .f32) (r : FVec Ideal S10000x2 .f32) (p : Fin 200) (q : Fin 2) :
    matmul dot_S200x10000_S10000x2_S200x2_1_0_0_1_n_n none l r (constant S200x2 .f32 0x00000000#32) (ix2 p q) = ∑ k : Fin 10000, l (ix2 p k) * r (ix2 k q) := by
  simp only [matmul]
  rw [Ideal.matmul_constant_zero_apply, ← Equiv.sum_comp (contrEquiv1 dot_S200x10000_S10000x2_S200x2_1_0_0_1_n_n 10000 rfl rfl).symm]
  refine Finset.sum_congr rfl fun k _ => ?_
  have hk := contrEquiv1_symm_val dot_S200x10000_S10000x2_S200x2_1_0_0_1_n_n 10000 rfl rfl k
  have el : dot_S200x10000_S10000x2_S200x2_1_0_0_1_n_n.lhsIdx (ix2 p q) ((contrEquiv1 dot_S200x10000_S10000x2_S200x2_1_0_0_1_n_n 10000 rfl rfl).symm k) = ix2 p k := funext fun a => Fin.ext (by
    match a with
    | ⟨0, _⟩ => exact lhs0_200_10000_2 _ _
    | ⟨1, _⟩ => exact (lhs1_200_10000_2 _ _).trans hk)
  have er : dot_S200x10000_S10000x2_S200x2_1_0_0_1_n_n.rhsIdx (ix2 p q) ((contrEquiv1 dot_S200x10000_S10000x2_S200x2_1_0_0_1_n_n 10000 rfl rfl).symm k) = ix2 k q := funext fun a => Fin.ext (by
    match a with
    | ⟨0, _⟩ => exact (rhs0_200_10000_2 _ _).trans hk
    | ⟨1, _⟩ => exact rhs1_200_10000_2 _ _)
  rw [el, er]

end Cert.KernelIdeal.KValue

end
-- ==== Proof.KPay1a.lean ====
/-
  The first-layer kernel's two graph branches on one block of 200 rows, entry by entry: the block of an adjacency matrix
  times one half (128 columns) of the whole table of projected features, plus that half of the bias row.
-/
import proofs.«110970_g76141180223726_cont_sun_m_824_6_alg».proof.Proof.KDot
import Idealize.ShloMosaic.Lib.ValueLayout

noncomputable section

namespace Cert.KernelIdeal.KValue

open Cert.KernelIdeal Cert.KernelIdeal.Gen Idealize.ShloMosaic Idealize.ShloMosaic.ValueIdx

/-- The table of projected features enters the body unchanged. -/
theorem pay1_2 (v0 : Vec Ideal S10000x256 .f32) : k1_pay2 (F := Ideal) v0 = v0 := by
  unfold k1_pay2
  exact shapeCast_self v0 _

/-- The first branch: the adjacency block against the table's columns 0–127, plus the bias. -/
theorem pay1_3 (v0 : Vec Ideal S10000x256 .f32) (v2 : Vec Ideal S200x10000 .f32) (v5 : Vec Ideal S1x128 .f32)
    (r : Fin 200) (j : Fin 128) :
    k1_pay3 (F := Ideal) v0 v2 v5 (ix2 r j)
      = (∑ k : Fin 10000, v2 (ix2 r k) * v0 (ix2 k (⟨j.val, by omega⟩ : Fin 256))) + v5 (ix2 (0 : Fin 1) j) := by
  have e1 : ∀ k : Fin 10000, extractStridedSlice S10000x128 ![0, 0] (k1_pay2 (F := Ideal) v0) slices_S10000x256_o0_0_S10000x128 (ix2 k j)
      = v0 (ix2 k (⟨j.val, by omega⟩ : Fin 256)) := fun k => by
    rw [pay1_2]
    exact slice2_axis1_apply 0 v0 _ k j ⟨j.val, by omega⟩ (Nat.zero_add _).symm
  unfold k1_pay3
  simp only [shapeCast_self]
  show matmul (F := Ideal) dot_S200x10000_S10000x128_S200x128_1_0_0_1_n_n none v2 _ (constant (F := Ideal) S200x128 .f32 0x00000000#32) (ix2 r j)
      + broadcastTo S200x128 v5 _ (ix2 r j) = _
  rw [mm_200_10000_128, broadcastTo_1b_ab_apply v5 _ r j]
  simp only [e1]

/-- The second branch: the other adjacency block against the table's columns 128–255, plus the bias. -/
theorem pay1_4 (v0 : Vec Ideal S10000x256 .f32) (v9 : Vec Ideal S200x10000 .f32) (v12 : Vec Ideal S1x128 .f32)
    (r : Fin 200) (j : Fin 128) :
    k1_pay4 (F := Ideal) v0 v9 v12 (ix2 r j)
      = (∑ k : Fin 10000, v9 (ix2 r k) * v0 (ix2 k (⟨128 + j.val, by omega⟩ : Fin 256))) + v12 (ix2 (0 : Fin 1) j) := by
  have e1 : ∀ k : Fin 10000, extractStridedSlice S10000x128 ![0, 128] (k1_pay2 (F := Ideal) v0) slices_S10000x256_o0_128_S10000x128 (ix2 k j)
      = v0 (ix2 k (⟨128 + j.val, by omega⟩ : Fin 256)) := fun k => by
    rw [pay1_2]
    exact slice2_axis1_apply 128 v0 _ k j ⟨128 + j.val, by omega⟩ rfl
  unfold k1_pay4
  simp only [shapeCast_self]
  show matmul (F := Ideal) dot_S200x10000_S10000x128_S200x128_1_0_0_1_n_n none v9 _ (constant (F := Ideal) S200x128 .f32 0x00000000#32) (ix2 r j)
      + broadcastTo S200x128 v12 _ (ix2 r j) = _
  rw [mm_200_10000_128, broadcastTo_1b_ab_apply v12 _ r j]
  simp only [e1]

/-- The dense branch's block enters the body unchanged. -/
theorem pay1_5 (v16 : Vec Ideal S200x128 .f32) : k1_pay5 (F := Ideal) v16 = v16 := by
  unfold k1_pay5
  exact shapeCast_self v16 _

end Cert.KernelIdeal.KValue

end
-- ==== Proof.Spec.lean ====
/-
  The function both programs compute, stated once over plain matrices of extended reals and mentioning no program.

  A graph network of two layers on `n = 10000` nodes with features of width 768. With `A`, `S` the two dense adjacency
  matrices:
  * layer one has three branches, each of width 128: `P₁ = A (X W₁) + b₁`, `P₂ = S (X W₂) + b₂` and the dense branch
    `M = tanh (X W_m + b_m)`;
  * the three branches are fused per node by attention: the logits are `[P₁ | P₂ | M] · W_a` (a 384 × 3 matrix, so a sum
    over three blocks of 128 columns), their absolute values go through a softmax over the three entries — subtract
    the row's maximum, exponentiate, divide by the row's sum —, and the fused features are
    `X₁ = P₁ · a₀ + P₂ · a₁ + M · a₂` with the node's three weights;
  * layer two has the same three branches at width 2 and adds them:
    `A (X₁ V₁) + S (X₁ V₂) + (tanh (X₁ V_m + c_m) + (c₁ + c₂))`.
  Every sum is a finite sum in the extended reals, where addition is commutative and associative; no step of the
  comparison below needs more than that, so no finiteness of the inputs is used.
-/
import Idealize.ShloMosaic.PureOps.Ideal

noncomputable section

namespace Cert.Spec

open Idealize.ShloMosaic

/-- An `a × b` matrix of extended reals. -/
abbrev Mat (a b : Nat) : Type := Fin a → Fin b → EReal

/-- The matrix product: entry `(i, j)` is the sum over the inner index of the products. -/
def mm {a k b : Nat} (l : Mat a k) (r : Mat k b) : Mat a b := fun i j => ∑ c : Fin k, l i c * r c j

/-- A graph branch: propagate the projected features along the adjacency and add the bias to every row. -/
def branch {n d h : Nat} (adj : Mat n n) (x : Mat n d) (w : Mat d h) (b : Fin h → EReal) : Mat n h :=
  fun i j => mm adj (mm x w) i j + b j

/-- The dense branch: project, add the bias, squash. -/
def dense {n d h : Nat} (x : Mat n d) (w : Mat d h) (b : Fin h → EReal) : Mat n h :=
  fun i j => Ideal.tanh (mm x w i j + b j)

/-- The attention logits: the three branches against the three row blocks of the 384 × 3 attention matrix. -/
def logits {n : Nat} (p1 p2 xm : Mat n 128) (af : Mat 384 3) : Mat n 3 := fun i a =>
  (∑ k : Fin 128, p1 i k * af ⟨k.val, by omega⟩ a) + (∑ k : Fin 128, p2 i k * af ⟨128 + k.val, by omega⟩ a)
    + (∑ k : Fin 128, xm i k * af ⟨256 + k.val, by omega⟩ a)

/-- Absolute value on the extended reals. -/
def absv {n : Nat} (l : Mat n 3) : Mat n 3 := fun i a => max (l i a) (-(l i a))

/-- A row's maximum: the fold of `max` from the bottom element over the three entries. -/
def rowmax {n : Nat} (l : Mat n 3) (i : Fin n) : EReal := (Finset.univ : Finset (Fin 3)).fold max ⊥ (fun a => l i a)

/-- The shifted exponentials of a row. -/
def expo {n : Nat} (l : Mat n 3) : Mat n 3 := fun i a => Ideal.exp (l i a - rowmax l i)

/-- The softmax weights of a row: each shifted exponential over the row's sum of them. -/
def weights {n : Nat} (l : Mat n 3) : Mat n 3 := fun i a => Ideal.div (expo l i a) (∑ a' : Fin 3, expo l i a')

/-- The fused features: the three branches weighted by the node's three attention weights. -/
def fused {n : Nat} (p1 p2 xm : Mat n 128) (w : Mat n 3) : Mat n 128 := fun i j =>
  p1 i j * w i 0 + p2 i j * w i 1 + xm i j * w i 2

/-- Layer two: the two graph branches and the dense branch of the fused features, the two graph biases added together
    beside the dense branch. -/
def layer2 {n : Nat} (adj sadj : Mat n n) (x1 : Mat n 128) (v1 v2 vm : Mat 128 2) (c1 c2 cm : Fin 2 → EReal) : Mat n 2 :=
  fun i j => mm adj (mm x1 v1) i j + mm sadj (mm x1 v2) i j + (Ideal.tanh (mm x1 vm i j + cm j) + (c1 j + c2 j))

/-- The fused first-layer features of the whole network. -/
def hidden (x : Mat 10000 768) (adj sadj : Mat 10000 10000) (w1 : Mat 768 128) (b1 : Fin 128 → EReal) (w2 : Mat 768 128)
    (b2 : Fin 128 → EReal) (wm : Mat 768 128) (bm : Fin 128 → EReal) (af : Mat 384 3) : Mat 10000 128 :=
  fused (branch adj x w1 b1) (branch sadj x w2 b2) (dense x wm bm)
    (weights (absv (logits (branch adj x w1 b1) (branch sadj x w2 b2) (dense x wm bm) af)))

/-- The network's result. -/
def result (x : Mat 10000 768) (adj sadj : Mat 10000 10000) (w1 : Mat 768 128) (b1 : Fin 128 → EReal) (w2 : Mat 768 128)
    (b2 : Fin 128 → EReal) (wm : Mat 768 128) (bm : Fin 128 → EReal) (af : Mat 384 3) (v1 : Mat 128 2) (c1 : Fin 2 → EReal)
    (v2 : Mat 128 2) (c2 : Fin 2 → EReal) (vm : Mat 128 2) (cm : Fin 2 → EReal) : Mat 10000 2 :=
  layer2 adj sadj (hidden x adj sadj w1 b1 w2 b2 wm bm af) v1 v2 vm c1 c2 cm

end Cert.Spec

end
-- ==== Proof.SpecIdx.lean ====
/-
  Arrays as matrices: an array over a literal two-axis shape, read at the index built from a row and a column, is a
  matrix in the sense of the specification; an array over one axis is a vector.
-/
import proofs.«110970_g76141180223726_cont_sun_m_824_6_alg».proof.Proof.Spec
import Idealize.ShloMosaic.Lib.ValueIdx

noncomputable section

namespace Cert.Spec

open Idealize.ShloMosaic Idealize.ShloMosaic.ValueIdx

/-- A two-axis array as a matrix: entry `(i, j)` is the array at the index with coordinates `i`, `j`. -/
abbrev ofArr2 {a b : Nat} (X : (⟨2, ![a, b]⟩ : Shape).Idx → EReal) : Mat a b := fun i j => X (ix2 i j)

/-- A one-axis array as a vector. -/
abbrev ofArr1 {a : Nat} (X : (⟨1, ![a]⟩ : Shape).Idx → EReal) : Fin a → EReal := fun i => X (ix1 i)

end Cert.Spec

end
-- ==== Proof.LibColumn.lean ====
/-
  Two layout operations on columns, read at an index: a column `[a, 1]` broadcast across `b` columns, and a vector `[a]`
  recast as the column `[a, 1]` (what a row reduction that keeps its axis produces). General: no program is imported.
-/
import Idealize.ShloMosaic.Lib.Pipeline.Value
import Idealize.ShloMosaic.Lib.ValueIdx

namespace Cert.LibColumn

open Idealize.ShloMosaic Idealize.ShloMosaic.ValueIdx

variable {α : Type}

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` recast as the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.LibColumn
-- ==== Proof.KPay1b.lean ====
/-
  The first-layer kernel's attention weights on one block of 200 rows.

  The logits are the three branches against the three 128-row blocks of the attention matrix, added; their absolute
  values go through a softmax over the row's three entries: the row's maximum (a fold of `max` from `-∞`) is
  subtracted, the differences are exponentiated, and each is divided by the row's sum of them.
-/
import proofs.«110970_g76141180223726_cont_sun_m_824_6_alg».proof.Proof.KPay1a
import proofs.«110970_g76141180223726_cont_sun_m_824_6_alg».proof.Proof.SpecIdx
import proofs.«110970_g76141180223726_cont_sun_m_824_6_alg».proof.Proof.LibColumn

noncomputable section

namespace Cert.KernelIdeal.KValue

open Cert.KernelIdeal Cert.KernelIdeal.Gen Idealize.ShloMosaic Idealize.ShloMosaic.ValueIdx Cert.Spec Cert.LibColumn

/-- The row index `r` with the dropped column coordinate `a` put back is `(r, a)`. -/
theorem lift_row (r : Fin 200) (a : Fin 3) : reduces_S200x3_S200.lift (ix1 r) a = ix2 r a :=
  funext fun c => Fin.ext (by
    match c with
    | ⟨0, _⟩ => rfl
    | ⟨1, _⟩ => rfl)

/-- The word of `-∞` denotes the bottom element. -/
theorem neg_inf_word : (FloatOps.ofBits (F := Ideal) .f32 0xFF800000#32 : EReal) = ⊥ := by
  simp [Ideal.ofBits, Ideal.ieee]

/-- A row's maximum as the body takes it. -/
theorem rowmax_read (X : FVec Ideal S200x3 .f32) (r : Fin 200) :
    multiReduction (F := Ideal) .maximumf [1] S200 X 0xFF800000#32 reduces_S200x3_S200 (.inl rfl) rfl (ix1 r)
      = rowmax (ofArr2 X) r := by
  refine (Ideal.multiReduction_maximumf_single X _ reduces_S200x3_S200 _ _ (ix1 r)).trans ?_
  rw [neg_inf_word]
  have hf : (fun a : Fin 3 => X (reduces_S200x3_S200.lift (ix1 r) a)) = fun a => X (ix2 r a) :=
    funext fun a => congrArg X (lift_row r a)
  exact congrArg (fun f => (Finset.univ : Finset (Fin 3)).fold max ⊥ f) hf

/-- The shifted exponentials of a block of rows. -/
def shifted (X : FVec Ideal S200x3 .f32) : FVec Ideal S200x3 .f32 :=
  exp (subf X (broadcastTo S200x3 (shapeCast S200x1
    (multiReduction (F := Ideal) .maximumf [1] S200 X 0xFF800000#32 reduces_S200x3_S200 (.inl rfl) rfl) shapeCasts_S200_S200x1)
    broadcasts_S200x1_S200x3))

theorem shifted_read (X : FVec Ideal S200x3 .f32) (r : Fin 200) (a : Fin 3) :
    shifted X (ix2 r a) = expo (ofArr2 X) r a := by
  unfold shifted
  show Ideal.exp (X (ix2 r a) - broadcastTo S200x3 _ broadcasts_S200x1_S200x3 (ix2 r a)) = _
  rw [broadcastTo_a1_ab_apply _ _ r a, shapeCast_a_a1_apply _ _ r 0, rowmax_read]
  rfl

/-- The block's rows, each shifted exponential over its row's sum. -/
def normalized (X : FVec Ideal S200x3 .f32) : FVec Ideal S200x3 .f32 :=
  divf (shifted X) (broadcastTo S200x3 (shapeCast S200x1
    (multiReduction (F := Ideal) .add [1] S200 (shifted X) 0x00000000#32 reduces_S200x3_S200 (.inl rfl) rfl) shapeCasts_S200_S200x1)
    broadcasts_S200x1_S200x3)

theorem normalized_read (X : FVec Ideal S200x3 .f32) (r : Fin 200) (a : Fin 3) :
    normalized X (ix2 r a) = weights (ofArr2 X) r a := by
  unfold normalized
  show Ideal.div (shifted X (ix2 r a)) (broadcastTo S200x3 _ broadcasts_S200x1_S200x3 (ix2 r a)) = _
  rw [broadcastTo_a1_ab_apply _ _ r a, shapeCast_a_a1_apply _ _ r 0, shifted_read]
  unfold weights
  refine congrArg (Ideal.div (expo (ofArr2 X) r a)) ?_
  refine (Ideal.multiReduction_add_single (shifted X) _ reduces_S200x3_S200 _ _ (ix1 r)).trans ?_
  exact Finset.sum_congr rfl fun k _ => (congrArg (shifted X) (lift_row r k)).trans (shifted_read X r k)

/-- The logits of a block: the three branches against the three row blocks of the attention matrix. -/
def blockLogits (p1 p2 xm : FVec Ideal S200x128 .f32) (v18 : FVec Ideal S384x3 .f32) : FVec Ideal S200x3 .f32 :=
  addf (addf
    (matmul (F := Ideal) dot_S200x128_S128x3_S200x3_1_0_0_1_n_n none p1 (extractStridedSlice S128x3 ![0, 0] v18 slices_S384x3_o0_0_S128x3) (constant (F := Ideal) S200x3 .f32 0x00000000#32))
    (matmul (F := Ideal) dot_S200x128_S128x3_S200x3_1_0_0_1_n_n none p2 (extractStridedSlice S128x3 ![128, 0] v18 slices_S384x3_o128_0_S128x3) (constant (F := Ideal) S200x3 .f32 0x00000000#32)))
    (matmul (F := Ideal) dot_S200x128_S128x3_S200x3_1_0_0_1_n_n none xm (extractStridedSlice S128x3 ![256, 0] v18 slices_S384x3_o256_0_S128x3) (constant (F := Ideal) S200x3 .f32 0x00000000#32))

theorem blockLogits_read (p1 p2 xm : FVec Ideal S200x128 .f32) (v18 : FVec Ideal S384x3 .f32) (r : Fin 200) (a : Fin 3) :
    blockLogits p1 p2 xm v18 (ix2 r a) = logits (ofArr2 p1) (ofArr2 p2) (ofArr2 xm) (ofArr2 v18) r a := by
  have e0 : ∀ k : Fin 128, extractStridedSlice S128x3 ![0, 0] v18 slices_S384x3_o0_0_S128x3 (ix2 k a) = v18 (ix2 (⟨k.val, by omega⟩ : Fin 384) a) :=
    fun k => slice2_axis0_apply 0 v18 _ k a ⟨k.val, by omega⟩ (Nat.zero_add _).symm
  have e1 : ∀ k : Fin 128, extractStridedSlice S128x3 ![128, 0] v18 slices_S384x3_o128_0_S128x3 (ix2 k a) = v18 (ix2 (⟨128 + k.val, by omega⟩ : Fin 384) a) :=
    fun k => slice2_axis0_apply 128 v18 _ k a ⟨128 + k.val, by omega⟩ rfl
  have e2 : ∀ k : Fin 128, extractStridedSlice S128x3 ![256, 0] v18 slices_S384x3_o256_0_S128x3 (ix2 k a) = v18 (ix2 (⟨256 + k.val, by omega⟩ : Fin 384) a) :=
    fun k => slice2_axis0_apply 256 v18 _ k a ⟨256 + k.val, by omega⟩ rfl
  unfold blockLogits
  show matmul (F := Ideal) _ none p1 _ _ (ix2 r a) + matmul (F := Ideal) _ none p2 _ _ (ix2 r a) + matmul (F := Ideal) _ none xm _ _ (ix2 r a) = _
  rw [mm_200_128_3, mm_200_128_3, mm_200_128_3]
  simp only [e0, e1, e2]
  rfl

/-- The block's attention weights are the specification's, of the block's three branches. -/
theorem pay1_6 (v0 : Vec Ideal S10000x256 .f32) (v2 : Vec Ideal S200x10000 .f32) (v5 : Vec Ideal S1x128 .f32)
    (v9 : Vec Ideal S200x10000 .f32) (v12 : Vec Ideal S1x128 .f32) (v16 : Vec Ideal S200x128 .f32) (v18 : Vec Ideal S384x3 .f32)
    (r : Fin 200) (a : Fin 3) :
    k1_pay6 (F := Ideal) v0 v2 v5 v9 v12 v16 v18 (ix2 r a)
      = weights (absv (logits (ofArr2 (k1_pay3 (F := Ideal) v0 v2 v5)) (ofArr2 (k1_pay4 (F := Ideal) v0 v9 v12)) (ofArr2 v16) (ofArr2 v18))) r a := by
  have h : k1_pay6 (F := Ideal) v0 v2 v5 v9 v12 v16 v18
      = normalized (absf (blockLogits (k1_pay3 (F := Ideal) v0 v2 v5) (k1_pay4 (F := Ideal) v0 v9 v12) (k1_pay5 (F := Ideal) v16) v18)) := rfl
  rw [h, normalized_read, pay1_5]
  have hl : ofArr2 (absf (blockLogits (k1_pay3 (F := Ideal) v0 v2 v5) (k1_pay4 (F := Ideal) v0 v9 v12) v16 v18))
      = absv (logits (ofArr2 (k1_pay3 (F := Ideal) v0 v2 v5)) (ofArr2 (k1_pay4 (F := Ideal) v0 v9 v12)) (ofArr2 v16) (ofArr2 v18)) := by
    funext r' a'
    show max (blockLogits _ _ _ _ (ix2 r' a')) (-(blockLogits _ _ _ _ (ix2 r' a'))) = _
    rw [blockLogits_read]
    rfl
  rw [hl]

/-- The first weight column, cut out. -/
theorem pay1_7 (v0 : Vec Ideal S10000x256 .f32) (v2 : Vec Ideal S200x10000 .f32) (v5 : Vec Ideal S1x128 .f32)
    (v9 : Vec Ideal S200x10000 .f32) (v12 : Vec Ideal S1x128 .f32) (v16 : Vec Ideal S200x128 .f32) (v18 : Vec Ideal S384x3 .f32)
    (r : Fin 200) :
    k1_pay7 (F := Ideal) v0 v2 v5 v9 v12 v16 v18 (ix2 r (0 : Fin 1))
      = k1_pay6 (F := Ideal) v0 v2 v5 v9 v12 v16 v18 (ix2 r (0 : Fin 3)) := by
  unfold k1_pay7
  exact slice2_axis1_apply 0 _ _ r (0 : Fin 1) (0 : Fin 3) rfl

end Cert.KernelIdeal.KValue

end
-- ==== Proof.KPay1c.lean ====
/-
  The first-layer kernel's stored block, entry by entry.

  The three branches are fused with the row's three attention weights, the fused features are multiplied by the
  128 × 8 matrix of second-layer weights side by side, and columns 4 and up are replaced by `tanh` of the product plus one
  bias row, plus another: the dense second-layer branch with both graph biases folded in. Columns 0–3 stay the plain
  products.
-/
import proofs.«110970_g76141180223726_cont_sun_m_824_6_alg».proof.Proof.KDot
import proofs.«110970_g76141180223726_cont_sun_m_824_6_alg».proof.Proof.LibColumn
import Idealize.ShloMosaic.Lib.ValueLayout

noncomputable section

namespace Cert.KernelIdeal.KValue

open Cert.KernelIdeal Cert.KernelIdeal.Gen Idealize.ShloMosaic Idealize.ShloMosaic.ValueIdx Cert.LibColumn

/-- The column test `column ≥ 4` on the eight columns, as a choice. -/
theorem select_ge4 {α : Type} (c : Fin 8) (t z : α) :
    Scalar.select (IntOp.cmpi .sge (BitVec.ofNat 32 c.val) 4#32) t z = if 4 ≤ c.val then t else z := by
  have h : ∀ n : Fin 8, IntOp.cmpi .sge (BitVec.ofNat 32 n.val) 4#32 = if 4 ≤ n.val then 1#1 else 0#1 := by decide
  rw [h c]
  unfold Scalar.select
  by_cases hc : 4 ≤ c.val
  · rw [if_pos hc, if_pos hc]
    exact if_pos (by decide)
  · rw [if_neg hc, if_neg hc]
    exact if_neg (by decide)

/-- The fused features of a block: the three branches, each times its weight column broadcast across the row. -/
def fusedBlock (v8 v15 v17 : FVec Ideal S200x128 .f32) (v36 : FVec Ideal S200x3 .f32) (v37 : FVec Ideal S200x1 .f32) :
    FVec Ideal S200x128 .f32 :=
  addf (addf (mulf v8 (broadcastTo S200x128 v37 broadcasts_S200x1_S200x128))
    (mulf v15 (broadcastTo S200x128 (extractStridedSlice S200x1 ![0, 1] v36 slices_S200x3_o0_1_S200x1) broadcasts_S200x1_S200x128)))
    (mulf v17 (broadcastTo S200x128 (extractStridedSlice S200x1 ![0, 2] v36 slices_S200x3_o0_2_S200x1) broadcasts_S200x1_S200x128))

theorem fusedBlock_read (v8 v15 v17 : FVec Ideal S200x128 .f32) (v36 : FVec Ideal S200x3 .f32) (v37 : FVec Ideal S200x1 .f32)
    (r : Fin 200) (h : Fin 128) :
    fusedBlock v8 v15 v17 v36 v37 (ix2 r h)
      = v8 (ix2 r h) * v37 (ix2 r (0 : Fin 1)) + v15 (ix2 r h) * v36 (ix2 r (1 : Fin 3)) + v17 (ix2 r h) * v36 (ix2 r (2 : Fin 3)) := by
  unfold fusedBlock
  show v8 (ix2 r h) * broadcastTo S200x128 v37 _ (ix2 r h) + v15 (ix2 r h) * broadcastTo S200x128 _ broadcasts_S200x1_S200x128 (ix2 r h)
      + v17 (ix2 r h) * broadcastTo S200x128 _ broadcasts_S200x1_S200x128 (ix2 r h) = _
  rw [broadcastTo_a1_ab_apply v37 _ r h, broadcastTo_a1_ab_apply _ _ r h, broadcastTo_a1_ab_apply _ _ r h,
    slice2_axis1_apply 1 v36 _ r (0 : Fin 1) (1 : Fin 3) rfl, slice2_axis1_apply 2 v36 _ r (0 : Fin 1) (2 : Fin 3) rfl]

/-- The stored block at `(r, c)`. -/
theorem pay1_1 (v8 v15 v17 : FVec Ideal S200x128 .f32) (v36 : FVec Ideal S200x3 .f32) (v37 : FVec Ideal S200x1 .f32)
    (v48 : Vec Ideal S128x8 .f32) (v51 v56 : Vec Ideal S1x8 .f32) (r : Fin 200) (c : Fin 8) :
    k1_pay1 (F := Ideal) v8 v15 v17 v36 v37 v48 v51 v56 (ix2 r c)
      = if 4 ≤ c.val then
          Ideal.tanh ((∑ h : Fin 128, fusedBlock v8 v15 v17 v36 v37 (ix2 r h) * v48 (ix2 h c)) + v51 (ix2 (0 : Fin 1) c))
            + v56 (ix2 (0 : Fin 1) c)
        else ∑ h : Fin 128, fusedBlock v8 v15 v17 v36 v37 (ix2 r h) * v48 (ix2 h c) := by
  unfold k1_pay1
  simp only [shapeCast_self]
  show Scalar.select (IntOp.cmpi .sge (iota .tc S200x8 32 [1] iota_S200x8_d1_w32 (ix2 r c)) (4#32))
      (Ideal.tanh (matmul (F := Ideal) dot_S200x128_S128x8_S200x8_1_0_0_1_n_n none (fusedBlock v8 v15 v17 v36 v37) v48 (constant (F := Ideal) S200x8 .f32 0x00000000#32) (ix2 r c)
          + broadcastTo S200x8 v51 _ (ix2 r c)) + broadcastTo S200x8 v56 _ (ix2 r c))
      (matmul (F := Ideal) dot_S200x128_S128x8_S200x8_1_0_0_1_n_n none (fusedBlock v8 v15 v17 v36 v37) v48 (constant (F := Ideal) S200x8 .f32 0x00000000#32) (ix2 r c)) = _
  rw [iota_single_apply, mm_200_128_8, broadcastTo_1b_ab_apply v51 _ r c, broadcastTo_1b_ab_apply v56 _ r c]
  exact select_ge4 c _ _

end Cert.KernelIdeal.KValue

end
-- ==== Proof.KPay1d.lean ====
/-
  The first-layer kernel's stored block in one statement: the fused features of the block's rows, as the specification
  fuses them, against the second-layer weights, with the dense branch's columns finished.
-/
import proofs.«110970_g76141180223726_cont_sun_m_824_6_alg».proof.Proof.KPay1b
import proofs.«110970_g76141180223726_cont_sun_m_824_6_alg».proof.Proof.KPay1c

noncomputable section

namespace Cert.KernelIdeal.KValue

open Cert.KernelIdeal Cert.KernelIdeal.Gen Idealize.ShloMosaic Idealize.ShloMosaic.ValueIdx Cert.Spec Cert.LibColumn

/-- The block's fused features are the specification's fusion of the block's three branches. -/
theorem block_fused (v0 : Vec Ideal S10000x256 .f32) (v2 : Vec Ideal S200x10000 .f32) (v5 : Vec Ideal S1x128 .f32)
    (v9 : Vec Ideal S200x10000 .f32) (v12 : Vec Ideal S1x128 .f32) (v16 : Vec Ideal S200x128 .f32) (v18 : Vec Ideal S384x3 .f32)
    (r : Fin 200) (h : Fin 128) :
    fusedBlock (k1_pay3 (F := Ideal) v0 v2 v5) (k1_pay4 (F := Ideal) v0 v9 v12) (k1_pay5 (F := Ideal) v16)
        (k1_pay6 (F := Ideal) v0 v2 v5 v9 v12 v16 v18) (k1_pay7 (F := Ideal) v0 v2 v5 v9 v12 v16 v18) (ix2 r h)
      = fused (ofArr2 (k1_pay3 (F := Ideal) v0 v2 v5)) (ofArr2 (k1_pay4 (F := Ideal) v0 v9 v12)) (ofArr2 v16)
          (weights (absv (logits (ofArr2 (k1_pay3 (F := Ideal) v0 v2 v5)) (ofArr2 (k1_pay4 (F := Ideal) v0 v9 v12)) (ofArr2 v16) (ofArr2 v18)))) r h := by
  rw [fusedBlock_read, pay1_7, pay1_6, pay1_6, pay1_6, pay1_5]
  rfl

/-- The stored block at `(r, c)`. -/
theorem block_out (v0 : Vec Ideal S10000x256 .f32) (v2 : Vec Ideal S200x10000 .f32) (v5 : Vec Ideal S1x128 .f32)
    (v9 : Vec Ideal S200x10000 .f32) (v12 : Vec Ideal S1x128 .f32) (v16 : Vec Ideal S200x128 .f32) (v18 : Vec Ideal S384x3 .f32)
    (v48 : Vec Ideal S128x8 .f32) (v51 v56 : Vec Ideal S1x8 .f32) (r : Fin 200) (c : Fin 8) :
    k1_pay1 (F := Ideal) (k1_pay3 (F := Ideal) v0 v2 v5) (k1_pay4 (F := Ideal) v0 v9 v12) (k1_pay5 (F := Ideal) v16)
        (k1_pay6 (F := Ideal) v0 v2 v5 v9 v12 v16 v18) (k1_pay7 (F := Ideal) v0 v2 v5 v9 v12 v16 v18) v48 v51 v56 (ix2 r c)
      = if 4 ≤ c.val then
          Ideal.tanh ((∑ h : Fin 128, fused (ofArr2 (k1_pay3 (F := Ideal) v0 v2 v5)) (ofArr2 (k1_pay4 (F := Ideal) v0 v9 v12)) (ofArr2 v16)
              (weights (absv (logits (ofArr2 (k1_pay3 (F := Ideal) v0 v2 v5)) (ofArr2 (k1_pay4 (F := Ideal) v0 v9 v12)) (ofArr2 v16) (ofArr2 v18)))) r h
              * v48 (ix2 h c)) + v51 (ix2 (0 : Fin 1) c)) + v56 (ix2 (0 : Fin 1) c)
        else ∑ h : Fin 128, fused (ofArr2 (k1_pay3 (F := Ideal) v0 v2 v5)) (ofArr2 (k1_pay4 (F := Ideal) v0 v9 v12)) (ofArr2 v16)
              (weights (absv (logits (ofArr2 (k1_pay3 (F := Ideal) v0 v2 v5)) (ofArr2 (k1_pay4 (F := Ideal) v0 v9 v12)) (ofArr2 v16) (ofArr2 v18)))) r h
              * v48 (ix2 h c) := by
  rw [pay1_1]
  simp only [block_fused]

end Cert.KernelIdeal.KValue

end
-- ==== Proof.KPay0.lean ====
/-
  What the projection kernel's body computes from one block of rows, entry by entry.

  The body multiplies its 1000 × 768 block of `x` by the 768 × 384 matrix of the three weight matrices side by side. The
  first 256 columns of the product are stored as they are; the last 128 get the bias row added and go through `tanh`.
-/
import proofs.«110970_g76141180223726_cont_sun_m_824_6_alg».proof.Proof.KDot
import Idealize.ShloMosaic.Lib.ValueLayout

noncomputable section

namespace Cert.KernelIdeal.KValue

open Cert.KernelIdeal Cert.KernelIdeal.Gen Idealize.ShloMosaic Idealize.ShloMosaic.ValueIdx

/-- The product of the block with the side-by-side weights, at `(p, q)`. -/
theorem pay0_1 (v0 : Vec Ideal S1000x768 .f32) (v1 : Vec Ideal S768x384 .f32) (p : Fin 1000) (q : Fin 384) :
    k0_pay1 (F := Ideal) v0 v1 (ix2 p q) = ∑ k : Fin 768, v0 (ix2 p k) * v1 (ix2 k q) := by
  unfold k0_pay1
  simp only [shapeCast_self]
  exact mm_1000_768_384 v0 v1 p q

/-- The first 256 columns of the product. -/
theorem pay0_2 (v0 : Vec Ideal S1000x768 .f32) (v1 : Vec Ideal S768x384 .f32) (p : Fin 1000) (q : Fin 256) :
    k0_pay2 (F := Ideal) v0 v1 (ix2 p q) = ∑ k : Fin 768, v0 (ix2 p k) * v1 (ix2 k (⟨q.val, by omega⟩ : Fin 384)) := by
  unfold k0_pay2
  refine (slice2_axis1_apply 0 (k0_pay1 (F := Ideal) v0 v1) _ p q ⟨q.val, by omega⟩ (Nat.zero_add _).symm).trans ?_
  exact pay0_1 v0 v1 p _

/-- The last 128 columns, with the bias row added, through `tanh`. -/
theorem pay0_3 (v0 : Vec Ideal S1000x768 .f32) (v1 : Vec Ideal S768x384 .f32) (v7 : Vec Ideal S1x128 .f32) (p : Fin 1000) (q : Fin 128) :
    k0_pay3 (F := Ideal) v0 v1 v7 (ix2 p q)
      = Ideal.tanh ((∑ k : Fin 768, v0 (ix2 p k) * v1 (ix2 k (⟨256 + q.val, by omega⟩ : Fin 384))) + v7 (ix2 (0 : Fin 1) q)) := by
  unfold k0_pay3
  simp only [shapeCast_self]
  show Ideal.tanh (extractStridedSlice S1000x128 ![0, 256] (k0_pay1 (F := Ideal) v0 v1) _ (ix2 p q) + broadcastTo S1000x128 v7 _ (ix2 p q)) = _
  rw [slice2_axis1_apply 256 (k0_pay1 (F := Ideal) v0 v1) _ p q ⟨256 + q.val, by omega⟩ rfl, pay0_1,
    broadcastTo_1b_ab_apply v7 _ p q]

end Cert.KernelIdeal.KValue

end
-- ==== Proof.KArr0.lean ====
/-
  What the projection region leaves in its two output arrays, as whole-array functions of the arrays it reads.

  The grid has ten points; point `t` holds rows `1000 t … 1000 t + 999` of `x` and of both outputs, and the whole weight
  matrix and bias row. So block `t` of each output is the restriction of one function of the whole arrays, and the ten
  blocks tile the rows: every row `i` lies in the block of point `i / 1000`.
-/
import proofs.«110970_g76141180223726_cont_sun_m_824_6_alg».proof.Proof.KIData
import proofs.«110970_g76141180223726_cont_sun_m_824_6_alg».proof.Proof.KPay0

set_option maxRecDepth 16384

noncomputable section

namespace Cert.KernelIdeal.KValue

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

/-- Two indices of a two-axis array with the same coordinates are the same index. -/
theorem ext2 {a b : Nat} {i j : (⟨2, ![a, b]⟩ : Shape).Idx} (h0 : (i 0).val = (j 0).val) (h1 : (i 1).val = (j 1).val) : i = j :=
  funext fun x => Fin.ext (by
    match x with
    | ⟨0, _⟩ => exact h0
    | ⟨1, _⟩ => exact h1)

theorem hz2 : (![0, 0] : Fin 2 → Nat) = fun _ => 0 := funext fun a => by fin_cases a <;> rfl

/-- The projected features for the two graph branches, side by side: row `i` of `x` against the first 256 columns. -/
def scatOf (X : S10000x768.Idx → EReal) (Wc : S768x384.Idx → EReal) : S10000x256.Idx → EReal := fun i =>
  ∑ k : Fin 768, X (ix2 (⟨(i 0).val, (i 0).isLt⟩ : Fin 10000) k)
    * Wc (ix2 k (⟨(i 1).val, Nat.lt_of_lt_of_le (i 1).isLt (by decide)⟩ : Fin 384))

/-- The dense first-layer branch: row `i` of `x` against the last 128 columns, plus the bias, through `tanh`. -/
def x1mOf (X : S10000x768.Idx → EReal) (Wc : S768x384.Idx → EReal) (Bm : S1x128.Idx → EReal) : S10000x128.Idx → EReal := fun i =>
  Ideal.tanh ((∑ k : Fin 768, X (ix2 (⟨(i 0).val, (i 0).isLt⟩ : Fin 10000) k)
    * Wc (ix2 k (⟨256 + (i 1).val, by have h : (i 1).val < 128 := (i 1).isLt; omega⟩ : Fin 384)))
    + Bm (ix2 (0 : Fin 1) (⟨(i 1).val, (i 1).isLt⟩ : Fin 128)))

variable (V : (c : Dev nD) → (b : Ref sig .tc) → Buf (Elt Ideal) ((c : Thread nD τ).loc b))

/-- The printed index maps over the ten points: the row block of `x` and of both outputs is the same, every other
    coordinate of every block index is zero. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0
    ∧ win0_4.index t (0 : Fin 2) = win0_3.index t (0 : Fin 2) ∧ win0_4.index t (1 : Fin 2) = 0
    ∧ win0_3.index t (0 : Fin 2) ≤ 9 :=
  (by decide +kernel : ∀ t : Fin grid0.N, _)

/-- Every row block is some point's. -/
theorem onto0 : ∀ q : Fin 10, ∃ t : Fin cfg0.N, win0_3.index t = ![q.val, 0] ∧ win0_4.index t = ![q.val, 0] :=
  (by decide +kernel : ∀ q : Fin 10, ∃ t : Fin grid0.N, win0_3.index t = ![q.val, 0] ∧ win0_4.index t = ![q.val, 0])

/-- What point `t` writes back into the first output is block `t` of `scatOf`. -/
theorem flushed0_3 (c : Dev nD) (t : Fin cfg0.N) :
    (dat0 V c).flushed 3 t = ((cfg0.win 3).blk t).view.read (Elt Ideal) (scatOf (V c main_arg0) (V c main_v0)) := by
  show (cfg0.win 3).cut (grid0.coords t) ((dat0 V c).after 3 t) = _
  rw [after0_3]
  unfold out0_3
  rw [View.canon_unit_zero hz2]
  simp only [View.ld_unit_zero (S := S1000x768) hz2, View.ld_unit_zero (S := S768x384) hz2]
  obtain ⟨e0, e1, e2, e3, e4, e5, e6, e7, e8, e9⟩ := idx0 t
  funext y
  obtain ⟨p, q, rfl⟩ : ∃ (p : Fin 1000) (q : Fin 256), y = ix2 p q := ⟨y 0, y 1, eq_ix2 y⟩
  refine (pay0_2 (iblk0 V c 0 t) (iblk0 V c 1 t) p q).trans ?_
  show _ = scatOf (V c main_arg0) (V c main_v0) (((cfg0.win 3).blk t).view.emb (ix2 p q))
  unfold scatOf
  refine Finset.sum_congr rfl fun k _ => ?_
  refine congrArg₂ (fun a b : EReal => a * b) ?_ ?_
  · show (V c main_arg0 : S10000x768.Idx → EReal) (((cfg0.win 0).blk t).view.emb (ix2 p k)) = _
    refine congrArg (V c main_arg0 : S10000x768.Idx → EReal) (ext2 ?_ ?_)
    · show win0_0.index t (0 : Fin 2) * 1000 + 1 * p.val = win0_3.index t (0 : Fin 2) * 1000 + 1 * p.val; omega
    · show win0_0.index t (1 : Fin 2) * 768 + 1 * k.val = k.val; omega
  · show (V c main_v0 : S768x384.Idx → EReal) (((cfg0.win 1).blk t).view.emb (ix2 k _)) = _
    refine congrArg (V c main_v0 : S768x384.Idx → EReal) (ext2 ?_ ?_)
    · show win0_1.index t (0 : Fin 2) * 768 + 1 * k.val = k.val; omega
    · show win0_1.index t (1 : Fin 2) * 384 + 1 * q.val = win0_3.index t (1 : Fin 2) * 256 + 1 * q.val; omega

/-- An index lies in point `t`'s block of the first output iff each coordinate lies in the block's range. -/
theorem mem_blk0_3 (t : Fin cfg0.N) (i : S10000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v17_0).slice (win0_3.rect t)).set ↔ _
  rw [View.set_slice_whole, Rect.mem_set_unit]
  exact Iff.rfl

/-- The ten blocks cover the first output: row `i` is in the block of point `i / 1000`. -/
theorem cover0_3 (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht, -⟩ := onto0 ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 256 ≤ (i 1).val ∧ (i 1).val < win0_3.index t (1 : Fin 2) * 256 + 256; omega

/-- The first output array after the region. -/
theorem final0_3 (c : Dev nD) : (dat0 V c).arrAt 3 cfg0.N = scatOf (V c main_arg0) (V c main_v0) :=
  (dat0 V c).arrAt_eq_of_cover 3 _ (fun t _ => flushed0_3 V c t) cover0_3

/-- What point `t` writes back into the second output is block `t` of `x1mOf`. -/
theorem flushed0_4 (c : Dev nD) (t : Fin cfg0.N) :
    (dat0 V c).flushed 4 t = ((cfg0.win 4).blk t).view.read (Elt Ideal) (x1mOf (V c main_arg0) (V c main_v0) (V c main_v16)) := by
  show (cfg0.win 4).cut (grid0.coords t) ((dat0 V c).after 4 t) = _
  rw [after0_4]
  unfold out0_4
  rw [View.canon_unit_zero hz2]
  simp only [View.ld_unit_zero (S := S1000x768) hz2, View.ld_unit_zero (S := S768x384) hz2, View.ld_unit_zero (S := S1x128) hz2]
  obtain ⟨e0, e1, e2, e3, e4, e5, e6, e7, e8, e9⟩ := idx0 t
  funext y
  obtain ⟨p, q, rfl⟩ : ∃ (p : Fin 1000) (q : Fin 128), y = ix2 p q := ⟨y 0, y 1, eq_ix2 y⟩
  refine (pay0_3 (iblk0 V c 0 t) (iblk0 V c 1 t) (iblk0 V c 2 t) p q).trans ?_
  show _ = x1mOf (V c main_arg0) (V c main_v0) (V c main_v16) (((cfg0.win 4).blk t).view.emb (ix2 p q))
  unfold x1mOf
  refine congrArg Ideal.tanh (congrArg₂ (fun a b : EReal => a + b) (Finset.sum_congr rfl fun k _ => ?_) ?_)
  · refine congrArg₂ (fun a b : EReal => a * b) ?_ ?_
    · show (V c main_arg0 : S10000x768.Idx → EReal) (((cfg0.win 0).blk t).view.emb (ix2 p k)) = _
      refine congrArg (V c main_arg0 : S10000x768.Idx → EReal) (ext2 ?_ ?_)
      · show win0_0.index t (0 : Fin 2) * 1000 + 1 * p.val = win0_4.index t (0 : Fin 2) * 1000 + 1 * p.val; omega
      · show win0_0.index t (1 : Fin 2) * 768 + 1 * k.val = k.val; omega
    · show (V c main_v0 : S768x384.Idx → EReal) (((cfg0.win 1).blk t).view.emb (ix2 k _)) = _
      refine congrArg (V c main_v0 : S768x384.Idx → EReal) (ext2 ?_ ?_)
      · show win0_1.index t (0 : Fin 2) * 768 + 1 * k.val = k.val; omega
      · show win0_1.index t (1 : Fin 2) * 384 + 1 * (256 + q.val) = 256 + (win0_4.index t (1 : Fin 2) * 128 + 1 * q.val); omega
  · show (V c main_v16 : S1x128.Idx → EReal) (((cfg0.win 2).blk t).view.emb (ix2 (0 : Fin 1) q)) = _
    refine congrArg (V c main_v16 : S1x128.Idx → EReal) (ext2 ?_ ?_)
    · show win0_2.index t (0 : Fin 2) * 1 + 1 * 0 = 0; omega
    · show win0_2.index t (1 : Fin 2) * 128 + 1 * q.val = win0_4.index t (1 : Fin 2) * 128 + 1 * q.val; omega

theorem mem_blk0_4 (t : Fin cfg0.N) (i : S10000x128.Idx) :
    i ∈ ((cfg0.win 4).blk t).view.set ↔ ∀ a : Fin 2, win0_4.index t a * S1000x128.size a ≤ (i a).val
      ∧ (i a).val < win0_4.index t a * S1000x128.size a + S1000x128.size a := by
  show i ∈ ((View.whole main_v17_1).slice (win0_4.rect t)).set ↔ _
  rw [View.set_slice_whole, Rect.mem_set_unit]
  exact Iff.rfl

theorem cover0_4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, -, ht⟩ := onto0 ⟨(i 0).val / 1000, by omega⟩
  have q0 : win0_4.index t (0 : Fin 2) = (i 0).val / 1000 := congrFun ht 0
  have q1 : win0_4.index t (1 : Fin 2) = 0 := congrFun ht 1
  refine ⟨t, flush0_4 t, ?_⟩
  rw [mem_blk0_4]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 128 ≤ (i 1).val ∧ (i 1).val < win0_4.index t (1 : Fin 2) * 128 + 128; omega

/-- The second output array after the region. -/
theorem final0_4 (c : Dev nD) : (dat0 V c).arrAt 4 cfg0.N = x1mOf (V c main_arg0) (V c main_v0) (V c main_v16) :=
  (dat0 V c).arrAt_eq_of_cover 4 _ (fun t _ => flushed0_4 V c t) cover0_4

end Cert.KernelIdeal.KValue

end
-- ==== Proof.SpecRows.lean ====
/-
  Attention and fusion act row by row: a node's logits, weights and fused features depend only on that node's rows of
  the three branches. So they may be computed on any block of rows and agree with the whole matrices row for row.
-/
import proofs.«110970_g76141180223726_cont_sun_m_824_6_alg».proof.Proof.Spec

noncomputable section

namespace Cert.Spec

/-- Rows that agree have the same logits. -/
theorem logits_row {n n' : Nat} (p1 p2 xm : Mat n 128) (p1' p2' xm' : Mat n' 128) (af : Mat 384 3) (r : Fin n) (i : Fin n')
    (h1 : ∀ k, p1 r k = p1' i k) (h2 : ∀ k, p2 r k = p2' i k) (h3 : ∀ k, xm r k = xm' i k) (a : Fin 3) :
    logits p1 p2 xm af r a = logits p1' p2' xm' af i a := by
  unfold logits
  simp only [h1, h2, h3]

/-- Rows that agree have the same absolute values. -/
theorem absv_row {n n' : Nat} (l : Mat n 3) (l' : Mat n' 3) (r : Fin n) (i : Fin n') (h : ∀ a, l r a = l' i a) (a : Fin 3) :
    absv l r a = absv l' i a := by
  unfold absv
  rw [h a]

/-- Rows that agree have the same softmax weights. -/
theorem weights_row {n n' : Nat} (l : Mat n 3) (l' : Mat n' 3) (r : Fin n) (i : Fin n') (h : ∀ a, l r a = l' i a) (a : Fin 3) :
    weights l r a = weights l' i a := by
  unfold weights expo rowmax
  simp only [h]

/-- The fused features of a row, from that row of the three branches alone. -/
theorem fused_attn_row {n n' : Nat} (p1 p2 xm : Mat n 128) (p1' p2' xm' : Mat n' 128) (af : Mat 384 3) (r : Fin n) (i : Fin n')
    (h1 : ∀ k, p1 r k = p1' i k) (h2 : ∀ k, p2 r k = p2' i k) (h3 : ∀ k, xm r k = xm' i k) (h : Fin 128) :
    fused p1 p2 xm (weights (absv (logits p1 p2 xm af))) r h
      = fused p1' p2' xm' (weights (absv (logits p1' p2' xm' af))) i h := by
  have hw : ∀ a, weights (absv (logits p1 p2 xm af)) r a = weights (absv (logits p1' p2' xm' af)) i a :=
    weights_row _ _ r i (absv_row _ _ r i (logits_row p1 p2 xm p1' p2' xm' af r i h1 h2 h3))
  unfold fused
  rw [h1, h2, h3, hw, hw, hw]

end Cert.Spec

end
-- ==== Proof.KArr1.lean ====
/-
  What the first-layer region leaves in its output array — the table of second-layer operands — as a whole-array function
  of the arrays it reads.

  The grid has fifty points; point `t` holds rows `200 t … 200 t + 199` of both adjacency matrices, of the dense
  branch and of the output, and everything else whole. A node's row of the table depends only on that node's rows of the
  three branches, so each block is the restriction of one whole-array function.
-/
import proofs.«110970_g76141180223726_cont_sun_m_824_6_alg».proof.Proof.KIData
import proofs.«110970_g76141180223726_cont_sun_m_824_6_alg».proof.Proof.KPay1d
import proofs.«110970_g76141180223726_cont_sun_m_824_6_alg».proof.Proof.KArr0
import proofs.«110970_g76141180223726_cont_sun_m_824_6_alg».proof.Proof.SpecRows

set_option maxRecDepth 16384

noncomputable section

namespace Cert.KernelIdeal.KValue

open Cert.KernelIdeal Cert.KernelIdeal.Gen Cert.KernelIdeal.Hand Cert.Spec
open Idealize.ShloMosaic Idealize.ShloMosaic.ValueIdx Idealize.ShloMosaic.TcCoe Idealize.SL.Sem
open Idealize.ShloMosaic.Pipeline (Dat)

/-- The first graph branch of layer one: the adjacency against columns 0–127 of the projected table, plus the bias. -/
def p1Of (Adj : S10000x10000.Idx → EReal) (Sc : S10000x256.Idx → EReal) (B1 : S1x256.Idx → EReal) : Mat 10000 128 := fun i j =>
  (∑ k : Fin 10000, Adj (ix2 i k) * Sc (ix2 k (⟨j.val, by omega⟩ : Fin 256))) + B1 (ix2 (0 : Fin 1) (⟨j.val, by omega⟩ : Fin 256))

/-- The second graph branch: the other adjacency against columns 128–255, plus the other half of the bias row. -/
def p2Of (Sadj : S10000x10000.Idx → EReal) (Sc : S10000x256.Idx → EReal) (B1 : S1x256.Idx → EReal) : Mat 10000 128 := fun i j =>
  (∑ k : Fin 10000, Sadj (ix2 i k) * Sc (ix2 k (⟨128 + j.val, by omega⟩ : Fin 256)))
    + B1 (ix2 (0 : Fin 1) (⟨128 + j.val, by omega⟩ : Fin 256))

/-- The fused first-layer features. -/
def x1Of (Adj Sadj : S10000x10000.Idx → EReal) (Sc : S10000x256.Idx → EReal) (Xm : S10000x128.Idx → EReal)
    (B1 : S1x256.Idx → EReal) (Af : S384x3.Idx → EReal) : Mat 10000 128 :=
  fused (p1Of Adj Sc B1) (p2Of Sadj Sc B1) (ofArr2 Xm)
    (weights (absv (logits (p1Of Adj Sc B1) (p2Of Sadj Sc B1) (ofArr2 Xm) (ofArr2 Af))))

/-- One entry of the table of second-layer operands: the fused row against a column of the side-by-side second-layer
    weights; from column 4 on, with one bias row added, through `tanh`, plus another. -/
def z6At (X1 : Mat 10000 128) (W2 : S128x8.Idx → EReal) (B2 Cb : S1x8.Idx → EReal) (R : Fin 10000) (C : Fin 8) : EReal :=
  if 4 ≤ C.val then
    Ideal.tanh ((∑ h : Fin 128, X1 R h * W2 (ix2 h C)) + B2 (ix2 (0 : Fin 1) C)) + Cb (ix2 (0 : Fin 1) C)
  else ∑ h : Fin 128, X1 R h * W2 (ix2 h C)

/-- The table of second-layer operands. -/
def z6Of (Adj Sadj : S10000x10000.Idx → EReal) (Sc : S10000x256.Idx → EReal) (Xm : S10000x128.Idx → EReal)
    (B1 : S1x256.Idx → EReal) (Af : S384x3.Idx → EReal) (W2 : S128x8.Idx → EReal) (B2 Cb : S1x8.Idx → EReal) :
    S10000x8.Idx → EReal := fun i =>
  z6At (x1Of Adj Sadj Sc Xm B1 Af) W2 B2 Cb ⟨(i 0).val, (i 0).isLt⟩ ⟨(i 1).val, (i 1).isLt⟩

/-- The table at an index whose coordinates are known. -/
theorem z6Of_at (Adj Sadj : S10000x10000.Idx → EReal) (Sc : S10000x256.Idx → EReal) (Xm : S10000x128.Idx → EReal)
    (B1 : S1x256.Idx → EReal) (Af : S384x3.Idx → EReal) (W2 : S128x8.Idx → EReal) (B2 Cb : S1x8.Idx → EReal)
    (i : S10000x8.Idx) (R : Fin 10000) (C : Fin 8) (h0 : (i 0).val = R.val) (h1 : (i 1).val = C.val) :
    z6Of Adj Sadj Sc Xm B1 Af W2 B2 Cb i = z6At (x1Of Adj Sadj Sc Xm B1 Af) W2 B2 Cb R C := by
  have e0 : (⟨(i 0).val, (i 0).isLt⟩ : Fin 10000) = R := Fin.ext h0
  have e1 : (⟨(i 1).val, (i 1).isLt⟩ : Fin 8) = C := Fin.ext h1
  show z6At _ W2 B2 Cb ⟨(i 0).val, (i 0).isLt⟩ ⟨(i 1).val, (i 1).isLt⟩ = _
  rw [e0, e1]

variable (V : (c : Dev nD) → (b : Ref sig .tc) → Buf (Elt Ideal) ((c : Thread nD τ).loc b))

/-- The printed index maps over the fifty points: the row block of both adjacency matrices, of the dense branch and of
    the output is the same; every other coordinate of every block index is zero. -/
theorem idx1 : ∀ t : Fin cfg1.N, win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = win1_9.index t (0 : Fin 2) ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (1 : Fin 2) = 0 ∧ win1_9.index t (0 : Fin 2) ≤ 49 :=
  (by decide +kernel : ∀ t : Fin grid1.N, _)

/-- Every row block is some point's. -/
theorem onto1 : ∀ q : Fin 50, ∃ t : Fin cfg1.N, win1_9.index t = ![q.val, 0] :=
  (by decide +kernel : ∀ q : Fin 50, ∃ t : Fin grid1.N, win1_9.index t = ![q.val, 0])

/-- What point `t` writes back is block `t` of `z6Of`. -/
theorem flushed1_9 (c : Dev nD) (t : Fin cfg1.N) :
    (dat1 V c).flushed 9 t = ((cfg1.win 9).blk t).view.read (Elt Ideal)
      (z6Of (V c main_arg1) (V c main_arg2) (V c main_v17_0) (V c main_v17_1) (V c main_v2) (V c main_arg9) (V c main_v4) (V c main_v9) (V c main_v15)) := by
  show (cfg1.win 9).cut (grid1.coords t) ((dat1 V c).after 9 t) = _
  rw [after1_9]
  unfold out1_9
  rw [View.canon_unit_zero hz2]
  simp only [View.ld_unit_zero (S := S200x10000) hz2, View.ld_unit_zero (S := S10000x256) hz2, View.ld_unit_zero (S := S200x128) hz2,
    View.ld_unit_zero (S := S384x3) hz2, View.ld_unit_zero (S := S128x8) hz2, View.ld_unit_zero (S := S1x8) hz2]
  obtain ⟨e00, e01, e10, e11, e20, e21, e30, e31, e40, e41, e50, e51, e60, e61, e70, e71, e80, e81, e91, e9b⟩ := idx1 t
  funext y
  obtain ⟨r, cc, rfl⟩ : ∃ (r : Fin 200) (cc : Fin 8), y = ix2 r cc := ⟨y 0, y 1, eq_ix2 y⟩
  refine (block_out (iblk1 V c 2 t) (iblk1 V c 0 t) (View.ld (iblk1 V c 4 t) r1_4a) (iblk1 V c 1 t) (View.ld (iblk1 V c 4 t) r1_4b)
    (iblk1 V c 3 t) (iblk1 V c 5 t) (iblk1 V c 6 t) (iblk1 V c 7 t) (iblk1 V c 8 t) r cc).trans ?_
  have hRlt : win1_9.index t (0 : Fin 2) * 200 + r.val < 10000 := by have := r.isLt; omega
  refine Eq.trans ?_ (z6Of_at (V c main_arg1) (V c main_arg2) (V c main_v17_0) (V c main_v17_1) (V c main_v2) (V c main_arg9) (V c main_v4)
    (V c main_v9) (V c main_v15) (((cfg1.win 9).blk t).view.emb (ix2 r cc)) ⟨win1_9.index t (0 : Fin 2) * 200 + r.val, hRlt⟩ cc
    (by show win1_9.index t (0 : Fin 2) * 200 + 1 * r.val = win1_9.index t (0 : Fin 2) * 200 + r.val; omega)
    (by show win1_9.index t (1 : Fin 2) * 8 + 1 * cc.val = cc.val; omega)).symm
  -- the three branches' rows of the block are the whole matrices' rows
  have h1 : ∀ k : Fin 128, ofArr2 (k1_pay3 (F := Ideal) (iblk1 V c 2 t) (iblk1 V c 0 t) (View.ld (iblk1 V c 4 t) r1_4a)) r k
      = p1Of (V c main_arg1) (V c main_v17_0) (V c main_v2) ⟨win1_9.index t (0 : Fin 2) * 200 + r.val, hRlt⟩ k := fun k => by
    refine (pay1_3 (iblk1 V c 2 t) (iblk1 V c 0 t) (View.ld (iblk1 V c 4 t) r1_4a) r k).trans ?_
    unfold p1Of
    refine congrArg₂ (fun a b : EReal => a + b) (Finset.sum_congr rfl fun k' _ => congrArg₂ (fun a b : EReal => a * b) ?_ ?_) ?_
    · show (V c main_arg1 : S10000x10000.Idx → EReal) (((cfg1.win 0).blk t).view.emb (ix2 r k')) = _
      refine congrArg (V c main_arg1 : S10000x10000.Idx → EReal) (ext2 ?_ ?_)
      · show win1_0.index t (0 : Fin 2) * 200 + 1 * r.val = win1_9.index t (0 : Fin 2) * 200 + r.val; omega
      · show win1_0.index t (1 : Fin 2) * 10000 + 1 * k'.val = k'.val; omega
    · show (V c main_v17_0 : S10000x256.Idx → EReal) (((cfg1.win 2).blk t).view.emb (ix2 k' _)) = _
      refine congrArg (V c main_v17_0 : S10000x256.Idx → EReal) (ext2 ?_ ?_)
      · show win1_2.index t (0 : Fin 2) * 10000 + 1 * k'.val = k'.val; omega
      · show win1_2.index t (1 : Fin 2) * 256 + 1 * k.val = k.val; omega
    · show (V c main_v2 : S1x256.Idx → EReal) (((cfg1.win 4).blk t).view.emb (r1_4a.emb (ix2 (0 : Fin 1) k))) = _
      refine congrArg (V c main_v2 : S1x256.Idx → EReal) (ext2 ?_ ?_)
      · show win1_4.index t (0 : Fin 2) * 1 + 1 * (0 + 1 * 0) = 0; omega
      · show win1_4.index t (1 : Fin 2) * 256 + 1 * (0 + 1 * k.val) = k.val; omega
  have h2 : ∀ k : Fin 128, ofArr2 (k1_pay4 (F := Ideal) (iblk1 V c 2 t) (iblk1 V c 1 t) (View.ld (iblk1 V c 4 t) r1_4b)) r k
      = p2Of (V c main_arg2) (V c main_v17_0) (V c main_v2) ⟨win1_9.index t (0 : Fin 2) * 200 + r.val, hRlt⟩ k := fun k => by
    refine (pay1_4 (iblk1 V c 2 t) (iblk1 V c 1 t) (View.ld (iblk1 V c 4 t) r1_4b) r k).trans ?_
    unfold p2Of
    refine congrArg₂ (fun a b : EReal => a + b) (Finset.sum_congr rfl fun k' _ => congrArg₂ (fun a b : EReal => a * b) ?_ ?_) ?_
    · show (V c main_arg2 : S10000x10000.Idx → EReal) (((cfg1.win 1).blk t).view.emb (ix2 r k')) = _
      refine congrArg (V c main_arg2 : S10000x10000.Idx → EReal) (ext2 ?_ ?_)
      · show win1_1.index t (0 : Fin 2) * 200 + 1 * r.val = win1_9.index t (0 : Fin 2) * 200 + r.val; omega
      · show win1_1.index t (1 : Fin 2) * 10000 + 1 * k'.val = k'.val; omega
    · show (V c main_v17_0 : S10000x256.Idx → EReal) (((cfg1.win 2).blk t).view.emb (ix2 k' _)) = _
      refine congrArg (V c main_v17_0 : S10000x256.Idx → EReal) (ext2 ?_ ?_)
      · show win1_2.index t (0 : Fin 2) * 10000 + 1 * k'.val = k'.val; omega
      · show win1_2.index t (1 : Fin 2) * 256 + 1 * (128 + k.val) = 128 + k.val; omega
    · show (V c main_v2 : S1x256.Idx → EReal) (((cfg1.win 4).blk t).view.emb (r1_4b.emb (ix2 (0 : Fin 1) k))) = _
      refine congrArg (V c main_v2 : S1x256.Idx → EReal) (ext2 ?_ ?_)
      · show win1_4.index t (0 : Fin 2) * 1 + 1 * (0 + 1 * 0) = 0; omega
      · show win1_4.index t (1 : Fin 2) * 256 + 1 * (128 + 1 * k.val) = 128 + k.val; omega
  have h3 : ∀ k : Fin 128, ofArr2 (iblk1 V c 3 t) r k
      = ofArr2 (V c main_v17_1 : S10000x128.Idx → EReal) ⟨win1_9.index t (0 : Fin 2) * 200 + r.val, hRlt⟩ k := fun k => by
    show (V c main_v17_1 : S10000x128.Idx → EReal) (((cfg1.win 3).blk t).view.emb (ix2 r k)) = _
    refine congrArg (V c main_v17_1 : S10000x128.Idx → EReal) (ext2 ?_ ?_)
    · show win1_3.index t (0 : Fin 2) * 200 + 1 * r.val = win1_9.index t (0 : Fin 2) * 200 + r.val; omega
    · show win1_3.index t (1 : Fin 2) * 128 + 1 * k.val = k.val; omega
  have hx : ∀ h : Fin 128,
      fused (ofArr2 (k1_pay3 (F := Ideal) (iblk1 V c 2 t) (iblk1 V c 0 t) (View.ld (iblk1 V c 4 t) r1_4a)))
        (ofArr2 (k1_pay4 (F := Ideal) (iblk1 V c 2 t) (iblk1 V c 1 t) (View.ld (iblk1 V c 4 t) r1_4b))) (ofArr2 (iblk1 V c 3 t))
        (weights (absv (logits (ofArr2 (k1_pay3 (F := Ideal) (iblk1 V c 2 t) (iblk1 V c 0 t) (View.ld (iblk1 V c 4 t) r1_4a)))
          (ofArr2 (k1_pay4 (F := Ideal) (iblk1 V c 2 t) (iblk1 V c 1 t) (View.ld (iblk1 V c 4 t) r1_4b))) (ofArr2 (iblk1 V c 3 t))
          (ofArr2 (iblk1 V c 5 t))))) r h
      = x1Of (V c main_arg1) (V c main_arg2) (V c main_v17_0) (V c main_v17_1) (V c main_v2) (V c main_arg9)
          ⟨win1_9.index t (0 : Fin 2) * 200 + r.val, hRlt⟩ h := fun h => by
    have haf : ofArr2 (iblk1 V c 5 t) = ofArr2 (V c main_arg9 : S384x3.Idx → EReal) := by
      funext a b
      show (V c main_arg9 : S384x3.Idx → EReal) (((cfg1.win 5).blk t).view.emb (ix2 a b)) = _
      refine congrArg (V c main_arg9 : S384x3.Idx → EReal) (ext2 ?_ ?_)
      · show win1_5.index t (0 : Fin 2) * 384 + 1 * a.val = a.val; omega
      · show win1_5.index t (1 : Fin 2) * 3 + 1 * b.val = b.val; omega
    rw [haf]
    exact fused_attn_row _ _ _ _ _ _ _ r _ h1 h2 h3 h
  have h6 : ∀ h : Fin 128, iblk1 V c 6 t (ix2 h cc) = (V c main_v4 : S128x8.Idx → EReal) (ix2 h cc) := fun h => by
    show (V c main_v4 : S128x8.Idx → EReal) (((cfg1.win 6).blk t).view.emb (ix2 h cc)) = _
    refine congrArg (V c main_v4 : S128x8.Idx → EReal) (ext2 ?_ ?_)
    · show win1_6.index t (0 : Fin 2) * 128 + 1 * h.val = h.val; omega
    · show win1_6.index t (1 : Fin 2) * 8 + 1 * cc.val = cc.val; omega
  have h7 : iblk1 V c 7 t (ix2 (0 : Fin 1) cc) = (V c main_v9 : S1x8.Idx → EReal) (ix2 (0 : Fin 1) cc) := by
    show (V c main_v9 : S1x8.Idx → EReal) (((cfg1.win 7).blk t).view.emb (ix2 (0 : Fin 1) cc)) = _
    refine congrArg (V c main_v9 : S1x8.Idx → EReal) (ext2 ?_ ?_)
    · show win1_7.index t (0 : Fin 2) * 1 + 1 * 0 = 0; omega
    · show win1_7.index t (1 : Fin 2) * 8 + 1 * cc.val = cc.val; omega
  have h8 : iblk1 V c 8 t (ix2 (0 : Fin 1) cc) = (V c main_v15 : S1x8.Idx → EReal) (ix2 (0 : Fin 1) cc) := by
    show (V c main_v15 : S1x8.Idx → EReal) (((cfg1.win 8).blk t).view.emb (ix2 (0 : Fin 1) cc)) = _
    refine congrArg (V c main_v15 : S1x8.Idx → EReal) (ext2 ?_ ?_)
    · show win1_8.index t (0 : Fin 2) * 1 + 1 * 0 = 0; omega
    · show win1_8.index t (1 : Fin 2) * 8 + 1 * cc.val = cc.val; omega
  unfold z6At
  simp only [hx, h6, h7, h8]

theorem mem_blk1_9 (t : Fin cfg1.N) (i : S10000x8.Idx) :
    i ∈ ((cfg1.win 9).blk t).view.set ↔ ∀ a : Fin 2, win1_9.index t a * S200x8.size a ≤ (i a).val
      ∧ (i a).val < win1_9.index t a * S200x8.size a + S200x8.size a := by
  show i ∈ ((View.whole main_v18).slice (win1_9.rect t)).set ↔ _
  rw [View.set_slice_whole, Rect.mem_set_unit]
  exact Iff.rfl

/-- The fifty blocks cover the table: row `i` is in the block of point `i / 200`. -/
theorem cover1_9 (i : S10000x8.Idx) : ∃ t : Fin cfg1.N, (cfg1.win 9).flush t = true ∧ i ∈ ((cfg1.win 9).blk t).view.set := by
  have hi0 : (i 0).val < 10000 := (i 0).isLt
  have hi1 : (i 1).val < 8 := (i 1).isLt
  obtain ⟨t, ht⟩ := onto1 ⟨(i 0).val / 200, by omega⟩
  have q0 : win1_9.index t (0 : Fin 2) = (i 0).val / 200 := congrFun ht 0
  have q1 : win1_9.index t (1 : Fin 2) = 0 := congrFun ht 1
  refine ⟨t, flush1_9 t, ?_⟩
  rw [mem_blk1_9]
  intro a
  match a with
  | ⟨0, _⟩ => show win1_9.index t (0 : Fin 2) * 200 ≤ (i 0).val ∧ (i 0).val < win1_9.index t (0 : Fin 2) * 200 + 200; omega
  | ⟨1, _⟩ => show win1_9.index t (1 : Fin 2) * 8 ≤ (i 1).val ∧ (i 1).val < win1_9.index t (1 : Fin 2) * 8 + 8; omega

/-- The table of second-layer operands after the region. -/
theorem final1_9 (c : Dev nD) : (dat1 V c).arrAt 9 cfg1.N
    = z6Of (V c main_arg1) (V c main_arg2) (V c main_v17_0) (V c main_v17_1) (V c main_v2) (V c main_arg9) (V c main_v4) (V c main_v9) (V c main_v15) :=
  (dat1 V c).arrAt_eq_of_cover 9 _ (fun t _ => flushed1_9 V c t) cover1_9

end Cert.KernelIdeal.KValue

end
-- ==== Proof.KPay2.lean ====
/-
  What the second-layer kernel's body computes from one block of rows, entry by entry.

  The body holds a 200-row block of each adjacency matrix and the whole 10000 × 8 table of second-layer operands. Columns
  0–1 of the table go through the first adjacency block, columns 2–3 through the second, and the block's own rows of
  columns 4–5 (read apart, at the block's row offset) are added.
-/
import proofs.«110970_g76141180223726_cont_sun_m_824_6_alg».proof.Proof.KDot
import Idealize.ShloMosaic.Lib.ValueLayout

noncomputable section

namespace Cert.KernelIdeal.KValue

open Cert.KernelIdeal Cert.KernelIdeal.Gen Idealize.ShloMosaic Idealize.ShloMosaic.ValueIdx

/-- The block's entry `(r, j)`: the two propagated columns and the row's own precomputed term. -/
theorem pay2_1 (v0 : Vec Ideal S10000x8 .f32) (v2 v5 : Vec Ideal S200x10000 .f32) (v11 : Vec Ideal S200x2 .f32)
    (r : Fin 200) (j : Fin 2) :
    k2_pay1 (F := Ideal) v0 v2 v5 v11 (ix2 r j)
      = (∑ k : Fin 10000, v2 (ix2 r k) * v0 (ix2 k (⟨j.val, by omega⟩ : Fin 8)))
        + (∑ k : Fin 10000, v5 (ix2 r k) * v0 (ix2 k (⟨2 + j.val, by omega⟩ : Fin 8))) + v11 (ix2 r j) := by
  have e1 : ∀ k : Fin 10000, extractStridedSlice S10000x2 ![0, 0] v0 slices_S10000x8_o0_0_S10000x2 (ix2 k j)
      = v0 (ix2 k (⟨j.val, by omega⟩ : Fin 8)) :=
    fun k => slice2_axis1_apply 0 v0 _ k j ⟨j.val, by omega⟩ (Nat.zero_add _).symm
  have e2 : ∀ k : Fin 10000, extractStridedSlice S10000x2 ![0, 2] v0 slices_S10000x8_o0_2_S10000x2 (ix2 k j)
      = v0 (ix2 k (⟨2 + j.val, by omega⟩ : Fin 8)) :=
    fun k => slice2_axis1_apply 2 v0 _ k j ⟨2 + j.val, by omega⟩ rfl
  unfold k2_pay1
  simp only [shapeCast_self]
  show (matmul (F := Ideal) dot_S200x10000_S10000x2_S200x2_1_0_0_1_n_n none v2 _ (constant (F := Ideal) S200x2 .f32 0x00000000#32) (ix2 r j)
      + matmul (F := Ideal) dot_S200x10000_S10000x2_S200x2_1_0_0_1_n_n none v5 _ (constant (F := Ideal) S200x2 .f32 0x00000000#32) (ix2 r j))
      + v11 (ix2 r j) = _
  rw [mm_200_10000_2, mm_200_10000_2]
  simp only [e1, e2]

end Cert.KernelIdeal.KValue

end
-- ==== Proof.KArr2.lean ====
/-
  What the second-layer region leaves in its output array, as a whole-array function of the arrays it reads.

  The grid has fifty points; point `t` holds rows `200 t … 200 t + 199` of both adjacency matrices and of the output,
  and the whole 10000 × 8 table. The body's extra load of the table starts at row `200 t` (computed from the grid
  coordinate) and column 4, so it reads the block's own rows of columns 4–5.
-/
import proofs.«110970_g76141180223726_cont_sun_m_824_6_alg».proof.Proof.KIData
import proofs.«110970_g76141180223726_cont_sun_m_824_6_alg».proof.Proof.KPay2
import proofs.«110970_g76141180223726_cont_sun_m_824_6_alg».proof.Proof.KArr0

set_option maxRecDepth 16384

noncomputable section

namespace Cert.KernelIdeal.KValue

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

/-- The second layer over the table of its operands: columns 0–1 along the first adjacency, columns 2–3 along the
    second, and the row's own columns 4–5. -/
def outOf (Adj Sadj : S10000x10000.Idx → EReal) (Z : S10000x8.Idx → EReal) : S10000x2.Idx → EReal := fun i =>
  (∑ k : Fin 10000, Adj (ix2 (⟨(i 0).val, (i 0).isLt⟩ : Fin 10000) k)
      * Z (ix2 k (⟨(i 1).val, by have h : (i 1).val < 2 := (i 1).isLt; omega⟩ : Fin 8)))
    + (∑ k : Fin 10000, Sadj (ix2 (⟨(i 0).val, (i 0).isLt⟩ : Fin 10000) k)
      * Z (ix2 k (⟨2 + (i 1).val, by have h : (i 1).val < 2 := (i 1).isLt; omega⟩ : Fin 8)))
    + Z (ix2 (⟨(i 0).val, (i 0).isLt⟩ : Fin 10000) (⟨4 + (i 1).val, by have h : (i 1).val < 2 := (i 1).isLt; omega⟩ : Fin 8))

variable (V : (c : Dev nD) → (b : Ref sig .tc) → Buf (Elt Ideal) ((c : Thread nD τ).loc b))

/-- The printed index maps and the computed load offset over the fifty points. -/
theorem idx2 : ∀ t : Fin cfg2.N, win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0
    ∧ k2_off1 (grid2.coords t) (0 : Fin 2) = win2_3.index t (0 : Fin 2) * 200 ∧ k2_off1 (grid2.coords t) (1 : Fin 2) = 4
    ∧ win2_3.index t (0 : Fin 2) ≤ 49 :=
  (by decide +kernel : ∀ t : Fin grid2.N, _)

/-- Every row block is some point's. -/
theorem onto2 : ∀ q : Fin 50, ∃ t : Fin cfg2.N, win2_3.index t = ![q.val, 0] :=
  (by decide +kernel : ∀ q : Fin 50, ∃ t : Fin grid2.N, win2_3.index t = ![q.val, 0])

/-- What point `t` writes back is block `t` of `outOf`. -/
theorem flushed2_3 (c : Dev nD) (t : Fin cfg2.N) :
    (dat2 V c).flushed 3 t = ((cfg2.win 3).blk t).view.read (Elt Ideal) (outOf (V c main_arg1) (V c main_arg2) (V c main_v18)) := by
  show (cfg2.win 3).cut (grid2.coords t) ((dat2 V c).after 3 t) = _
  rw [after2_3]
  unfold out2_3
  rw [View.canon_unit_zero hz2]
  simp only [View.ld_unit_zero (S := S200x10000) hz2, View.ld_unit_zero (S := S10000x8) hz2]
  obtain ⟨e0, e1, e2, e3, e4, e5, e6, e7, e8, e9⟩ := idx2 t
  funext y
  obtain ⟨r, j, rfl⟩ : ∃ (r : Fin 200) (j : Fin 2), y = ix2 r j := ⟨y 0, y 1, eq_ix2 y⟩
  refine (pay2_1 (iblk2 V c 2 t) (iblk2 V c 0 t) (iblk2 V c 1 t) (View.ld (iblk2 V c 2 t) (r2_2o (grid2.coords t))) r j).trans ?_
  show _ = outOf (V c main_arg1) (V c main_arg2) (V c main_v18) (((cfg2.win 3).blk t).view.emb (ix2 r j))
  unfold outOf
  refine congrArg₂ (fun a b : EReal => a + b) (congrArg₂ (fun a b : EReal => a + b)
    (Finset.sum_congr rfl fun k _ => ?_) (Finset.sum_congr rfl fun k _ => ?_)) ?_
  · refine congrArg₂ (fun a b : EReal => a * b) ?_ ?_
    · show (V c main_arg1 : S10000x10000.Idx → EReal) (((cfg2.win 0).blk t).view.emb (ix2 r k)) = _
      refine congrArg (V c main_arg1 : S10000x10000.Idx → EReal) (ext2 ?_ ?_)
      · show win2_0.index t (0 : Fin 2) * 200 + 1 * r.val = win2_3.index t (0 : Fin 2) * 200 + 1 * r.val; omega
      · show win2_0.index t (1 : Fin 2) * 10000 + 1 * k.val = k.val; omega
    · show (V c main_v18 : S10000x8.Idx → EReal) (((cfg2.win 2).blk t).view.emb (ix2 k _)) = _
      refine congrArg (V c main_v18 : S10000x8.Idx → EReal) (ext2 ?_ ?_)
      · show win2_2.index t (0 : Fin 2) * 10000 + 1 * k.val = k.val; omega
      · show win2_2.index t (1 : Fin 2) * 8 + 1 * j.val = win2_3.index t (1 : Fin 2) * 2 + 1 * j.val; omega
  · refine congrArg₂ (fun a b : EReal => a * b) ?_ ?_
    · show (V c main_arg2 : S10000x10000.Idx → EReal) (((cfg2.win 1).blk t).view.emb (ix2 r k)) = _
      refine congrArg (V c main_arg2 : S10000x10000.Idx → EReal) (ext2 ?_ ?_)
      · show win2_1.index t (0 : Fin 2) * 200 + 1 * r.val = win2_3.index t (0 : Fin 2) * 200 + 1 * r.val; omega
      · show win2_1.index t (1 : Fin 2) * 10000 + 1 * k.val = k.val; omega
    · show (V c main_v18 : S10000x8.Idx → EReal) (((cfg2.win 2).blk t).view.emb (ix2 k _)) = _
      refine congrArg (V c main_v18 : S10000x8.Idx → EReal) (ext2 ?_ ?_)
      · show win2_2.index t (0 : Fin 2) * 10000 + 1 * k.val = k.val; omega
      · show win2_2.index t (1 : Fin 2) * 8 + 1 * (2 + j.val) = 2 + (win2_3.index t (1 : Fin 2) * 2 + 1 * j.val); omega
  · show (V c main_v18 : S10000x8.Idx → EReal) (((cfg2.win 2).blk t).view.emb ((r2_2o (grid2.coords t)).emb (ix2 r j))) = _
    refine congrArg (V c main_v18 : S10000x8.Idx → EReal) (ext2 ?_ ?_)
    · show win2_2.index t (0 : Fin 2) * 10000 + 1 * (k2_off1 (grid2.coords t) (0 : Fin 2) + 1 * r.val)
        = win2_3.index t (0 : Fin 2) * 200 + 1 * r.val; omega
    · show win2_2.index t (1 : Fin 2) * 8 + 1 * (k2_off1 (grid2.coords t) (1 : Fin 2) + 1 * j.val)
        = 4 + (win2_3.index t (1 : Fin 2) * 2 + 1 * j.val); omega

theorem mem_blk2_3 (t : Fin cfg2.N) (i : S10000x2.Idx) :
    i ∈ ((cfg2.win 3).blk t).view.set ↔ ∀ a : Fin 2, win2_3.index t a * S200x2.size a ≤ (i a).val
      ∧ (i a).val < win2_3.index t a * S200x2.size a + S200x2.size a := by
  show i ∈ ((View.whole main_v19).slice (win2_3.rect t)).set ↔ _
  rw [View.set_slice_whole, Rect.mem_set_unit]
  exact Iff.rfl

/-- The fifty blocks cover the output: row `i` is in the block of point `i / 200`. -/
theorem cover2_3 (i : S10000x2.Idx) : ∃ t : Fin cfg2.N, (cfg2.win 3).flush t = true ∧ i ∈ ((cfg2.win 3).blk t).view.set := by
  have hi0 : (i 0).val < 10000 := (i 0).isLt
  have hi1 : (i 1).val < 2 := (i 1).isLt
  obtain ⟨t, ht⟩ := onto2 ⟨(i 0).val / 200, by omega⟩
  have q0 : win2_3.index t (0 : Fin 2) = (i 0).val / 200 := congrFun ht 0
  have q1 : win2_3.index t (1 : Fin 2) = 0 := congrFun ht 1
  refine ⟨t, flush2_3 t, ?_⟩
  rw [mem_blk2_3]
  intro a
  match a with
  | ⟨0, _⟩ => show win2_3.index t (0 : Fin 2) * 200 ≤ (i 0).val ∧ (i 0).val < win2_3.index t (0 : Fin 2) * 200 + 200; omega
  | ⟨1, _⟩ => show win2_3.index t (1 : Fin 2) * 2 ≤ (i 1).val ∧ (i 1).val < win2_3.index t (1 : Fin 2) * 2 + 2; omega

/-- The output array after the region. -/
theorem final2_3 (c : Dev nD) : (dat2 V c).arrAt 3 cfg2.N = outOf (V c main_arg1) (V c main_arg2) (V c main_v18) :=
  (dat2 V c).arrAt_eq_of_cover 3 _ (fun t _ => flushed2_3 V c t) cover2_3

end Cert.KernelIdeal.KValue

end
-- ==== Proof.KCompose.lean ====
/-
  The three regions composed are the specification.

  Given what the host stretch packs — the three first-layer weight matrices side by side, the two graph biases side by side
  as a row, the three second-layer weight matrices side by side (and two zero columns), and two rows holding, at columns
  4–5, the dense second-layer bias and the sum of the two graph biases — the projected table's two halves are `X W₁` and
  `X W₂`, the region-two branches are the specification's branches, the fused features its hidden layer, and the last
  region adds the two propagated column pairs and the finished dense pair: the specification's second layer.
-/
import proofs.«110970_g76141180223726_cont_sun_m_824_6_alg».proof.Proof.KArr1
import proofs.«110970_g76141180223726_cont_sun_m_824_6_alg».proof.Proof.KArr2
import proofs.«110970_g76141180223726_cont_sun_m_824_6_alg».proof.Proof.SpecIdx

noncomputable section

namespace Cert.KernelIdeal.KValue

open Cert.KernelIdeal Cert.Spec
open Idealize.ShloMosaic Idealize.ShloMosaic.ValueIdx

section
variable (A0 : S10000x768.Idx → EReal) (A1 A2 : S10000x10000.Idx → EReal) (A3 A5 A7 : S768x128.Idx → EReal)
  (A4 A6 A8 : S128.Idx → EReal) (A9 : S384x3.Idx → EReal) (A10 A12 A14 : S128x2.Idx → EReal) (A11 A13 A15 : S2.Idx → EReal)
  (Wc : S768x384.Idx → EReal) (Bm : S1x128.Idx → EReal) (B1c : S1x256.Idx → EReal) (W2c : S128x8.Idx → EReal) (B2p Cbp : S1x8.Idx → EReal)

theorem scatOf_at (k : Fin 10000) (q : Fin 256) :
    scatOf A0 Wc (ix2 k q) = ∑ k' : Fin 768, A0 (ix2 k k') * Wc (ix2 k' (⟨q.val, by omega⟩ : Fin 384)) := rfl

theorem x1mOf_at (k : Fin 10000) (q : Fin 128) :
    x1mOf A0 Wc Bm (ix2 k q)
      = Ideal.tanh ((∑ k' : Fin 768, A0 (ix2 k k') * Wc (ix2 k' (⟨256 + q.val, by omega⟩ : Fin 384))) + Bm (ix2 (0 : Fin 1) q)) := rfl

/-- The first graph branch is the specification's. -/
theorem p1_eq (hWc1 : ∀ (k : Fin 768) (j : Fin 128), Wc (ix2 k (⟨j.val, by omega⟩ : Fin 384)) = A3 (ix2 k j))
    (hB1a : ∀ j : Fin 128, B1c (ix2 (0 : Fin 1) (⟨j.val, by omega⟩ : Fin 256)) = A4 (ix1 j)) :
    p1Of A1 (scatOf A0 Wc) B1c = branch (ofArr2 A1) (ofArr2 A0) (ofArr2 A3) (ofArr1 A4) := by
  funext i j
  unfold p1Of branch mm
  simp only [scatOf_at, hWc1, hB1a]

/-- The second graph branch is the specification's. -/
theorem p2_eq (hWc2 : ∀ (k : Fin 768) (j : Fin 128), Wc (ix2 k (⟨128 + j.val, by omega⟩ : Fin 384)) = A5 (ix2 k j))
    (hB1b : ∀ j : Fin 128, B1c (ix2 (0 : Fin 1) (⟨128 + j.val, by omega⟩ : Fin 256)) = A6 (ix1 j)) :
    p2Of A2 (scatOf A0 Wc) B1c = branch (ofArr2 A2) (ofArr2 A0) (ofArr2 A5) (ofArr1 A6) := by
  funext i j
  unfold p2Of branch mm
  simp only [scatOf_at, hWc2, hB1b]

/-- The dense branch is the specification's. -/
theorem xm_eq (hWc3 : ∀ (k : Fin 768) (j : Fin 128), Wc (ix2 k (⟨256 + j.val, by omega⟩ : Fin 384)) = A7 (ix2 k j))
    (hBm : ∀ j : Fin 128, Bm (ix2 (0 : Fin 1) j) = A8 (ix1 j)) :
    ofArr2 (x1mOf A0 Wc Bm) = dense (ofArr2 A0) (ofArr2 A7) (ofArr1 A8) := by
  funext i j
  show x1mOf A0 Wc Bm (ix2 i j) = _
  unfold dense mm
  simp only [x1mOf_at, hWc3, hBm]

/-- The fused features are the specification's hidden layer. -/
theorem x1_eq (hWc1 : ∀ (k : Fin 768) (j : Fin 128), Wc (ix2 k (⟨j.val, by omega⟩ : Fin 384)) = A3 (ix2 k j))
    (hWc2 : ∀ (k : Fin 768) (j : Fin 128), Wc (ix2 k (⟨128 + j.val, by omega⟩ : Fin 384)) = A5 (ix2 k j))
    (hWc3 : ∀ (k : Fin 768) (j : Fin 128), Wc (ix2 k (⟨256 + j.val, by omega⟩ : Fin 384)) = A7 (ix2 k j))
    (hBm : ∀ j : Fin 128, Bm (ix2 (0 : Fin 1) j) = A8 (ix1 j))
    (hB1a : ∀ j : Fin 128, B1c (ix2 (0 : Fin 1) (⟨j.val, by omega⟩ : Fin 256)) = A4 (ix1 j))
    (hB1b : ∀ j : Fin 128, B1c (ix2 (0 : Fin 1) (⟨128 + j.val, by omega⟩ : Fin 256)) = A6 (ix1 j)) :
    x1Of A1 A2 (scatOf A0 Wc) (x1mOf A0 Wc Bm) B1c A9
      = Spec.hidden (ofArr2 A0) (ofArr2 A1) (ofArr2 A2) (ofArr2 A3) (ofArr1 A4) (ofArr2 A5) (ofArr1 A6) (ofArr2 A7) (ofArr1 A8) (ofArr2 A9) := by
  unfold x1Of Spec.hidden
  rw [p1_eq A0 A1 A3 A4 Wc B1c hWc1 hB1a, p2_eq A0 A2 A5 A6 Wc B1c hWc2 hB1b, xm_eq A0 A7 A8 Wc Bm hWc3 hBm]

/-- The whole run's result is the specification's. -/
theorem compose_eq (hWc1 : ∀ (k : Fin 768) (j : Fin 128), Wc (ix2 k (⟨j.val, by omega⟩ : Fin 384)) = A3 (ix2 k j))
    (hWc2 : ∀ (k : Fin 768) (j : Fin 128), Wc (ix2 k (⟨128 + j.val, by omega⟩ : Fin 384)) = A5 (ix2 k j))
    (hWc3 : ∀ (k : Fin 768) (j : Fin 128), Wc (ix2 k (⟨256 + j.val, by omega⟩ : Fin 384)) = A7 (ix2 k j))
    (hBm : ∀ j : Fin 128, Bm (ix2 (0 : Fin 1) j) = A8 (ix1 j))
    (hB1a : ∀ j : Fin 128, B1c (ix2 (0 : Fin 1) (⟨j.val, by omega⟩ : Fin 256)) = A4 (ix1 j))
    (hB1b : ∀ j : Fin 128, B1c (ix2 (0 : Fin 1) (⟨128 + j.val, by omega⟩ : Fin 256)) = A6 (ix1 j))
    (hW2a : ∀ (h : Fin 128) (j : Fin 2), W2c (ix2 h (⟨j.val, by omega⟩ : Fin 8)) = A10 (ix2 h j))
    (hW2b : ∀ (h : Fin 128) (j : Fin 2), W2c (ix2 h (⟨2 + j.val, by omega⟩ : Fin 8)) = A12 (ix2 h j))
    (hW2c : ∀ (h : Fin 128) (j : Fin 2), W2c (ix2 h (⟨4 + j.val, by omega⟩ : Fin 8)) = A14 (ix2 h j))
    (hB2 : ∀ j : Fin 2, B2p (ix2 (0 : Fin 1) (⟨4 + j.val, by omega⟩ : Fin 8)) = A15 (ix1 j))
    (hCb : ∀ j : Fin 2, Cbp (ix2 (0 : Fin 1) (⟨4 + j.val, by omega⟩ : Fin 8)) = A11 (ix1 j) + A13 (ix1 j))
    (p : Fin 10000) (q : Fin 2) :
    outOf A1 A2 (z6Of A1 A2 (scatOf A0 Wc) (x1mOf A0 Wc Bm) B1c A9 W2c B2p Cbp) (ix2 p q)
      = result (ofArr2 A0) (ofArr2 A1) (ofArr2 A2) (ofArr2 A3) (ofArr1 A4) (ofArr2 A5) (ofArr1 A6) (ofArr2 A7) (ofArr1 A8) (ofArr2 A9)
          (ofArr2 A10) (ofArr1 A11) (ofArr2 A12) (ofArr1 A13) (ofArr2 A14) (ofArr1 A15) p q := by
  have hx := x1_eq A0 A1 A2 A3 A5 A7 A4 A6 A8 A9 Wc Bm B1c hWc1 hWc2 hWc3 hBm hB1a hB1b
  -- the table's three column pairs
  have za : ∀ (k : Fin 10000) (j : Fin 2), z6Of A1 A2 (scatOf A0 Wc) (x1mOf A0 Wc Bm) B1c A9 W2c B2p Cbp (ix2 k (⟨j.val, by omega⟩ : Fin 8))
      = mm (x1Of A1 A2 (scatOf A0 Wc) (x1mOf A0 Wc Bm) B1c A9) (ofArr2 A10) k j := fun k j => by
    rw [z6Of_at _ _ _ _ _ _ _ _ _ _ k (⟨j.val, by omega⟩ : Fin 8) rfl rfl]
    unfold z6At mm
    rw [if_neg (by show ¬ 4 ≤ j.val; omega)]
    simp only [hW2a]
  have zb : ∀ (k : Fin 10000) (j : Fin 2), z6Of A1 A2 (scatOf A0 Wc) (x1mOf A0 Wc Bm) B1c A9 W2c B2p Cbp (ix2 k (⟨2 + j.val, by omega⟩ : Fin 8))
      = mm (x1Of A1 A2 (scatOf A0 Wc) (x1mOf A0 Wc Bm) B1c A9) (ofArr2 A12) k j := fun k j => by
    rw [z6Of_at _ _ _ _ _ _ _ _ _ _ k (⟨2 + j.val, by omega⟩ : Fin 8) rfl rfl]
    unfold z6At mm
    rw [if_neg (by show ¬ 4 ≤ 2 + j.val; omega)]
    simp only [hW2b]
  have zc : ∀ (k : Fin 10000) (j : Fin 2), z6Of A1 A2 (scatOf A0 Wc) (x1mOf A0 Wc Bm) B1c A9 W2c B2p Cbp (ix2 k (⟨4 + j.val, by omega⟩ : Fin 8))
      = Ideal.tanh (mm (x1Of A1 A2 (scatOf A0 Wc) (x1mOf A0 Wc Bm) B1c A9) (ofArr2 A14) k j + A15 (ix1 j)) + (A11 (ix1 j) + A13 (ix1 j)) := fun k j => by
    rw [z6Of_at _ _ _ _ _ _ _ _ _ _ k (⟨4 + j.val, by omega⟩ : Fin 8) rfl rfl]
    unfold z6At mm
    rw [if_pos (by show 4 ≤ 4 + j.val; omega)]
    simp only [hW2c, hB2, hCb]
  have ho : outOf A1 A2 (z6Of A1 A2 (scatOf A0 Wc) (x1mOf A0 Wc Bm) B1c A9 W2c B2p Cbp) (ix2 p q)
      = (∑ k : Fin 10000, A1 (ix2 p k) * z6Of A1 A2 (scatOf A0 Wc) (x1mOf A0 Wc Bm) B1c A9 W2c B2p Cbp (ix2 k (⟨q.val, by omega⟩ : Fin 8)))
        + (∑ k : Fin 10000, A2 (ix2 p k) * z6Of A1 A2 (scatOf A0 Wc) (x1mOf A0 Wc Bm) B1c A9 W2c B2p Cbp (ix2 k (⟨2 + q.val, by omega⟩ : Fin 8)))
        + z6Of A1 A2 (scatOf A0 Wc) (x1mOf A0 Wc Bm) B1c A9 W2c B2p Cbp (ix2 p (⟨4 + q.val, by omega⟩ : Fin 8)) := rfl
  rw [ho]
  simp only [za, zb, zc, hx]
  rfl

end

end Cert.KernelIdeal.KValue

end
-- ==== Proof.SpecArr.lean ====
/-
  The specification's result as an array over the result's shape: at the index with coordinates `(p, q)` it is the
  specification's matrix entry `(p, q)` of the sixteen argument arrays read as matrices and vectors.
-/
import proofs.«110970_g76141180223726_cont_sun_m_824_6_alg».proof.Proof.SpecIdx

noncomputable section

namespace Cert.Spec

open Idealize.ShloMosaic Idealize.ShloMosaic.ValueIdx

/-- The result array of the network on the sixteen argument arrays. -/
def resultArr (A0 : (⟨2, ![10000, 768]⟩ : Shape).Idx → EReal) (A1 A2 : (⟨2, ![10000, 10000]⟩ : Shape).Idx → EReal)
    (A3 : (⟨2, ![768, 128]⟩ : Shape).Idx → EReal) (A4 : (⟨1, ![128]⟩ : Shape).Idx → EReal)
    (A5 : (⟨2, ![768, 128]⟩ : Shape).Idx → EReal) (A6 : (⟨1, ![128]⟩ : Shape).Idx → EReal)
    (A7 : (⟨2, ![768, 128]⟩ : Shape).Idx → EReal) (A8 : (⟨1, ![128]⟩ : Shape).Idx → EReal)
    (A9 : (⟨2, ![384, 3]⟩ : Shape).Idx → EReal) (A10 : (⟨2, ![128, 2]⟩ : Shape).Idx → EReal) (A11 : (⟨1, ![2]⟩ : Shape).Idx → EReal)
    (A12 : (⟨2, ![128, 2]⟩ : Shape).Idx → EReal) (A13 : (⟨1, ![2]⟩ : Shape).Idx → EReal)
    (A14 : (⟨2, ![128, 2]⟩ : Shape).Idx → EReal) (A15 : (⟨1, ![2]⟩ : Shape).Idx → EReal) :
    (⟨2, ![10000, 2]⟩ : Shape).Idx → EReal := fun i =>
  result (ofArr2 A0) (ofArr2 A1) (ofArr2 A2) (ofArr2 A3) (ofArr1 A4) (ofArr2 A5) (ofArr1 A6) (ofArr2 A7) (ofArr1 A8) (ofArr2 A9)
    (ofArr2 A10) (ofArr1 A11) (ofArr2 A12) (ofArr1 A13) (ofArr2 A14) (ofArr1 A15) ⟨(i 0).val, (i 0).isLt⟩ ⟨(i 1).val, (i 1).isLt⟩

/-- An array over the result's shape that is the specification's entry at every `(p, q)` is the result array. -/
theorem eq_resultArr (A0 : (⟨2, ![10000, 768]⟩ : Shape).Idx → EReal) (A1 A2 : (⟨2, ![10000, 10000]⟩ : Shape).Idx → EReal)
    (A3 : (⟨2, ![768, 128]⟩ : Shape).Idx → EReal) (A4 : (⟨1, ![128]⟩ : Shape).Idx → EReal)
    (A5 : (⟨2, ![768, 128]⟩ : Shape).Idx → EReal) (A6 : (⟨1, ![128]⟩ : Shape).Idx → EReal)
    (A7 : (⟨2, ![768, 128]⟩ : Shape).Idx → EReal) (A8 : (⟨1, ![128]⟩ : Shape).Idx → EReal)
    (A9 : (⟨2, ![384, 3]⟩ : Shape).Idx → EReal) (A10 : (⟨2, ![128, 2]⟩ : Shape).Idx → EReal) (A11 : (⟨1, ![2]⟩ : Shape).Idx → EReal)
    (A12 : (⟨2, ![128, 2]⟩ : Shape).Idx → EReal) (A13 : (⟨1, ![2]⟩ : Shape).Idx → EReal)
    (A14 : (⟨2, ![128, 2]⟩ : Shape).Idx → EReal) (A15 : (⟨1, ![2]⟩ : Shape).Idx → EReal)
    (Y : (⟨2, ![10000, 2]⟩ : Shape).Idx → EReal)
    (h : ∀ (p : Fin 10000) (q : Fin 2), Y (ix2 p q) = result (ofArr2 A0) (ofArr2 A1) (ofArr2 A2) (ofArr2 A3) (ofArr1 A4) (ofArr2 A5)
      (ofArr1 A6) (ofArr2 A7) (ofArr1 A8) (ofArr2 A9) (ofArr2 A10) (ofArr1 A11) (ofArr2 A12) (ofArr1 A13) (ofArr2 A14) (ofArr1 A15) p q) :
    Y = resultArr A0 A1 A2 A3 A4 A5 A6 A7 A8 A9 A10 A11 A12 A13 A14 A15 := by
  funext i
  obtain ⟨p, q, rfl⟩ : ∃ (p : Fin 10000) (q : Fin 2), i = ix2 p q := ⟨i 0, i 1, eq_ix2 i⟩
  exact h p q

end Cert.Spec

end
-- ==== Proof.KResult.lean ====
/-
  The kernel's result array after its run is the specification's result array of the sixteen argument arrays: the last
  region's array is `outOf` of the two adjacency matrices and the table the second region left, that table is `z6Of` of
  what the first region and the host stretch left, and the composition is the specification.
-/
import proofs.«110970_g76141180223726_cont_sun_m_824_6_alg».proof.Proof.KIFold
import proofs.«110970_g76141180223726_cont_sun_m_824_6_alg».proof.Proof.KHost
import proofs.«110970_g76141180223726_cont_sun_m_824_6_alg».proof.Proof.KCompose
import proofs.«110970_g76141180223726_cont_sun_m_824_6_alg».proof.Proof.SpecArr

noncomputable section

namespace Cert.KernelIdeal.KValue

open Cert.KernelIdeal Cert.KernelIdeal.Gen Cert.KernelIdeal.Hand Cert.Spec
open Idealize.ShloMosaic Idealize.ShloMosaic.ValueIdx Idealize.ShloMosaic.TcCoe Idealize.SL.Sem
open Idealize.ShloMosaic.Pipeline (Dat)

/-- An extended real, as an extended real. -/
abbrev asE (x : EReal) : EReal := x

/-- Equal arguments, equal tables. -/
theorem z6Of_congr {a1 a1' a2 a2' : S10000x10000.Idx → EReal} {sc sc' : S10000x256.Idx → EReal} {xm xm' : S10000x128.Idx → EReal}
    {b1 b1' : S1x256.Idx → EReal} {af af' : S384x3.Idx → EReal} {w2 w2' : S128x8.Idx → EReal} {b2 b2' cb cb' : S1x8.Idx → EReal}
    (h1 : a1 = a1') (h2 : a2 = a2') (h3 : sc = sc') (h4 : xm = xm') (h5 : b1 = b1') (h6 : af = af') (h7 : w2 = w2') (h8 : b2 = b2') (h9 : cb = cb') :
    z6Of a1 a2 sc xm b1 af w2 b2 cb = z6Of a1' a2' sc' xm' b1' af' w2' b2' cb' := by
  subst h1 h2 h3 h4 h5 h6 h7 h8 h9
  rfl

/-- Equal arguments, equal results of the last region. -/
theorem outOf_congr {a1 a1' a2 a2' : S10000x10000.Idx → EReal} {z z' : S10000x8.Idx → EReal} (h1 : a1 = a1') (h2 : a2 = a2') (h3 : z = z') :
    outOf a1 a2 z = outOf a1' a2' z' := by
  subst h1 h2 h3
  rfl

theorem scatOf_congr {x x' : S10000x768.Idx → EReal} {w : S768x384.Idx → EReal} (h : x = x') : scatOf x w = scatOf x' w := by
  subst h
  rfl

theorem x1mOf_congr {x x' : S10000x768.Idx → EReal} {w : S768x384.Idx → EReal} {b : S1x128.Idx → EReal} (h : x = x') :
    x1mOf x w b = x1mOf x' w b := by
  subst h
  rfl

/-- The result array from the host stretch's packing facts. -/
theorem kernel_value_of (m : (ℓ : Loc nD τ sig) → Buf (Elt Ideal) ℓ) (c : Dev nD)
    (hWc1 : ∀ (k : Fin 768) (j : Fin 128), (Hand.V1 m c main_v0 : S768x384.Idx → EReal) (ix2 k (⟨j.val, by omega⟩ : Fin 384)) = (m ((c : Thread nD τ).loc main_arg3) : S768x128.Idx → EReal) (ix2 k j))
    (hWc2 : ∀ (k : Fin 768) (j : Fin 128), (Hand.V1 m c main_v0 : S768x384.Idx → EReal) (ix2 k (⟨128 + j.val, by omega⟩ : Fin 384)) = (m ((c : Thread nD τ).loc main_arg5) : S768x128.Idx → EReal) (ix2 k j))
    (hWc3 : ∀ (k : Fin 768) (j : Fin 128), (Hand.V1 m c main_v0 : S768x384.Idx → EReal) (ix2 k (⟨256 + j.val, by omega⟩ : Fin 384)) = (m ((c : Thread nD τ).loc main_arg7) : S768x128.Idx → EReal) (ix2 k j))
    (hBm : ∀ j : Fin 128, (Hand.V1 m c main_v16 : S1x128.Idx → EReal) (ix2 (0 : Fin 1) j) = (m ((c : Thread nD τ).loc main_arg8) : S128.Idx → EReal) (ix1 j))
    (hB1a : ∀ j : Fin 128, (Hand.V1 m c main_v2 : S1x256.Idx → EReal) (ix2 (0 : Fin 1) (⟨j.val, by omega⟩ : Fin 256)) = (m ((c : Thread nD τ).loc main_arg4) : S128.Idx → EReal) (ix1 j))
    (hB1b : ∀ j : Fin 128, (Hand.V1 m c main_v2 : S1x256.Idx → EReal) (ix2 (0 : Fin 1) (⟨128 + j.val, by omega⟩ : Fin 256)) = (m ((c : Thread nD τ).loc main_arg6) : S128.Idx → EReal) (ix1 j))
    (hW2a : ∀ (h : Fin 128) (j : Fin 2), (Hand.V1 m c main_v4 : S128x8.Idx → EReal) (ix2 h (⟨j.val, by omega⟩ : Fin 8)) = (m ((c : Thread nD τ).loc main_arg10) : S128x2.Idx → EReal) (ix2 h j))
    (hW2b : ∀ (h : Fin 128) (j : Fin 2), (Hand.V1 m c main_v4 : S128x8.Idx → EReal) (ix2 h (⟨2 + j.val, by omega⟩ : Fin 8)) = (m ((c : Thread nD τ).loc main_arg12) : S128x2.Idx → EReal) (ix2 h j))
    (hW2c : ∀ (h : Fin 128) (j : Fin 2), (Hand.V1 m c main_v4 : S128x8.Idx → EReal) (ix2 h (⟨4 + j.val, by omega⟩ : Fin 8)) = (m ((c : Thread nD τ).loc main_arg14) : S128x2.Idx → EReal) (ix2 h j))
    (hB2 : ∀ j : Fin 2, (Hand.V1 m c main_v9 : S1x8.Idx → EReal) (ix2 (0 : Fin 1) (⟨4 + j.val, by omega⟩ : Fin 8)) = (m ((c : Thread nD τ).loc main_arg15) : S2.Idx → EReal) (ix1 j))
    (hCb : ∀ j : Fin 2, (Hand.V1 m c main_v15 : S1x8.Idx → EReal) (ix2 (0 : Fin 1) (⟨4 + j.val, by omega⟩ : Fin 8))
      = asE ((m ((c : Thread nD τ).loc main_arg11) : S2.Idx → EReal) (ix1 j)) + asE ((m ((c : Thread nD τ).loc main_arg13) : S2.Idx → EReal) (ix1 j))) :
    (dat2 (Hand.V3 m) c).arrAt 3 cfg2.N = resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have a0 : (Hand.V1 m c main_arg0 : S10000x768.Idx → EReal) = m ((c : Thread nD τ).loc main_arg0) := Hand.V1_of_launch m c main_arg0 (by decide)
  have a1 : (Hand.V1 m c main_arg1 : S10000x10000.Idx → EReal) = m ((c : Thread nD τ).loc main_arg1) := Hand.V1_of_launch m c main_arg1 (by decide)
  have a2 : (Hand.V1 m c main_arg2 : S10000x10000.Idx → EReal) = m ((c : Thread nD τ).loc main_arg2) := Hand.V1_of_launch m c main_arg2 (by decide)
  have a9 : (Hand.V1 m c main_arg9 : S384x3.Idx → EReal) = m ((c : Thread nD τ).loc main_arg9) := Hand.V1_of_launch m c main_arg9 (by decide)
  -- what the first region left
  have hsc : (Hand.V2 m c main_v17_0 : S10000x256.Idx → EReal) = scatOf (m ((c : Thread nD τ).loc main_arg0)) (Hand.V1 m c main_v0) :=
    (Hand.V2_main_v17_0 m c).trans ((final0_3 (Hand.V1 m) c).trans (scatOf_congr a0))
  have hxm : (Hand.V2 m c main_v17_1 : S10000x128.Idx → EReal)
      = x1mOf (m ((c : Thread nD τ).loc main_arg0)) (Hand.V1 m c main_v0) (Hand.V1 m c main_v16) :=
    (Hand.V2_main_v17_1 m c).trans ((final0_4 (Hand.V1 m) c).trans (x1mOf_congr a0))
  -- what the second region left
  have hz : (Hand.V3 m c main_v18 : S10000x8.Idx → EReal)
      = z6Of (m ((c : Thread nD τ).loc main_arg1)) (m ((c : Thread nD τ).loc main_arg2))
          (scatOf (m ((c : Thread nD τ).loc main_arg0)) (Hand.V1 m c main_v0))
          (x1mOf (m ((c : Thread nD τ).loc main_arg0)) (Hand.V1 m c main_v0) (Hand.V1 m c main_v16))
          (Hand.V1 m c main_v2) (m ((c : Thread nD τ).loc main_arg9)) (Hand.V1 m c main_v4) (Hand.V1 m c main_v9) (Hand.V1 m c main_v15) :=
    (Hand.V3_main_v18 m c).trans ((final1_9 (Hand.V2 m) c).trans (z6Of_congr
      ((Hand.V2_of m c main_arg1 (by decide)).trans a1) ((Hand.V2_of m c main_arg2 (by decide)).trans a2) hsc hxm
      (Hand.V2_of m c main_v2 (by decide)) ((Hand.V2_of m c main_arg9 (by decide)).trans a9)
      (Hand.V2_of m c main_v4 (by decide)) (Hand.V2_of m c main_v9 (by decide)) (Hand.V2_of m c main_v15 (by decide))))
  refine (final2_3 (Hand.V3 m) c).trans ((outOf_congr ((Hand.V3_of_V1 m c main_arg1 (by decide)).trans a1)
    ((Hand.V3_of_V1 m c main_arg2 (by decide)).trans a2) hz).trans ?_)
  exact eq_resultArr _ _ _ _ _ _ _ _ _ _ _ _ _ _ _ _ _ (fun p q =>
    compose_eq (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) (m ((c : Thread nD τ).loc main_arg9))
      (m ((c : Thread nD τ).loc main_arg10)) (m ((c : Thread nD τ).loc main_arg12)) (m ((c : Thread nD τ).loc main_arg14)) (m ((c : Thread nD τ).loc main_arg11)) (m ((c : Thread nD τ).loc main_arg13)) (m ((c : Thread nD τ).loc main_arg15))
      (Hand.V1 m c main_v0) (Hand.V1 m c main_v16) (Hand.V1 m c main_v2) (Hand.V1 m c main_v4) (Hand.V1 m c main_v9) (Hand.V1 m c main_v15)
      hWc1 hWc2 hWc3 hBm hB1a hB1b hW2a hW2b hW2c hB2 hCb p q)

/-- The kernel's result array after its run is the specification's result array of the argument arrays. -/
theorem kernel_value (m : (ℓ : Loc nD τ sig) → Buf (Elt Ideal) ℓ) (c : Dev nD) :
    (dat2 (Hand.V3 m) c).arrAt 3 cfg2.N = resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  kernel_value_of m c (v0_at_0 m c) (v0_at_1 m c) (v0_at_2 m c) (v16_at m c) (v2_at_0 m c) (v2_at_1 m c)
    (v4_at_0 m c) (v4_at_1 m c) (v4_at_2 m c) (v9_at m c) (fun j => (v15_at m c j).trans rfl)

end Cert.KernelIdeal.KValue

end
-- ==== Proof.RefRead.lean ====
/-
  The reference's generated run and its read-at-an-index lemmas, brought into scope for the modules that
  state what the reference computes.
-/
import proofs.«110970_g76141180223726_cont_sun_m_824_6_alg».proof.Proof.Gen.ReferenceIdeal.Read
-- ==== Proof.RefLib.lean ====
/-
  General facts used to read the reference at an index, none of which mentions a program:
  * a sum over 384 indices is the sum of the sums over its three blocks of 128;
  * a concatenation of three arrays of one shape along their last axis, read at an index, is the piece whose block
    holds the coordinate on that axis (three columns blocks of width 128, and three unit slabs stacked to depth 3);
  * a maximum-reduce of a three-column array from the bit pattern of minus infinity is, at a row, the fold of `max`
    from the bottom element over the row's three entries.
-/
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx

/-- Two indices of a one-axis shape with the same coordinate are equal. -/
theorem idx1_ext {n : Nat} {i j : (⟨1, ![n]⟩ : Shape).Idx} (h0 : (i 0).val = (j 0).val) : i = j :=
  funext fun a => Fin.ext (by match a with | ⟨0, _⟩ => exact h0)

/-- Two indices of a two-axis shape with the same coordinates are equal. -/
theorem idx2_ext {n0 n1 : Nat} {i j : (⟨2, ![n0, n1]⟩ : Shape).Idx} (h0 : (i 0).val = (j 0).val) (h1 : (i 1).val = (j 1).val) :
    i = j :=
  funext fun a => Fin.ext (by match a with | ⟨0, _⟩ => exact h0 | ⟨1, _⟩ => exact h1)

/-- Two indices of a three-axis shape with the same coordinates are equal. -/
theorem idx3_ext {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- A sum over 384 indices is the sum of the sums over its three blocks of 128. -/
theorem sum_three_blocks {M : Type} [AddCommMonoid M] (f : Fin 384 → M) :
    ∑ k : Fin 384, f k = (∑ k : Fin 128, f ⟨k.val, by omega⟩) + (∑ k : Fin 128, f ⟨128 + k.val, by omega⟩)
      + (∑ k : Fin 128, f ⟨256 + k.val, by omega⟩) := by
  have h1 := Fin.sum_univ_add (a := 256) (b := 128) f
  have h2 := Fin.sum_univ_add (a := 128) (b := 128) (fun i : Fin 256 => f (Fin.castAdd 128 i))
  rw [h1, h2]
  rfl

/-- The bit pattern `0xFF800000` is minus infinity, the bottom element of the extended reals. -/
theorem neg_inf_bits : Ideal.ofBits .f32 0xFF800000#32 = (⊥ : EReal) := by simp [Ideal.ofBits, Ideal.ieee]

section Columns

variable {α : Type} (y0 y1 y2 : (⟨2, ![10000, 128]⟩ : Shape).Idx → α)
  (h : Shape.Concatenates [(⟨2, ![10000, 128]⟩ : Shape), ⟨2, ![10000, 128]⟩, ⟨2, ![10000, 128]⟩] ⟨2, ![10000, 384]⟩ 1)
  (p : Fin 10000) (k : Fin 128)

/-- Three blocks of 128 columns side by side: columns 0..127 are the first block. -/
theorem concat_cols_0 :
    concatenate ⟨2, ![10000, 384]⟩ 1 [⟨⟨2, ![10000, 128]⟩, y0⟩, ⟨⟨2, ![10000, 128]⟩, y1⟩, ⟨⟨2, ![10000, 128]⟩, y2⟩] h
      (ix2 p (⟨k.val, by omega⟩ : Fin 384)) = y0 (ix2 p k) :=
  concatenate_apply_piece 1 [⟨⟨2, ![10000, 128]⟩, y0⟩, ⟨⟨2, ![10000, 128]⟩, y1⟩, ⟨⟨2, ![10000, 128]⟩, y2⟩] h _ 0 (by show _ < 3; omega) _ y0 rfl rfl 0 rfl (ix2 p k)
    (fun b hb => by match b with | ⟨0, _⟩ => rfl | ⟨1, _⟩ => exact absurd rfl hb) (Nat.zero_add _)

/-- Columns 128..255 are the second block. -/
theorem concat_cols_1 :
    concatenate ⟨2, ![10000, 384]⟩ 1 [⟨⟨2, ![10000, 128]⟩, y0⟩, ⟨⟨2, ![10000, 128]⟩, y1⟩, ⟨⟨2, ![10000, 128]⟩, y2⟩] h
      (ix2 p (⟨128 + k.val, by omega⟩ : Fin 384)) = y1 (ix2 p k) :=
  concatenate_apply_piece 1 [⟨⟨2, ![10000, 128]⟩, y0⟩, ⟨⟨2, ![10000, 128]⟩, y1⟩, ⟨⟨2, ![10000, 128]⟩, y2⟩] h _ 1 (by show _ < 3; omega) _ y1 rfl rfl 128 rfl (ix2 p k)
    (fun b hb => by match b with | ⟨0, _⟩ => rfl | ⟨1, _⟩ => exact absurd rfl hb) rfl

/-- Columns 256..383 are the third block. -/
theorem concat_cols_2 :
    concatenate ⟨2, ![10000, 384]⟩ 1 [⟨⟨2, ![10000, 128]⟩, y0⟩, ⟨⟨2, ![10000, 128]⟩, y1⟩, ⟨⟨2, ![10000, 128]⟩, y2⟩] h
      (ix2 p (⟨256 + k.val, by omega⟩ : Fin 384)) = y2 (ix2 p k) :=
  concatenate_apply_piece 1 [⟨⟨2, ![10000, 128]⟩, y0⟩, ⟨⟨2, ![10000, 128]⟩, y1⟩, ⟨⟨2, ![10000, 128]⟩, y2⟩] h _ 2 (by show _ < 3; omega) _ y2 rfl rfl 256 rfl (ix2 p k)
    (fun b hb => by match b with | ⟨0, _⟩ => rfl | ⟨1, _⟩ => exact absurd rfl hb) rfl

end Columns

section Slabs

variable {α : Type} (y0 y1 y2 : (⟨3, ![10000, 128, 1]⟩ : Shape).Idx → α)
  (h : Shape.Concatenates [(⟨3, ![10000, 128, 1]⟩ : Shape), ⟨3, ![10000, 128, 1]⟩, ⟨3, ![10000, 128, 1]⟩] ⟨3, ![10000, 128, 3]⟩ 2)
  (p : Fin 10000) (q : Fin 128)

/-- Three unit slabs stacked along the last axis: depth 0 is the first slab. -/
theorem concat_slabs_0 :
    concatenate ⟨3, ![10000, 128, 3]⟩ 2 [⟨⟨3, ![10000, 128, 1]⟩, y0⟩, ⟨⟨3, ![10000, 128, 1]⟩, y1⟩, ⟨⟨3, ![10000, 128, 1]⟩, y2⟩] h
      (ix3 p q (0 : Fin 3)) = y0 (ix3 p q (0 : Fin 1)) :=
  concatenate_apply_piece 2 [⟨⟨3, ![10000, 128, 1]⟩, y0⟩, ⟨⟨3, ![10000, 128, 1]⟩, y1⟩, ⟨⟨3, ![10000, 128, 1]⟩, y2⟩] h _ 0 (by show _ < 3; omega) _ y0 rfl rfl 0 rfl (ix3 p q (0 : Fin 1))
    (fun b hb => by match b with | ⟨0, _⟩ => rfl | ⟨1, _⟩ => rfl | ⟨2, _⟩ => exact absurd rfl hb) rfl

/-- Depth 1 is the second slab. -/
theorem concat_slabs_1 :
    concatenate ⟨3, ![10000, 128, 3]⟩ 2 [⟨⟨3, ![10000, 128, 1]⟩, y0⟩, ⟨⟨3, ![10000, 128, 1]⟩, y1⟩, ⟨⟨3, ![10000, 128, 1]⟩, y2⟩] h
      (ix3 p q (1 : Fin 3)) = y1 (ix3 p q (0 : Fin 1)) :=
  concatenate_apply_piece 2 [⟨⟨3, ![10000, 128, 1]⟩, y0⟩, ⟨⟨3, ![10000, 128, 1]⟩, y1⟩, ⟨⟨3, ![10000, 128, 1]⟩, y2⟩] h _ 1 (by show _ < 3; omega) _ y1 rfl rfl 1 rfl (ix3 p q (0 : Fin 1))
    (fun b hb => by match b with | ⟨0, _⟩ => rfl | ⟨1, _⟩ => rfl | ⟨2, _⟩ => exact absurd rfl hb) rfl

/-- Depth 2 is the third slab. -/
theorem concat_slabs_2 :
    concatenate ⟨3, ![10000, 128, 3]⟩ 2 [⟨⟨3, ![10000, 128, 1]⟩, y0⟩, ⟨⟨3, ![10000, 128, 1]⟩, y1⟩, ⟨⟨3, ![10000, 128, 1]⟩, y2⟩] h
      (ix3 p q (2 : Fin 3)) = y2 (ix3 p q (0 : Fin 1)) :=
  concatenate_apply_piece 2 [⟨⟨3, ![10000, 128, 1]⟩, y0⟩, ⟨⟨3, ![10000, 128, 1]⟩, y1⟩, ⟨⟨3, ![10000, 128, 1]⟩, y2⟩] h _ 2 (by show _ < 3; omega) _ y2 rfl rfl 2 rfl (ix3 p q (0 : Fin 1))
    (fun b hb => by match b with | ⟨0, _⟩ => rfl | ⟨1, _⟩ => rfl | ⟨2, _⟩ => exact absurd rfl hb) rfl

end Slabs

/-- A row index of the reduced shape with the column put back is the index (row, column). -/
theorem lift_row3 (h : (⟨2, ![10000, 3]⟩ : Shape).Reduces [1] (⟨1, ![10000]⟩ : Shape)) (p : Fin 10000)
    (k : Fin ((⟨2, ![10000, 3]⟩ : Shape).size 1)) : h.lift (ix1 p) k = ix2 p (⟨k.val, k.isLt⟩ : Fin 3) := by
  funext c; apply Fin.ext
  fin_cases c <;> rfl

/-- From minus infinity, the maximum-reduce of a three-column array along its columns is, at row `p`, the fold of
    `max` from the bottom element over the row's three entries. -/
theorem reduce_max_row3 (x : (⟨2, ![10000, 3]⟩ : Shape).Idx → Ideal .f32)
    (h' : (⟨2, ![10000, 3]⟩ : Shape).ReducesTo [1] (⟨1, ![10000]⟩ : Shape)) (hu : 0 < (⟨0, ![]⟩ : Shape).numel) (p : Fin 10000) :
    Host.reduce FloatOps.maximumf x (constant (F := Ideal) (⟨0, ![]⟩ : Shape) .f32 0xFF800000#32) h' hu (ix1 p)
      = (Finset.univ : Finset (Fin 3)).fold max (⊥ : EReal) (fun a => x (ix2 p a)) := by
  have h : (⟨2, ![10000, 3]⟩ : Shape).Reduces [1] (⟨1, ![10000]⟩ : Shape) := by decide
  rw [Host.reduce_eq_fold_single FloatOps.maximumf x _ h' h hu]
  have hf : (x ∘ h.lift (ix1 p)) = fun a : Fin 3 => x (ix2 p a) := funext fun a => congrArg x (lift_row3 h p a)
  have hb : constant (F := Ideal) (⟨0, ![]⟩ : Shape) .f32 0xFF800000#32 (Shape.Idx.first hu) = (⊥ : EReal) := neg_inf_bits
  rw [hb]
  exact congrArg (fun f => Finset.fold max (⊥ : EReal) f (Finset.univ : Finset (Fin 3))) hf

end Cert.ReferenceIdeal.RefValue

end
-- ==== Proof.RefLayer1.lean ====
/-
  Layer one of the reference read at an entry: each of the two graph branches is the adjacency times the projected
  features plus the bias of the column, the dense branch the squashed projection plus bias — the three branch functions
  of the specification.
-/
import proofs.«110970_g76141180223726_cont_sun_m_824_6_alg».proof.Proof.RefRead
import proofs.«110970_g76141180223726_cont_sun_m_824_6_alg».proof.Proof.SpecIdx
import proofs.«110970_g76141180223726_cont_sun_m_824_6_alg».proof.Proof.RefLib

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S10000x768, .f32⟩ : BufTy).Contents (Elt Ideal)) (x1 x2 : (⟨S10000x10000, .f32⟩ : BufTy).Contents (Elt Ideal))
  (x3 : (⟨S768x128, .f32⟩ : BufTy).Contents (Elt Ideal)) (x4 : (⟨S128, .f32⟩ : BufTy).Contents (Elt Ideal))
  (x5 : (⟨S768x128, .f32⟩ : BufTy).Contents (Elt Ideal)) (x6 : (⟨S128, .f32⟩ : BufTy).Contents (Elt Ideal))
  (x7 : (⟨S768x128, .f32⟩ : BufTy).Contents (Elt Ideal)) (x8 : (⟨S128, .f32⟩ : BufTy).Contents (Elt Ideal))
  (x9 : (⟨S384x3, .f32⟩ : BufTy).Contents (Elt Ideal))
  (x10 : (⟨S128x2, .f32⟩ : BufTy).Contents (Elt Ideal)) (x11 : (⟨S2, .f32⟩ : BufTy).Contents (Elt Ideal))
  (x12 : (⟨S128x2, .f32⟩ : BufTy).Contents (Elt Ideal)) (x13 : (⟨S2, .f32⟩ : BufTy).Contents (Elt Ideal))
  (x14 : (⟨S128x2, .f32⟩ : BufTy).Contents (Elt Ideal)) (x15 : (⟨S2, .f32⟩ : BufTy).Contents (Elt Ideal))

/-- The projection `X W` read at an entry is the matrix product of the specification. -/
theorem v0_at (p : Fin 10000) (q : Fin 128) :
    val_main_v0 (F := Ideal) x0 x3 (ix2 p q) = mm (ofArr2 x0) (ofArr2 x3) p q := by
  rw [val_main_v0_apply]
  show _ = ∑ c : Fin 768, ofArr2 x0 p c * ofArr2 x3 c q
  refine Finset.sum_congr rfl fun k _ => ?_
  rw [show lidx_main_v0 (ix2 p q) k = ix2 p k from idx2_ext rfl rfl,
    show ridx_main_v0 (ix2 p q) k = ix2 k q from idx2_ext rfl rfl]

/-- The adjacency times the projected features, read at an entry. -/
theorem v1_at (p : Fin 10000) (q : Fin 128) :
    val_main_v1 (F := Ideal) x0 x1 x3 (ix2 p q) = mm (ofArr2 x1) (mm (ofArr2 x0) (ofArr2 x3)) p q := by
  rw [val_main_v1_apply]
  show _ = ∑ c : Fin 10000, ofArr2 x1 p c * mm (ofArr2 x0) (ofArr2 x3) c q
  refine Finset.sum_congr rfl fun k _ => ?_
  rw [show lidx_main_v1 (ix2 p q) k = ix2 p k from idx2_ext rfl rfl,
    show ridx_main_v1 (ix2 p q) k = ix2 k q from idx2_ext rfl rfl, v0_at]

/-- The bias broadcast over the rows, read at an entry, is the bias of the column. -/
theorem v3_at (p : Fin 10000) (q : Fin 128) : val_main_v3 (F := Ideal) x4 (ix2 p q) = ofArr1 x4 q := by
  rw [val_main_v3_apply, val_main_v2_apply,
    show idx_main_v2 (idx_main_v3 (ix2 p q)) = ix1 q from idx1_ext rfl]

/-- A graph branch of layer one is the specification's branch. -/
theorem v4_at (p : Fin 10000) (q : Fin 128) :
    val_main_v4 (F := Ideal) x0 x1 x3 x4 (ix2 p q) = branch (ofArr2 x1) (ofArr2 x0) (ofArr2 x3) (ofArr1 x4) p q := by
  rw [val_main_v4_apply, v1_at, v3_at]
  rfl

/-- The projection `X W` read at an entry is the matrix product of the specification. -/
theorem v5_at (p : Fin 10000) (q : Fin 128) :
    val_main_v5 (F := Ideal) x0 x5 (ix2 p q) = mm (ofArr2 x0) (ofArr2 x5) p q := by
  rw [val_main_v5_apply]
  show _ = ∑ c : Fin 768, ofArr2 x0 p c * ofArr2 x5 c q
  refine Finset.sum_congr rfl fun k _ => ?_
  rw [show lidx_main_v5 (ix2 p q) k = ix2 p k from idx2_ext rfl rfl,
    show ridx_main_v5 (ix2 p q) k = ix2 k q from idx2_ext rfl rfl]

/-- The adjacency times the projected features, read at an entry. -/
theorem v6_at (p : Fin 10000) (q : Fin 128) :
    val_main_v6 (F := Ideal) x0 x2 x5 (ix2 p q) = mm (ofArr2 x2) (mm (ofArr2 x0) (ofArr2 x5)) p q := by
  rw [val_main_v6_apply]
  show _ = ∑ c : Fin 10000, ofArr2 x2 p c * mm (ofArr2 x0) (ofArr2 x5) c q
  refine Finset.sum_congr rfl fun k _ => ?_
  rw [show lidx_main_v6 (ix2 p q) k = ix2 p k from idx2_ext rfl rfl,
    show ridx_main_v6 (ix2 p q) k = ix2 k q from idx2_ext rfl rfl, v5_at]

/-- The bias broadcast over the rows, read at an entry, is the bias of the column. -/
theorem v8_at (p : Fin 10000) (q : Fin 128) : val_main_v8 (F := Ideal) x6 (ix2 p q) = ofArr1 x6 q := by
  rw [val_main_v8_apply, val_main_v7_apply,
    show idx_main_v7 (idx_main_v8 (ix2 p q)) = ix1 q from idx1_ext rfl]

/-- A graph branch of layer one is the specification's branch. -/
theorem v9_at (p : Fin 10000) (q : Fin 128) :
    val_main_v9 (F := Ideal) x0 x2 x5 x6 (ix2 p q) = branch (ofArr2 x2) (ofArr2 x0) (ofArr2 x5) (ofArr1 x6) p q := by
  rw [val_main_v9_apply, v6_at, v8_at]
  rfl

/-- The projection `X W` read at an entry is the matrix product of the specification. -/
theorem v10_at (p : Fin 10000) (q : Fin 128) :
    val_main_v10 (F := Ideal) x0 x7 (ix2 p q) = mm (ofArr2 x0) (ofArr2 x7) p q := by
  rw [val_main_v10_apply]
  show _ = ∑ c : Fin 768, ofArr2 x0 p c * ofArr2 x7 c q
  refine Finset.sum_congr rfl fun k _ => ?_
  rw [show lidx_main_v10 (ix2 p q) k = ix2 p k from idx2_ext rfl rfl,
    show ridx_main_v10 (ix2 p q) k = ix2 k q from idx2_ext rfl rfl]

/-- The bias broadcast over the rows, read at an entry, is the bias of the column. -/
theorem v12_at (p : Fin 10000) (q : Fin 128) : val_main_v12 (F := Ideal) x8 (ix2 p q) = ofArr1 x8 q := by
  rw [val_main_v12_apply, val_main_v11_apply,
    show idx_main_v11 (idx_main_v12 (ix2 p q)) = ix1 q from idx1_ext rfl]

/-- The dense branch of layer one is the specification's dense branch. -/
theorem v14_at (p : Fin 10000) (q : Fin 128) :
    val_main_v14 (F := Ideal) x0 x7 x8 (ix2 p q) = dense (ofArr2 x0) (ofArr2 x7) (ofArr1 x8) p q := by
  rw [val_main_v14_apply, val_main_v13_apply, v10_at, v12_at]
  rfl

end Cert.ReferenceIdeal.RefValue

end
-- ==== Proof.RefAttn.lean ====
/-
  The attention weights of the reference read at an entry: the logits are the joined branches against the attention
  matrix, a sum over 384 columns that splits into the three blocks of 128 — one per branch —; their absolute values
  are shifted by the row's maximum (the maximum-reduce from minus infinity, and a further maximum with minus infinity
  that changes nothing), exponentiated, and divided by the row's sum: the specification's weights.
-/
import proofs.«110970_g76141180223726_cont_sun_m_824_6_alg».proof.Proof.RefLayer1

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S10000x768, .f32⟩ : BufTy).Contents (Elt Ideal)) (x1 x2 : (⟨S10000x10000, .f32⟩ : BufTy).Contents (Elt Ideal))
  (x3 : (⟨S768x128, .f32⟩ : BufTy).Contents (Elt Ideal)) (x4 : (⟨S128, .f32⟩ : BufTy).Contents (Elt Ideal))
  (x5 : (⟨S768x128, .f32⟩ : BufTy).Contents (Elt Ideal)) (x6 : (⟨S128, .f32⟩ : BufTy).Contents (Elt Ideal))
  (x7 : (⟨S768x128, .f32⟩ : BufTy).Contents (Elt Ideal)) (x8 : (⟨S128, .f32⟩ : BufTy).Contents (Elt Ideal))
  (x9 : (⟨S384x3, .f32⟩ : BufTy).Contents (Elt Ideal))
  (x10 : (⟨S128x2, .f32⟩ : BufTy).Contents (Elt Ideal)) (x11 : (⟨S2, .f32⟩ : BufTy).Contents (Elt Ideal))
  (x12 : (⟨S128x2, .f32⟩ : BufTy).Contents (Elt Ideal)) (x13 : (⟨S2, .f32⟩ : BufTy).Contents (Elt Ideal))
  (x14 : (⟨S128x2, .f32⟩ : BufTy).Contents (Elt Ideal)) (x15 : (⟨S2, .f32⟩ : BufTy).Contents (Elt Ideal))

/-- The joined branches: columns 0..127 are the first graph branch. -/
theorem v15_at_0 (p : Fin 10000) (k : Fin 128) :
    val_main_v15 (F := Ideal) x0 x1 x2 x3 x4 x5 x6 x7 x8 (ix2 p (⟨k.val, by omega⟩ : Fin 384)) = (branch (ofArr2 x1) (ofArr2 x0) (ofArr2 x3) (ofArr1 x4)) p k :=
  (concat_cols_0 _ _ _ _ p k).trans (v4_at x0 x1 x3 x4 p k)

/-- Columns 128..255 are the second graph branch. -/
theorem v15_at_1 (p : Fin 10000) (k : Fin 128) :
    val_main_v15 (F := Ideal) x0 x1 x2 x3 x4 x5 x6 x7 x8 (ix2 p (⟨128 + k.val, by omega⟩ : Fin 384)) = (branch (ofArr2 x2) (ofArr2 x0) (ofArr2 x5) (ofArr1 x6)) p k :=
  (concat_cols_1 _ _ _ _ p k).trans (v9_at x0 x2 x5 x6 p k)

/-- Columns 256..383 are the dense branch. -/
theorem v15_at_2 (p : Fin 10000) (k : Fin 128) :
    val_main_v15 (F := Ideal) x0 x1 x2 x3 x4 x5 x6 x7 x8 (ix2 p (⟨256 + k.val, by omega⟩ : Fin 384)) = (dense (ofArr2 x0) (ofArr2 x7) (ofArr1 x8)) p k :=
  (concat_cols_2 _ _ _ _ p k).trans (v14_at x0 x7 x8 p k)

/-- The logits: the sum over the 384 joined columns is the three sums over the blocks. -/
theorem v16_at (p : Fin 10000) (a : Fin 3) :
    val_main_v16 (F := Ideal) x0 x1 x2 x3 x4 x5 x6 x7 x8 x9 (ix2 p a) = (logits (branch (ofArr2 x1) (ofArr2 x0) (ofArr2 x3) (ofArr1 x4)) (branch (ofArr2 x2) (ofArr2 x0) (ofArr2 x5) (ofArr1 x6)) (dense (ofArr2 x0) (ofArr2 x7) (ofArr1 x8)) (ofArr2 x9)) p a := by
  rw [val_main_v16_apply]
  have e : ∀ c : Fin 384, val_main_v15 (F := Ideal) x0 x1 x2 x3 x4 x5 x6 x7 x8 (lidx_main_v16 (ix2 p a) c) * x9 (ridx_main_v16 (ix2 p a) c)
      = val_main_v15 (F := Ideal) x0 x1 x2 x3 x4 x5 x6 x7 x8 (ix2 p c) * ofArr2 x9 c a := fun c => by
    rw [show lidx_main_v16 (ix2 p a) c = ix2 p c from idx2_ext rfl rfl,
      show ridx_main_v16 (ix2 p a) c = ix2 c a from idx2_ext rfl rfl]
  rw [Finset.sum_congr rfl (fun c _ => e c),
    sum_three_blocks (fun c => val_main_v15 (F := Ideal) x0 x1 x2 x3 x4 x5 x6 x7 x8 (ix2 p c) * ofArr2 x9 c a)]
  simp only [v15_at_0, v15_at_1, v15_at_2]
  rfl

/-- The absolute values of the logits. -/
theorem v17_at (p : Fin 10000) (a : Fin 3) :
    val_main_v17 (F := Ideal) x0 x1 x2 x3 x4 x5 x6 x7 x8 x9 (ix2 p a) = (absv (logits (branch (ofArr2 x1) (ofArr2 x0) (ofArr2 x3) (ofArr1 x4)) (branch (ofArr2 x2) (ofArr2 x0) (ofArr2 x5) (ofArr1 x6)) (dense (ofArr2 x0) (ofArr2 x7) (ofArr1 x8)) (ofArr2 x9))) p a := by
  rw [val_main_v17_apply, v16_at]
  rfl

/-- The maximum-reduce from minus infinity is the row's maximum. -/
theorem v18_at (p : Fin 10000) :
    val_main_v18 (F := Ideal) x0 x1 x2 x3 x4 x5 x6 x7 x8 x9 (ix1 p) = rowmax (absv (logits (branch (ofArr2 x1) (ofArr2 x0) (ofArr2 x3) (ofArr1 x4)) (branch (ofArr2 x2) (ofArr2 x0) (ofArr2 x5) (ofArr1 x6)) (dense (ofArr2 x0) (ofArr2 x7) (ofArr1 x8)) (ofArr2 x9))) p := by
  refine (reduce_max_row3 _ _ _ p).trans ?_
  simp only [v17_at]
  rfl

/-- The maximum of minus infinity and the row's maximum is the row's maximum. -/
theorem v20_at (p : Fin 10000) :
    val_main_v20 (F := Ideal) x0 x1 x2 x3 x4 x5 x6 x7 x8 x9 (ix1 p) = rowmax (absv (logits (branch (ofArr2 x1) (ofArr2 x0) (ofArr2 x3) (ofArr1 x4)) (branch (ofArr2 x2) (ofArr2 x0) (ofArr2 x5) (ofArr1 x6)) (dense (ofArr2 x0) (ofArr2 x7) (ofArr1 x8)) (ofArr2 x9))) p := by
  rw [val_main_v20_apply, val_main_v19_apply, val_main_cst_0_apply, v18_at]
  show max (Ideal.ofBits .f32 0xFF800000#32) _ = _
  rw [neg_inf_bits]
  exact max_eq_right bot_le

/-- The shifted exponentials. -/
theorem v24_at (p : Fin 10000) (a : Fin 3) :
    val_main_v24 (F := Ideal) x0 x1 x2 x3 x4 x5 x6 x7 x8 x9 (ix2 p a) = expo (absv (logits (branch (ofArr2 x1) (ofArr2 x0) (ofArr2 x3) (ofArr1 x4)) (branch (ofArr2 x2) (ofArr2 x0) (ofArr2 x5) (ofArr1 x6)) (dense (ofArr2 x0) (ofArr2 x7) (ofArr1 x8)) (ofArr2 x9))) p a := by
  rw [val_main_v24_apply, val_main_v23_apply, v17_at, val_main_v22_apply, val_main_v21_apply,
    show idx_main_v21 (idx_main_v22 (ix2 p a)) = ix1 p from idx1_ext rfl, v20_at]
  rfl

/-- The row's sum of the shifted exponentials: the sum-reduce from zero. -/
theorem v25_at (p : Fin 10000) :
    val_main_v25 (F := Ideal) x0 x1 x2 x3 x4 x5 x6 x7 x8 x9 (ix1 p) = ∑ a' : Fin 3, expo (absv (logits (branch (ofArr2 x1) (ofArr2 x0) (ofArr2 x3) (ofArr1 x4)) (branch (ofArr2 x2) (ofArr2 x0) (ofArr2 x5) (ofArr1 x6)) (dense (ofArr2 x0) (ofArr2 x7) (ofArr1 x8)) (ofArr2 x9))) p a' := by
  rw [val_main_v25_apply, val_main_cst_1_apply]
  show Ideal.ofBits .f32 0x00000000#32 + _ = _
  rw [Ideal.ofBits_zero_f32, zero_add]
  refine Finset.sum_congr rfl fun k _ => ?_
  rw [show idx_main_v25 (ix1 p) k = ix2 p k from idx2_ext rfl rfl, v24_at]

/-- The softmax weights. -/
theorem v28_at (p : Fin 10000) (a : Fin 3) :
    val_main_v28 (F := Ideal) x0 x1 x2 x3 x4 x5 x6 x7 x8 x9 (ix2 p a) = weights (absv (logits (branch (ofArr2 x1) (ofArr2 x0) (ofArr2 x3) (ofArr1 x4)) (branch (ofArr2 x2) (ofArr2 x0) (ofArr2 x5) (ofArr1 x6)) (dense (ofArr2 x0) (ofArr2 x7) (ofArr1 x8)) (ofArr2 x9))) p a := by
  rw [val_main_v28_apply, v24_at, val_main_v27_apply, val_main_v26_apply,
    show idx_main_v26 (idx_main_v27 (ix2 p a)) = ix1 p from idx1_ext rfl, v25_at]
  rfl

end Cert.ReferenceIdeal.RefValue

end
-- ==== Proof.RefFused.lean ====
/-
  The fused features of the reference read at an entry: the three branches stacked along a new last axis, each times
  the node's weight for it, summed over that axis from zero — the specification's fused features.
-/
import proofs.«110970_g76141180223726_cont_sun_m_824_6_alg».proof.Proof.RefAttn

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S10000x768, .f32⟩ : BufTy).Contents (Elt Ideal)) (x1 x2 : (⟨S10000x10000, .f32⟩ : BufTy).Contents (Elt Ideal))
  (x3 : (⟨S768x128, .f32⟩ : BufTy).Contents (Elt Ideal)) (x4 : (⟨S128, .f32⟩ : BufTy).Contents (Elt Ideal))
  (x5 : (⟨S768x128, .f32⟩ : BufTy).Contents (Elt Ideal)) (x6 : (⟨S128, .f32⟩ : BufTy).Contents (Elt Ideal))
  (x7 : (⟨S768x128, .f32⟩ : BufTy).Contents (Elt Ideal)) (x8 : (⟨S128, .f32⟩ : BufTy).Contents (Elt Ideal))
  (x9 : (⟨S384x3, .f32⟩ : BufTy).Contents (Elt Ideal))
  (x10 : (⟨S128x2, .f32⟩ : BufTy).Contents (Elt Ideal)) (x11 : (⟨S2, .f32⟩ : BufTy).Contents (Elt Ideal))
  (x12 : (⟨S128x2, .f32⟩ : BufTy).Contents (Elt Ideal)) (x13 : (⟨S2, .f32⟩ : BufTy).Contents (Elt Ideal))
  (x14 : (⟨S128x2, .f32⟩ : BufTy).Contents (Elt Ideal)) (x15 : (⟨S2, .f32⟩ : BufTy).Contents (Elt Ideal))

/-- The weights broadcast over the feature axis: entry (p, q, c) is the node's weight for branch c. -/
theorem v34_at (p : Fin 10000) (q : Fin 128) (c : Fin 3) :
    val_main_v34 (F := Ideal) x0 x1 x2 x3 x4 x5 x6 x7 x8 x9 (ix3 p q c) = (weights (absv (logits (branch (ofArr2 x1) (ofArr2 x0) (ofArr2 x3) (ofArr1 x4)) (branch (ofArr2 x2) (ofArr2 x0) (ofArr2 x5) (ofArr1 x6)) (dense (ofArr2 x0) (ofArr2 x7) (ofArr1 x8)) (ofArr2 x9)))) p c := by
  rw [val_main_v34_apply, val_main_v29_apply,
    show idx_main_v29 (idx_main_v34 (ix3 p q c)) = ix2 p c from idx2_ext rfl rfl, v28_at]

/-- The stacked branches: depth 0 is the first graph branch. -/
theorem v33_at_0 (p : Fin 10000) (q : Fin 128) :
    val_main_v33 (F := Ideal) x0 x1 x2 x3 x4 x5 x6 x7 x8 (ix3 p q (0 : Fin 3)) = (branch (ofArr2 x1) (ofArr2 x0) (ofArr2 x3) (ofArr1 x4)) p q :=
  (concat_slabs_0 _ _ _ _ p q).trans (by
    rw [val_main_v30_apply, show idx_main_v30 (ix3 p q (0 : Fin 1)) = ix2 p q from idx2_ext rfl rfl, v4_at])

/-- Depth 1 is the second graph branch. -/
theorem v33_at_1 (p : Fin 10000) (q : Fin 128) :
    val_main_v33 (F := Ideal) x0 x1 x2 x3 x4 x5 x6 x7 x8 (ix3 p q (1 : Fin 3)) = (branch (ofArr2 x2) (ofArr2 x0) (ofArr2 x5) (ofArr1 x6)) p q :=
  (concat_slabs_1 _ _ _ _ p q).trans (by
    rw [val_main_v31_apply, show idx_main_v31 (ix3 p q (0 : Fin 1)) = ix2 p q from idx2_ext rfl rfl, v9_at])

/-- Depth 2 is the dense branch. -/
theorem v33_at_2 (p : Fin 10000) (q : Fin 128) :
    val_main_v33 (F := Ideal) x0 x1 x2 x3 x4 x5 x6 x7 x8 (ix3 p q (2 : Fin 3)) = (dense (ofArr2 x0) (ofArr2 x7) (ofArr1 x8)) p q :=
  (concat_slabs_2 _ _ _ _ p q).trans (by
    rw [val_main_v32_apply, show idx_main_v32 (ix3 p q (0 : Fin 1)) = ix2 p q from idx2_ext rfl rfl, v14_at])

/-- The fused features: the sum over the three stacked, weighted branches. -/
theorem v36_at (p : Fin 10000) (q : Fin 128) :
    val_main_v36 (F := Ideal) x0 x1 x2 x3 x4 x5 x6 x7 x8 x9 (ix2 p q) = (hidden (ofArr2 x0) (ofArr2 x1) (ofArr2 x2) (ofArr2 x3) (ofArr1 x4) (ofArr2 x5) (ofArr1 x6) (ofArr2 x7) (ofArr1 x8) (ofArr2 x9)) p q := by
  rw [val_main_v36_apply, val_main_cst_2_apply]
  show Ideal.ofBits .f32 0x00000000#32 + _ = _
  rw [Ideal.ofBits_zero_f32, zero_add, Fin.sum_univ_three, val_main_v35_apply, val_main_v35_apply, val_main_v35_apply,
    show idx_main_v36 (ix2 p q) 0 = ix3 p q (0 : Fin 3) from idx3_ext rfl rfl rfl,
    show idx_main_v36 (ix2 p q) 1 = ix3 p q (1 : Fin 3) from idx3_ext rfl rfl rfl,
    show idx_main_v36 (ix2 p q) 2 = ix3 p q (2 : Fin 3) from idx3_ext rfl rfl rfl,
    v33_at_0, v33_at_1, v33_at_2, v34_at, v34_at, v34_at]
  rfl

end Cert.ReferenceIdeal.RefValue

end
-- ==== Proof.RefLayer2.lean ====
/-
  Layer two of the reference read at an entry, and the whole reference: the two graph branches and the dense branch of
  the fused features at width 2, added as (second + first) + dense, which is the specification's arrangement by
  commutativity and associativity of addition in the extended reals.
-/
import proofs.«110970_g76141180223726_cont_sun_m_824_6_alg».proof.Proof.RefFused

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S10000x768, .f32⟩ : BufTy).Contents (Elt Ideal)) (x1 x2 : (⟨S10000x10000, .f32⟩ : BufTy).Contents (Elt Ideal))
  (x3 : (⟨S768x128, .f32⟩ : BufTy).Contents (Elt Ideal)) (x4 : (⟨S128, .f32⟩ : BufTy).Contents (Elt Ideal))
  (x5 : (⟨S768x128, .f32⟩ : BufTy).Contents (Elt Ideal)) (x6 : (⟨S128, .f32⟩ : BufTy).Contents (Elt Ideal))
  (x7 : (⟨S768x128, .f32⟩ : BufTy).Contents (Elt Ideal)) (x8 : (⟨S128, .f32⟩ : BufTy).Contents (Elt Ideal))
  (x9 : (⟨S384x3, .f32⟩ : BufTy).Contents (Elt Ideal))
  (x10 : (⟨S128x2, .f32⟩ : BufTy).Contents (Elt Ideal)) (x11 : (⟨S2, .f32⟩ : BufTy).Contents (Elt Ideal))
  (x12 : (⟨S128x2, .f32⟩ : BufTy).Contents (Elt Ideal)) (x13 : (⟨S2, .f32⟩ : BufTy).Contents (Elt Ideal))
  (x14 : (⟨S128x2, .f32⟩ : BufTy).Contents (Elt Ideal)) (x15 : (⟨S2, .f32⟩ : BufTy).Contents (Elt Ideal))

/-- The fused features projected by a layer-two matrix, read at an entry. -/
theorem v37_at (p : Fin 10000) (q : Fin 2) :
    val_main_v37 (F := Ideal) x0 x1 x2 x3 x4 x5 x6 x7 x8 x9 x10 (ix2 p q) = mm (hidden (ofArr2 x0) (ofArr2 x1) (ofArr2 x2) (ofArr2 x3) (ofArr1 x4) (ofArr2 x5) (ofArr1 x6) (ofArr2 x7) (ofArr1 x8) (ofArr2 x9)) (ofArr2 x10) p q := by
  rw [val_main_v37_apply]
  show _ = ∑ c : Fin 128, (hidden (ofArr2 x0) (ofArr2 x1) (ofArr2 x2) (ofArr2 x3) (ofArr1 x4) (ofArr2 x5) (ofArr1 x6) (ofArr2 x7) (ofArr1 x8) (ofArr2 x9)) p c * ofArr2 x10 c q
  refine Finset.sum_congr rfl fun k _ => ?_
  rw [show lidx_main_v37 (ix2 p q) k = ix2 p k from idx2_ext rfl rfl,
    show ridx_main_v37 (ix2 p q) k = ix2 k q from idx2_ext rfl rfl, v36_at]

/-- The adjacency times the projected fused features, read at an entry. -/
theorem v38_at (p : Fin 10000) (q : Fin 2) :
    val_main_v38 (F := Ideal) x0 x1 x2 x3 x4 x5 x6 x7 x8 x9 x10 (ix2 p q) = mm (ofArr2 x1) (mm (hidden (ofArr2 x0) (ofArr2 x1) (ofArr2 x2) (ofArr2 x3) (ofArr1 x4) (ofArr2 x5) (ofArr1 x6) (ofArr2 x7) (ofArr1 x8) (ofArr2 x9)) (ofArr2 x10)) p q := by
  rw [val_main_v38_apply]
  show _ = ∑ c : Fin 10000, ofArr2 x1 p c * mm (hidden (ofArr2 x0) (ofArr2 x1) (ofArr2 x2) (ofArr2 x3) (ofArr1 x4) (ofArr2 x5) (ofArr1 x6) (ofArr2 x7) (ofArr1 x8) (ofArr2 x9)) (ofArr2 x10) c q
  refine Finset.sum_congr rfl fun k _ => ?_
  rw [show lidx_main_v38 (ix2 p q) k = ix2 p k from idx2_ext rfl rfl,
    show ridx_main_v38 (ix2 p q) k = ix2 k q from idx2_ext rfl rfl, v37_at]

/-- The layer-two bias broadcast over the rows, read at an entry, is the bias of the column. -/
theorem v40_at (p : Fin 10000) (q : Fin 2) : val_main_v40 (F := Ideal) x11 (ix2 p q) = ofArr1 x11 q := by
  rw [val_main_v40_apply, val_main_v39_apply,
    show idx_main_v39 (idx_main_v40 (ix2 p q)) = ix1 q from idx1_ext rfl]

/-- The fused features projected by a layer-two matrix, read at an entry. -/
theorem v42_at (p : Fin 10000) (q : Fin 2) :
    val_main_v42 (F := Ideal) x0 x1 x2 x3 x4 x5 x6 x7 x8 x9 x12 (ix2 p q) = mm (hidden (ofArr2 x0) (ofArr2 x1) (ofArr2 x2) (ofArr2 x3) (ofArr1 x4) (ofArr2 x5) (ofArr1 x6) (ofArr2 x7) (ofArr1 x8) (ofArr2 x9)) (ofArr2 x12) p q := by
  rw [val_main_v42_apply]
  show _ = ∑ c : Fin 128, (hidden (ofArr2 x0) (ofArr2 x1) (ofArr2 x2) (ofArr2 x3) (ofArr1 x4) (ofArr2 x5) (ofArr1 x6) (ofArr2 x7) (ofArr1 x8) (ofArr2 x9)) p c * ofArr2 x12 c q
  refine Finset.sum_congr rfl fun k _ => ?_
  rw [show lidx_main_v42 (ix2 p q) k = ix2 p k from idx2_ext rfl rfl,
    show ridx_main_v42 (ix2 p q) k = ix2 k q from idx2_ext rfl rfl, v36_at]

/-- The adjacency times the projected fused features, read at an entry. -/
theorem v43_at (p : Fin 10000) (q : Fin 2) :
    val_main_v43 (F := Ideal) x0 x1 x2 x3 x4 x5 x6 x7 x8 x9 x12 (ix2 p q) = mm (ofArr2 x2) (mm (hidden (ofArr2 x0) (ofArr2 x1) (ofArr2 x2) (ofArr2 x3) (ofArr1 x4) (ofArr2 x5) (ofArr1 x6) (ofArr2 x7) (ofArr1 x8) (ofArr2 x9)) (ofArr2 x12)) p q := by
  rw [val_main_v43_apply]
  show _ = ∑ c : Fin 10000, ofArr2 x2 p c * mm (hidden (ofArr2 x0) (ofArr2 x1) (ofArr2 x2) (ofArr2 x3) (ofArr1 x4) (ofArr2 x5) (ofArr1 x6) (ofArr2 x7) (ofArr1 x8) (ofArr2 x9)) (ofArr2 x12) c q
  refine Finset.sum_congr rfl fun k _ => ?_
  rw [show lidx_main_v43 (ix2 p q) k = ix2 p k from idx2_ext rfl rfl,
    show ridx_main_v43 (ix2 p q) k = ix2 k q from idx2_ext rfl rfl, v42_at]

/-- The layer-two bias broadcast over the rows, read at an entry, is the bias of the column. -/
theorem v45_at (p : Fin 10000) (q : Fin 2) : val_main_v45 (F := Ideal) x13 (ix2 p q) = ofArr1 x13 q := by
  rw [val_main_v45_apply, val_main_v44_apply,
    show idx_main_v44 (idx_main_v45 (ix2 p q)) = ix1 q from idx1_ext rfl]

/-- The fused features projected by a layer-two matrix, read at an entry. -/
theorem v47_at (p : Fin 10000) (q : Fin 2) :
    val_main_v47 (F := Ideal) x0 x1 x2 x3 x4 x5 x6 x7 x8 x9 x14 (ix2 p q) = mm (hidden (ofArr2 x0) (ofArr2 x1) (ofArr2 x2) (ofArr2 x3) (ofArr1 x4) (ofArr2 x5) (ofArr1 x6) (ofArr2 x7) (ofArr1 x8) (ofArr2 x9)) (ofArr2 x14) p q := by
  rw [val_main_v47_apply]
  show _ = ∑ c : Fin 128, (hidden (ofArr2 x0) (ofArr2 x1) (ofArr2 x2) (ofArr2 x3) (ofArr1 x4) (ofArr2 x5) (ofArr1 x6) (ofArr2 x7) (ofArr1 x8) (ofArr2 x9)) p c * ofArr2 x14 c q
  refine Finset.sum_congr rfl fun k _ => ?_
  rw [show lidx_main_v47 (ix2 p q) k = ix2 p k from idx2_ext rfl rfl,
    show ridx_main_v47 (ix2 p q) k = ix2 k q from idx2_ext rfl rfl, v36_at]

/-- The layer-two bias broadcast over the rows, read at an entry, is the bias of the column. -/
theorem v49_at (p : Fin 10000) (q : Fin 2) : val_main_v49 (F := Ideal) x15 (ix2 p q) = ofArr1 x15 q := by
  rw [val_main_v49_apply, val_main_v48_apply,
    show idx_main_v48 (idx_main_v49 (ix2 p q)) = ix1 q from idx1_ext rfl]

/-- **The reference is the specification**: its result at entry (p, q) is the specification's result there. -/
theorem reference_eq (p : Fin 10000) (q : Fin 2) :
    val_main_v53 (F := Ideal) x0 x1 x2 x3 x4 x5 x6 x7 x8 x9 x10 x11 x12 x13 x14 x15 (ix2 p q)
      = Cert.Spec.result (ofArr2 x0) (ofArr2 x1) (ofArr2 x2) (ofArr2 x3) (ofArr1 x4) (ofArr2 x5) (ofArr1 x6) (ofArr2 x7)
          (ofArr1 x8) (ofArr2 x9) (ofArr2 x10) (ofArr1 x11) (ofArr2 x12) (ofArr1 x13) (ofArr2 x14) (ofArr1 x15) p q := by
  rw [val_main_v53_apply, val_main_v52_apply, val_main_v46_apply, val_main_v41_apply, val_main_v51_apply, val_main_v50_apply,
    v43_at, v45_at, v38_at, v40_at, v47_at, v49_at]
  show (mm (ofArr2 x2) (mm (hidden (ofArr2 x0) (ofArr2 x1) (ofArr2 x2) (ofArr2 x3) (ofArr1 x4) (ofArr2 x5) (ofArr1 x6) (ofArr2 x7) (ofArr1 x8) (ofArr2 x9)) (ofArr2 x12)) p q + ofArr1 x13 q) + (mm (ofArr2 x1) (mm (hidden (ofArr2 x0) (ofArr2 x1) (ofArr2 x2) (ofArr2 x3) (ofArr1 x4) (ofArr2 x5) (ofArr1 x6) (ofArr2 x7) (ofArr1 x8) (ofArr2 x9)) (ofArr2 x10)) p q + ofArr1 x11 q)
      + Ideal.tanh (mm (hidden (ofArr2 x0) (ofArr2 x1) (ofArr2 x2) (ofArr2 x3) (ofArr1 x4) (ofArr2 x5) (ofArr1 x6) (ofArr2 x7) (ofArr1 x8) (ofArr2 x9)) (ofArr2 x14) p q + ofArr1 x15 q)
    = mm (ofArr2 x1) (mm (hidden (ofArr2 x0) (ofArr2 x1) (ofArr2 x2) (ofArr2 x3) (ofArr1 x4) (ofArr2 x5) (ofArr1 x6) (ofArr2 x7) (ofArr1 x8) (ofArr2 x9)) (ofArr2 x10)) p q + mm (ofArr2 x2) (mm (hidden (ofArr2 x0) (ofArr2 x1) (ofArr2 x2) (ofArr2 x3) (ofArr1 x4) (ofArr2 x5) (ofArr1 x6) (ofArr2 x7) (ofArr1 x8) (ofArr2 x9)) (ofArr2 x12)) p q
      + (Ideal.tanh (mm (hidden (ofArr2 x0) (ofArr2 x1) (ofArr2 x2) (ofArr2 x3) (ofArr1 x4) (ofArr2 x5) (ofArr1 x6) (ofArr2 x7) (ofArr1 x8) (ofArr2 x9)) (ofArr2 x14) p q + ofArr1 x15 q) + (ofArr1 x11 q + ofArr1 x13 q))
  generalize mm (ofArr2 x2) (mm (hidden (ofArr2 x0) (ofArr2 x1) (ofArr2 x2) (ofArr2 x3) (ofArr1 x4) (ofArr2 x5) (ofArr1 x6) (ofArr2 x7) (ofArr1 x8) (ofArr2 x9)) (ofArr2 x12)) p q = B
  generalize mm (ofArr2 x1) (mm (hidden (ofArr2 x0) (ofArr2 x1) (ofArr2 x2) (ofArr2 x3) (ofArr1 x4) (ofArr2 x5) (ofArr1 x6) (ofArr2 x7) (ofArr1 x8) (ofArr2 x9)) (ofArr2 x10)) p q = A
  generalize Ideal.tanh (mm (hidden (ofArr2 x0) (ofArr2 x1) (ofArr2 x2) (ofArr2 x3) (ofArr1 x4) (ofArr2 x5) (ofArr1 x6) (ofArr2 x7) (ofArr1 x8) (ofArr2 x9)) (ofArr2 x14) p q + ofArr1 x15 q) = T
  generalize ofArr1 x13 q = c2
  generalize ofArr1 x11 q = c1
  ac_rfl

end Cert.ReferenceIdeal.RefValue

end
-- ==== Proof.RefResult.lean ====
/-
  The reference's result array is the specification's result array of the sixteen argument arrays.
-/
import proofs.«110970_g76141180223726_cont_sun_m_824_6_alg».proof.Proof.RefLayer2
import proofs.«110970_g76141180223726_cont_sun_m_824_6_alg».proof.Proof.SpecArr

noncomputable section

namespace Cert.ReferenceIdeal.RefValue

open Cert.ReferenceIdeal Idealize.ShloMosaic Idealize.ShloMosaic.ValueIdx

/-- The reference's last stage, as an array, is the specification's result array. -/
theorem ref_value (x0 : (⟨S10000x768, .f32⟩ : BufTy).Contents (Elt Ideal)) (x1 : (⟨S10000x10000, .f32⟩ : BufTy).Contents (Elt Ideal)) (x2 : (⟨S10000x10000, .f32⟩ : BufTy).Contents (Elt Ideal)) (x3 : (⟨S768x128, .f32⟩ : BufTy).Contents (Elt Ideal)) (x4 : (⟨S128, .f32⟩ : BufTy).Contents (Elt Ideal)) (x5 : (⟨S768x128, .f32⟩ : BufTy).Contents (Elt Ideal)) (x6 : (⟨S128, .f32⟩ : BufTy).Contents (Elt Ideal)) (x7 : (⟨S768x128, .f32⟩ : BufTy).Contents (Elt Ideal)) (x8 : (⟨S128, .f32⟩ : BufTy).Contents (Elt Ideal)) (x9 : (⟨S384x3, .f32⟩ : BufTy).Contents (Elt Ideal)) (x10 : (⟨S128x2, .f32⟩ : BufTy).Contents (Elt Ideal)) (x11 : (⟨S2, .f32⟩ : BufTy).Contents (Elt Ideal)) (x12 : (⟨S128x2, .f32⟩ : BufTy).Contents (Elt Ideal)) (x13 : (⟨S2, .f32⟩ : BufTy).Contents (Elt Ideal)) (x14 : (⟨S128x2, .f32⟩ : BufTy).Contents (Elt Ideal)) (x15 : (⟨S2, .f32⟩ : BufTy).Contents (Elt Ideal)) :
    Cert.ReferenceIdeal.Read.val_main_v53 (F := Ideal) x0 x1 x2 x3 x4 x5 x6 x7 x8 x9 x10 x11 x12 x13 x14 x15 = Cert.Spec.resultArr x0 x1 x2 x3 x4 x5 x6 x7 x8 x9 x10 x11 x12 x13 x14 x15 :=
  Cert.Spec.eq_resultArr x0 x1 x2 x3 x4 x5 x6 x7 x8 x9 x10 x11 x12 x13 x14 x15 _ (fun p q => reference_eq x0 x1 x2 x3 x4 x5 x6 x7 x8 x9 x10 x11 x12 x13 x14 x15 p q)

end Cert.ReferenceIdeal.RefValue

end
-- ==== Proof.RefFrame.lean ====
/-
  The reference's frame claim: the reference runs and its argument arrays end unchanged. This is the reference's
  generated run with the statement about the result dropped.
-/
import proofs.«110970_g76141180223726_cont_sun_m_824_6_alg».proof.Defs
import proofs.«110970_g76141180223726_cont_sun_m_824_6_alg».proof.Proof.Gen.ReferenceIdeal
import proofs.«110970_g76141180223726_cont_sun_m_824_6_alg».proof.Proof.Gen.ReferenceIdeal.Run
import proofs.«110970_g76141180223726_cont_sun_m_824_6_alg».proof.Proof.Gen.Pre_finite_inputs

noncomputable section

namespace Cert.ReferenceIdeal.RefValue

open Idealize.ShloMosaic Idealize.SL.Sem

/-- The reference terminates without fault and leaves its sixteen argument arrays as they were. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate's five claims.

  The three frames: each printed program of the kernel runs its host stretch and its three regions to the end, faulting
  nowhere and leaving every argument array as launched (the run of the three regions in sequence, read at the argument
  buffers); the reference's frame is its run with the result forgotten. The idealization rewrote nothing, so there is
  nothing to preserve. The value claim: the kernel's run leaves in its result array, and the reference's run in its own,
  the same function of the sixteen argument arrays — the two-layer network of the specification — index by index on
  the extended reals; the two sides differ only in how finite sums are split and in the order of additions.
-/
import proofs.«110970_g76141180223726_cont_sun_m_824_6_alg».proof.Defs
import proofs.«110970_g76141180223726_cont_sun_m_824_6_alg».proof.Proof.Gen.Kernel
import proofs.«110970_g76141180223726_cont_sun_m_824_6_alg».proof.Proof.Gen.KernelIdeal
import proofs.«110970_g76141180223726_cont_sun_m_824_6_alg».proof.Proof.Gen.ReferenceIdeal
import proofs.«110970_g76141180223726_cont_sun_m_824_6_alg».proof.Proof.Gen.Pre_finite_inputs
import proofs.«110970_g76141180223726_cont_sun_m_824_6_alg».proof.Proof.KRun
import proofs.«110970_g76141180223726_cont_sun_m_824_6_alg».proof.Proof.KIRun
import proofs.«110970_g76141180223726_cont_sun_m_824_6_alg».proof.Proof.KResult
import proofs.«110970_g76141180223726_cont_sun_m_824_6_alg».proof.Proof.RefResult
import proofs.«110970_g76141180223726_cont_sun_m_824_6_alg».proof.Proof.RefFrame
import Idealize.ShloMosaic.Adequacy
import Idealize.ShloMosaic.Init

noncomputable section

namespace Cert.Proof

open Idealize.ShloMosaic Idealize.ShloMosaic.TcCoe Idealize.SL.Sem

/-- The word-level program's frame. -/
theorem frame_p : Cert.frame_Kernel := fun m ρ _ => Cert.Kernel.Hand.frame (F := Bits) m ρ

/-- The idealized program's frame. -/
theorem frame_pi : Cert.frame_KernelIdeal := fun m ρ _ => Cert.KernelIdeal.Hand.frame (F := Ideal) m ρ

/-- Both runs end with the specification's result array of the (agreeing) argument arrays. -/
theorem algebraic : Cert.algebraic_KernelIdeal_ReferenceIdeal := by
  intro m ρ m' ρ' _ hagree
  refine ⟨fun c => Cert.Spec.resultArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.Hand.run_main (F := Ideal) m ρ)
    exact ⟨((h c _ (Cert.KernelIdeal.Hand.mem_uc Cert.KernelIdeal.main_v19 (by decide))).trans (Cert.KernelIdeal.Hand.W4_main_v19 m c)).trans (Cert.KernelIdeal.KValue.kernel_value m c),
      (h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c),
      (h c _ (Cert.KernelIdeal.Hand.mem_uc Cert.KernelIdeal.main_arg5 (by decide))).trans (Cert.KernelIdeal.Hand.W4_main_arg5 m c),
      (h c _ (Cert.KernelIdeal.Hand.mem_uc Cert.KernelIdeal.main_arg6 (by decide))).trans (Cert.KernelIdeal.Hand.W4_main_arg6 m c),
      (h c _ (Cert.KernelIdeal.Hand.mem_uc Cert.KernelIdeal.main_arg7 (by decide))).trans (Cert.KernelIdeal.Hand.W4_main_arg7 m c),
      (h c _ (Cert.KernelIdeal.Hand.mem_uc Cert.KernelIdeal.main_arg8 (by decide))).trans (Cert.KernelIdeal.Hand.W4_main_arg8 m c),
      (h c _ (Cert.KernelIdeal.Hand.mem_uc Cert.KernelIdeal.main_arg9 (by decide))).trans (Cert.KernelIdeal.Hand.W4_main_arg9 m c),
      (h c _ (Cert.KernelIdeal.Hand.mem_uc Cert.KernelIdeal.main_arg10 (by decide))).trans (Cert.KernelIdeal.Hand.W4_main_arg10 m c),
      (h c _ (Cert.KernelIdeal.Hand.mem_uc Cert.KernelIdeal.main_arg11 (by decide))).trans (Cert.KernelIdeal.Hand.W4_main_arg11 m c),
      (h c _ (Cert.KernelIdeal.Hand.mem_uc Cert.KernelIdeal.main_arg12 (by decide))).trans (Cert.KernelIdeal.Hand.W4_main_arg12 m c),
      (h c _ (Cert.KernelIdeal.Hand.mem_uc Cert.KernelIdeal.main_arg13 (by decide))).trans (Cert.KernelIdeal.Hand.W4_main_arg13 m c),
      (h c _ (Cert.KernelIdeal.Hand.mem_uc Cert.KernelIdeal.main_arg14 (by decide))).trans (Cert.KernelIdeal.Hand.W4_main_arg14 m c),
      (h c _ (Cert.KernelIdeal.Hand.mem_uc Cert.KernelIdeal.main_arg15 (by decide))).trans (Cert.KernelIdeal.Hand.W4_main_arg15 m c)⟩
  · refine (θ_run Cert.ReferenceIdeal.defs _ _).mono (fun r h c => ⟨(h c).1.trans ?_, (h c).2⟩) (Cert.ReferenceIdeal.Value.run (F := Ideal) m' ρ')
    rw [Cert.ReferenceIdeal.Read.val_main_v53_eq, Cert.ReferenceIdeal.RefValue.ref_value]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, Cert.ReferenceIdeal.RefValue.frame_ri, trivial, algebraic⟩

end Cert.Proof

end
